-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1 : Shape := ⟨2, ![16384, 1]⟩
abbrev S16384x16384 : Shape := ⟨2, ![16384, 16384]⟩
abbrev S1x32 : Shape := ⟨2, ![1, 32]⟩
abbrev S32x32 : Shape := ⟨2, ![32, 32]⟩
abbrev S32x1 : Shape := ⟨2, ![32, 1]⟩
abbrev S_ : Shape := ⟨0, ![]⟩

class Facts : Prop where
  bcast_S_S16384x1 : S_.BroadcastsInDim S16384x1 (![] : Fin 0 → Fin S16384x1.rank)
  reducesTo_S16384x1_S_d0_1 : S16384x1.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S1x32 : S_.BroadcastsInDim S1x32 (![] : Fin 0 → Fin S1x32.rank)
  reducesTo_S1x32_S_d0_1 : S1x32.ReducesTo [0, 1] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_

variable [Facts]

def fn_part1 {F : FTy → Type} [FloatOps F] (main_arg4 : FVec F S32x1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32x1 .f32 := Host.absf main_arg4
  let main_cst_6 : FVec F S_ .f32 := constant S_ .f32 0x7F800000#32
  let main_v20 : FVec F S32x1 .f32 := broadcastInDim S32x1 ![] bcast_S_S32x1 main_cst_6
  let main_v21 : IVec S32x1 1 := cmpf .olt main_v19 main_v20
  let main_c_7 : IVec S_ 1 := constantI S_ 1 1#1
  let main_v22 : IVec S_ 1 := (fun x v => Host.reduce IntOp.andi x v reducesTo_S32x1_S_d0_1 h_S_) main_v21 main_c_7
  let main_v23 : IVec S_ 1 := andi main_v18 main_v22
  main_v23

def fn {F : FTy → Type} [FloatOps F] (main_arg0 : FVec F S16384x1 .f32) (main_arg1 : FVec F S16384x16384 .f32) (main_arg2 : FVec F S1x32 .f32) (main_arg3 : FVec F S32x32 .f32) (main_arg4 : FVec F S32x1 .f32) : IVec S_ 1 :=
  let main_v0 : FVec F S16384x1 .f32 := Host.absf main_arg0
  let main_cst : FVec F S_ .f32 := constant S_ .f32 0x7F800000#32
  let main_v1 : FVec F S16384x1 .f32 := broadcastInDim S16384x1 ![] bcast_S_S16384x1 main_cst
  let main_v2 : IVec S16384x1 1 := cmpf .olt main_v0 main_v1
  let main_c : IVec S_ 1 := constantI S_ 1 1#1
  let main_v3 : IVec S_ 1 := (fun x v => Host.reduce IntOp.andi x v reducesTo_S16384x1_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_v13 main_v16
-- ==== Kernel.lean ====
abbrev S16384x1 : Shape := ⟨2, ![16384, 1]⟩
abbrev S16384x16384 : Shape := ⟨2, ![16384, 16384]⟩
abbrev S1x32 : Shape := ⟨2, ![1, 32]⟩
abbrev S32x32 : Shape := ⟨2, ![32, 32]⟩
abbrev S32x1 : Shape := ⟨2, ![32, 1]⟩
abbrev S16384x32 : Shape := ⟨2, ![16384, 32]⟩
abbrev S1024x2048 : Shape := ⟨2, ![1024, 2048]⟩
abbrev S2048x32 : Shape := ⟨2, ![2048, 32]⟩
abbrev S1024x32 : Shape := ⟨2, ![1024, 32]⟩
abbrev S1024x4096 : Shape := ⟨2, ![1024, 4096]⟩
abbrev S4096x32 : Shape := ⟨2, ![4096, 32]⟩
abbrev S1024x1 : Shape := ⟨2, ![1024, 1]⟩
abbrev S4096x1 : Shape := ⟨2, ![4096, 1]⟩

abbrev nBuf : Space → Nat
  | .hbm => 10
  | .vmem => 25
  | .smem => 0
  | _ => 0

abbrev bufTy : (tb : Table) → Fin (tcTables nBuf tb) → BufTy
  | .hbm, ⟨0, _⟩ => ⟨S16384x1, .f32⟩
  | .hbm, ⟨1, _⟩ => ⟨S16384x16384, .f32⟩
  | .hbm, ⟨2, _⟩ => ⟨S1x32, .f32⟩
  | .hbm, ⟨3, _⟩ => ⟨S32x32, .f32⟩
  | .hbm, ⟨4, _⟩ => ⟨S32x1, .f32⟩
  | .hbm, ⟨5, _⟩ => ⟨S16384x32, .f32⟩
  | .hbm, ⟨6, _⟩ => ⟨S16384x32, .f32⟩
  | .hbm, ⟨7, _⟩ => ⟨S16384x16384, .bf16⟩
  | .hbm, ⟨8, _⟩ => ⟨S16384x1, .f32⟩
  | .hbm, ⟨9, _⟩ => ⟨S16384x1, .f32⟩
  | .local _ .vmem, ⟨0, _⟩ => ⟨S1024x2048, .f32⟩
  | .local _ .vmem, ⟨1, _⟩ => ⟨S1024x2048, .f32⟩
  | .local _ .vmem, ⟨2, _⟩ => ⟨S2048x32, .f32⟩
  | .local _ .vmem, ⟨3, _⟩ => ⟨S2048x32, .f32⟩
  | .local _ .vmem, ⟨4, _⟩ => ⟨S32x32, .f32⟩
  | .local _ .vmem, ⟨5, _⟩ => ⟨S1024x32, .f32⟩
  | .local _ .vmem, ⟨6, _⟩ => ⟨S1024x32, .f32⟩
  | .local _ .vmem, ⟨7, _⟩ => ⟨S1024x2048, .bf16⟩
  | .local _ .vmem, ⟨8, _⟩ => ⟨S1024x2048, .bf16⟩
  | .local _ .vmem, ⟨9, _⟩ => ⟨S1024x32, .f32⟩
  | .local _ .vmem, ⟨10, _⟩ => ⟨S1024x4096, .bf16⟩
  | .local _ .vmem, ⟨11, _⟩ => ⟨S1024x4096, .bf16⟩
  | .local _ .vmem, ⟨12, _⟩ => ⟨S4096x32, .f32⟩
  | .local _ .vmem, ⟨13, _⟩ => ⟨S4096x32, .f32⟩
  | .local _ .vmem, ⟨14, _⟩ => ⟨S32x1, .f32⟩
  | .local _ .vmem, ⟨15, _⟩ => ⟨S1024x1, .f32⟩
  | .local _ .vmem, ⟨16, _⟩ => ⟨S1024x1, .f32⟩
  | .local _ .vmem, ⟨17, _⟩ => ⟨S1024x32, .f32⟩
  | .local _ .vmem, ⟨18, _⟩ => ⟨S1024x4096, .bf16⟩
  | .local _ .vmem, ⟨19, _⟩ => ⟨S1024x4096, .bf16⟩
  | .local _ .vmem, ⟨20, _⟩ => ⟨S4096x1, .f32⟩
  | .local _ .vmem, ⟨21, _⟩ => ⟨S4096x1, .f32⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | _, _ => ⟨S16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![16, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S32x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![16, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S4096x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S32x32_S32x32_0_0 : ∀ a, (![0, 0] : Fin 2 → Nat) a + S32x32.size a ≤ S32x32.size a
  h_S32x32 : 0 < S32x32.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S32x1_S32x1_0_0 : ∀ a, (![0, 0] : Fin 2 → Nat) a + S32x1.size a ≤ S32x1.size a
  h_S32x1 : 0 < S32x1.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  dot_S16384x1_S1x32_S16384x32_1_0_0_1_n_n_wf : DotDims.WF S16384x1 S1x32 S16384x32 [1] [0] [0] [1] [] []
  dot_S1024x2048_S2048x32_S1024x32_1_0_0_1_n_n_wf : DotDims.WF S1024x2048 S2048x32 S1024x32 [1] [0] [0] [1] [] []
  dot_S1024x32_S32x32_S1024x32_1_0_0_1_n_n_wf : DotDims.WF S1024x32 S32x32 S1024x32 [1] [0] [0] [1] [] []
  dot_S1024x4096_S4096x32_S1024x32_1_0_0_1_n_n_wf : DotDims.WF S1024x4096 S4096x32 S1024x32 [1] [0] [0] [1] [] []
  dot_S1024x32_S32x1_S1024x1_1_0_0_1_n_n_wf : DotDims.WF S1024x32 S32x1 S1024x1 [1] [0] [0] [1] [] []
  dot_S1024x4096_S4096x1_S1024x1_1_0_0_1_n_n_wf : DotDims.WF S1024x4096 S4096x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S16384x32.size a
  hwx0_1 : ∀ i : grid0.Coords, EltTy.bits .f32 = 32 ∨ (Rect.block (s := S16384x32) S2048x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S16384x32.size a
  hwx0_3 : ∀ i : grid0.Coords, EltTy.bits .f32 = 32 ∨ (Rect.block (s := S16384x32) S1024x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S16384x16384.size a
  hwx0_4 : ∀ i : grid0.Coords, EltTy.bits .bf16 = 32 ∨ (Rect.block (s := S16384x16384) S1024x2048.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S16384x16384.size a
  hwx1_0 : ∀ i : grid1.Coords, EltTy.bits .bf16 = 32 ∨ (Rect.block (s := S16384x16384) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x32.size a ≤ S16384x32.size a
  hwx1_1 : ∀ i : grid1.Coords, EltTy.bits .f32 = 32 ∨ (Rect.block (s := S16384x32) S4096x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x1.size a ≤ S32x1.size a
  hwx1_2 : ∀ i : grid1.Coords, EltTy.bits .f32 = 32 ∨ (Rect.block (s := S32x1) S32x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S16384x1.size a
  hwx1_3 : ∀ i : grid1.Coords, EltTy.bits .f32 = 32 ∨ (Rect.block (s := S16384x1) S1024x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S16384x16384.size a
  hwx2_0 : ∀ i : grid2.Coords, EltTy.bits .bf16 = 32 ∨ (Rect.block (s := S16384x16384) S1024x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x1.size a ≤ S16384x1.size a
  hwx2_1 : ∀ i : grid2.Coords, EltTy.bits .f32 = 32 ∨ (Rect.block (s := S16384x1) S4096x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S16384x1.size a
  hwx2_2 : ∀ i : grid2.Coords, EltTy.bits .f32 = 32 ∨ (Rect.block (s := S16384x1) S1024x1.size (cc2_transform_2 i) (hinb2_2 i)).WholeWords (EltTy.packing .f32)

variable [Facts₀]

def dot_S16384x1_S1x32_S16384x32_1_0_0_1_n_n : DotDims S16384x1 S1x32 S16384x32 where
  lhsContracting := [1]
  rhsContracting := [0]
  lhsNonContracting := [0]
  rhsNonContracting := [1]
  lhsBatch := []
  rhsBatch := []
  wf := dot_S16384x1_S1x32_S16384x32_1_0_0_1_n_n_wf
def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S1024x4096_S4096x32_S1024x32_1_0_0_1_n_n : DotDims S1024x4096 S4096x32 S1024x32 where
  lhsContracting := [1]
  rhsContracting := [0]
  lhsNonContracting := [0]
  rhsNonContracting := [1]
  lhsBatch := []
  rhsBatch := []
  wf := dot_S1024x4096_S4096x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf
def dot_S1024x4096_S4096x1_S1024x1_1_0_0_1_n_n : DotDims S1024x4096 S4096x1 S1024x1 where
  lhsContracting := [1]
  rhsContracting := [0]
  lhsNonContracting := [0]
  rhsNonContracting := [1]
  lhsBatch := []
  rhsBatch := []
  wf := dot_S1024x4096_S4096x1_S1024x1_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1024x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun _ => false | ⟨_ + 5, h⟩ => absurd h (Nat.not_lt.2 (Nat.le_add_left _ _))

abbrev win1_0 : Pipeline.Window sig grid1 :=
  Pipeline.Window.ofSpec (Memref.whole main_v1_1) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S4096x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v1_1) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S4096x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S16384x1 : Shape := ⟨2, ![16384, 1]⟩
abbrev S16384x16384 : Shape := ⟨2, ![16384, 16384]⟩
abbrev S1x32 : Shape := ⟨2, ![1, 32]⟩
abbrev S32x32 : Shape := ⟨2, ![32, 32]⟩
abbrev S32x1 : Shape := ⟨2, ![32, 1]⟩
abbrev S16384x32 : Shape := ⟨2, ![16384, 32]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x1, .f32⟩
  | .hbm, ⟨1, _⟩ => ⟨S16384x16384, .f32⟩
  | .hbm, ⟨2, _⟩ => ⟨S1x32, .f32⟩
  | .hbm, ⟨3, _⟩ => ⟨S32x32, .f32⟩
  | .hbm, ⟨4, _⟩ => ⟨S32x1, .f32⟩
  | .hbm, ⟨5, _⟩ => ⟨S16384x32, .f32⟩
  | .hbm, ⟨6, _⟩ => ⟨S16384x32, .f32⟩
  | .hbm, ⟨7, _⟩ => ⟨S_, .f32⟩
  | .hbm, ⟨8, _⟩ => ⟨S16384x32, .f32⟩
  | .hbm, ⟨9, _⟩ => ⟨S16384x32, .f32⟩
  | .hbm, ⟨10, _⟩ => ⟨S16384x32, .f32⟩
  | .hbm, ⟨11, _⟩ => ⟨S16384x32, .f32⟩
  | .hbm, ⟨12, _⟩ => ⟨S_, .f32⟩
  | .hbm, ⟨13, _⟩ => ⟨S16384x32, .f32⟩
  | .hbm, ⟨14, _⟩ => ⟨S16384x32, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | _, _ => ⟨S16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_cst : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S_S16384x32 : S_.BroadcastsInDim S16384x32 (![] : Fin 0 → Fin S16384x32.rank)
  bcast_S_S16384x1 : S_.BroadcastsInDim S16384x1 (![] : Fin 0 → Fin S16384x1.rank)
  dot_S16384x1_S1x32_S16384x32_1_0_0_1_n_n_wf : DotDims.WF S16384x1 S1x32 S16384x32 [1] [0] [0] [1] [] []
  dot_S16384x16384_S16384x32_S16384x32_1_0_0_1_n_n_wf : DotDims.WF S16384x16384 S16384x32 S16384x32 [1] [0] [0] [1] [] []
  dot_S16384x32_S32x32_S16384x32_1_0_0_1_n_n_wf : DotDims.WF S16384x32 S32x32 S16384x32 [1] [0] [0] [1] [] []
  dot_S16384x32_S32x1_S16384x1_1_0_0_1_n_n_wf : DotDims.WF S16384x32 S32x1 S16384x1 [1] [0] [0] [1] [] []
  dot_S16384x16384_S16384x1_S16384x1_1_0_0_1_n_n_wf : DotDims.WF S16384x16384 S16384x1 S16384x1 [1] [0] [0] [1] [] []

variable [Facts₀]

def dot_S16384x1_S1x32_S16384x32_1_0_0_1_n_n : DotDims S16384x1 S1x32 S16384x32 where
  lhsContracting := [1]
  rhsContracting := [0]
  lhsNonContracting := [0]
  rhsNonContracting := [1]
  lhsBatch := []
  rhsBatch := []
  wf := dot_S16384x1_S1x32_S16384x32_1_0_0_1_n_n_wf
def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf
def dot_S16384x16384_S16384x1_S16384x1_1_0_0_1_n_n : DotDims S16384x16384 S16384x1 S16384x1 where
  lhsContracting := [1]
  rhsContracting := [0]
  lhsNonContracting := [0]
  rhsNonContracting := [1]
  lhsBatch := []
  rhsBatch := []
  wf := dot_S16384x16384_S16384x1_S16384x1_1_0_0_1_n_n_wf

class Facts : Prop extends Facts₀ where

variable [Facts]
-- ==== Proof.Spec.lean ====
import Idealize.ShloMosaic.PureOps.Ideal
import Idealize.ShloMosaic.Lib.ValueIdx

/-! # What the network computes, index by index, on the extended reals

A three-layer graph convolution without bias on a dense adjacency matrix of 16384 nodes:
`x0 = inputs · W0`, `x1 = relu (adj · x0) · W1`, `x2 = relu (adj · x1) · W2`, `out = logistic (adj · x2)`.
Every product of matrices is the plain sum over the contracted index; `relu v = max v 0`;
`logistic v = 1 / (1 + e^(-v))` with its limits at the infinities. Both programs are shown to compute `G`. -/

noncomputable section

namespace Cert.Spec

open Idealize.ShloMosaic Idealize.ShloMosaic.ValueIdx

/-- A matrix of extended reals of the given extents. -/
abbrev Mat (r c : ℕ) : Type := (⟨2, ![r, c]⟩ : Shape).Idx → EReal

/-- `inputs · W0`: the contracted axis has a single entry. -/
def feat (inp : Mat 16384 1) (W0 : Mat 1 32) : Mat 16384 32 :=
  fun i => ∑ k : Fin 1, inp (ix2 (n0 := 16384) (i 0) k) * W0 (ix2 (n1 := 32) k (i 1))

/-- `(adj · X) r h` for a feature matrix of 32 columns: the neighbours' features summed with the edge weights. -/
def agg32 (adj : Mat 16384 16384) (X : Mat 16384 32) (r : Fin 16384) (h : Fin 32) : EReal :=
  ∑ j : Fin 16384, adj (ix2 r j) * X (ix2 j h)

/-- The same for a single column. -/
def agg1 (adj : Mat 16384 16384) (X : Mat 16384 1) (r : Fin 16384) (h : Fin 1) : EReal :=
  ∑ j : Fin 16384, adj (ix2 r j) * X (ix2 j h)

/-- `relu (adj · X) · W` with `W` square: the first layer followed by the second layer's projection. -/
def layer1 (adj : Mat 16384 16384) (X : Mat 16384 32) (W : Mat 32 32) : Mat 16384 32 :=
  fun i => ∑ h : Fin 32, max (agg32 adj X (i 0) h) 0 * W (ix2 (n1 := 32) h (i 1))

/-- `relu (adj · X) · W` with `W` a single column. -/
def layer2 (adj : Mat 16384 16384) (X : Mat 16384 32) (W : Mat 32 1) : Mat 16384 1 :=
  fun i => ∑ h : Fin 32, max (agg32 adj X (i 0) h) 0 * W (ix2 (n1 := 1) h (i 1))

/-- `logistic (adj · X)`. -/
def layer3 (adj : Mat 16384 16384) (X : Mat 16384 1) : Mat 16384 1 :=
  fun i => Ideal.logistic (agg1 adj X (i 0) (i 1))

/-- The whole network. -/
def G (inp : Mat 16384 1) (adj : Mat 16384 16384) (W0 : Mat 1 32) (W1 : Mat 32 32) (W2 : Mat 32 1) : Mat 16384 1 :=
  layer3 adj (layer2 adj (layer1 adj (feat inp W0) W1) W2)

end Cert.Spec

end
-- ==== Proof.BitsSide.Dats.lean ====
import proofs.«131155_j73212012528270_2_alg».proof.Proof.Gen.Kernel.Launch
import proofs.«131155_j73212012528270_2_alg».proof.Proof.Gen.Kernel.Skeleton
import proofs.«131155_j73212012528270_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The proof data of the three pallas_calls, at a parameter `V`

Each call walks a grid (row tile, K tile), K innermost, and keeps a running sum of partial matrix products in a scratch
buffer: zeroed at the first K tile of a row tile, added to at every K tile, read out (through the epilogue) at the last.
`V` is the contents of the TensorCore's buffers when the call is entered. -/

variable (V : (c : Dev nD) → (b : Ref sig .tc) → Buf (Elt F) ((c : Thread nD τ).loc b))

/-! ## Call 0: `relu (adj · x0) · W1`, and the bf16 copy of `adj` -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator of call 0. -/
abbrev scM0 : Memref sig .tc .vmem S1024x32 .f32 := Memref.whole cc0_scratch0

/-- The running sum after point `n`: this point's partial product added to the sum so far, which restarts from zero at
    the first K tile of each row tile (every eighth point). -/
def acc0 (c : Dev nD) : (n : ℕ) → n < cfg0.N → Vec F S1024x32 .f32
  | 0, h => k0_pay3 (iblk0 V c 0 ⟨0, h⟩) (iblk0 V c 1 ⟨0, h⟩) k0_pay1
  | n + 1, h => k0_pay3 (iblk0 V c 0 ⟨n + 1, h⟩) (iblk0 V c 1 ⟨n + 1, h⟩)
      (if (n + 1) % 8 = 0 then k0_pay1 else acc0 c n (Nat.lt_of_succ_lt h))

/-- What rides beside the accumulator through the call: every other scoped buffer, unopened, and the generator register. -/
def rest0 (c : Dev nD) : sProp 𝕄 :=
  iprop(Pipeline.scopedRestBut (Ix := Unit) (Name := ℕ) (U := UR sig nD τ) (Lvl := ℕ) (Val := Elt F) spec0 c [cc0_scratch0] ∗ (∃ r, prngReg c r))

/-- The invariant before position `n`: before the first point the accumulator holds anything; afterwards the running sum. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ rest0 c)

/-- The proof data of call 0: inputs at their blocks; the projected output at the epilogue of the running sum (read
    only at the last K tile of a row tile); the bf16 copy at the cast of this point's `adj` block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay4 (acc0 V c t.val t.isLt) (iblk0 V c 2 t)
    | ⟨4, _⟩ => k0_pay2 (iblk0 V c 0 t)
  Φ t := PhiS0 V c t.val (Nat.le_of_lt_succ t.isLt)
  q _ := fullShare
  owed _ := 0

/-! ## Call 1: `relu (adj · x1) · W2` -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scM1 : Memref sig .tc .vmem S1024x32 .f32 := Memref.whole cc1_scratch0

/-- The running sum after point `n`; it restarts every fourth point. -/
def acc1 (c : Dev nD) : (n : ℕ) → n < cfg1.N → Vec F S1024x32 .f32
  | 0, h => k1_pay2 (iblk1 V c 0 ⟨0, h⟩) (iblk1 V c 1 ⟨0, h⟩) k1_pay1
  | n + 1, h => k1_pay2 (iblk1 V c 0 ⟨n + 1, h⟩) (iblk1 V c 1 ⟨n + 1, h⟩)
      (if (n + 1) % 4 = 0 then k1_pay1 else acc1 c n (Nat.lt_of_succ_lt h))

def rest1 (c : Dev nD) : sProp 𝕄 :=
  iprop(Pipeline.scopedRestBut (Ix := Unit) (Name := ℕ) (U := UR sig nD τ) (Lvl := ℕ) (Val := Elt F) spec1 c [cc1_scratch0] ∗ (∃ r, prngReg c r))

def PhiS1 (c : Dev nD) : (n : ℕ) → n ≤ cfg1.N → sProp 𝕄
  | 0, _ => Pipeline.ΦA spec1 c
  | n + 1, hn => iprop(owns (c : Thread nD τ) scM1 fullShare (acc1 V c n hn) ∗ rest1 c)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

/-! ## Call 2: `logistic (adj · x2)` -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2 : Memref sig .tc .vmem S1024x1 .f32 := Memref.whole cc2_scratch0

def acc2 (c : Dev nD) : (n : ℕ) → n < cfg2.N → Vec F S1024x1 .f32
  | 0, h => k2_pay2 (iblk2 V c 0 ⟨0, h⟩) (iblk2 V c 1 ⟨0, h⟩) k2_pay1
  | n + 1, h => k2_pay2 (iblk2 V c 0 ⟨n + 1, h⟩) (iblk2 V c 1 ⟨n + 1, h⟩)
      (if (n + 1) % 4 = 0 then k2_pay1 else acc2 c n (Nat.lt_of_succ_lt h))

def rest2 (c : Dev nD) : sProp 𝕄 :=
  iprop(Pipeline.scopedRestBut (Ix := Unit) (Name := ℕ) (U := UR sig nD τ) (Lvl := ℕ) (Val := Elt F) spec2 c [cc2_scratch0] ∗ (∃ r, prngReg c r))

def PhiS2 (c : Dev nD) : (n : ℕ) → n ≤ cfg2.N → sProp 𝕄
  | 0, _ => Pipeline.ΦA spec2 c
  | n + 1, hn => iprop(owns (c : Thread nD τ) scM2 fullShare (acc2 V c n hn) ∗ rest2 c)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t.val t.isLt)
  Φ t := PhiS2 V c t.val (Nat.le_of_lt_succ t.isLt)
  q _ := fullShare
  owed _ := 0

end Cert.Kernel.Hand

end
-- ==== Proof.BitsSide.Bounds.lean ====
import proofs.«131155_j73212012528270_2_alg».proof.Proof.BitsSide.Dats
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! # The run of `@main`: one host product, then the three calls

`@main` computes `x0 = inputs · W0` on the host and launches the three calls one after the other. Between two items the
TensorCore's unscoped buffers hold known contents: the launch memory, then the host product written, then after each call
its arrays at what its write-backs leave and everything else as before. The run ends with every unscoped buffer at the last of these valuations; the frame and the result's value are read off it. -/

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host product (call 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After call 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After call 1. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After call 2 (the end of `@main`). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- The host product writes `main_v0` only. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.binary_writes, Finset.mem_singleton]
    exact StableHlo.devRef_ne_of_ne hb))

/-! # Reading the boundary valuations

No item writes an argument array: the host product writes `main_v0`, call 0 its two outputs, call 1 `main_v2`, call 2 the
result. So each argument walks back through the valuations to the launch memory, and each array a later call reads is
what the earlier call's write-backs left. -/

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_ne m ρ c main_arg0 (by decide)
    _ = m ((c : Thread nD τ).loc main_arg0) := rfl

/-- `adj` is call 0's first input window: the pipeline reads it and leaves it. -/
theorem W2_main_arg1 (c : Dev nD) : W2 m ρ c (Proc.devRef .tc main_arg1) = W1 m ρ c (Proc.devRef .tc main_arg1) :=
  (W2_arr m ρ c 0).trans (((dat0 (V1 m ρ) c).arrAt_in 0 rfl _).trans (by dsimp only [dat0]))

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_main_arg1 m ρ c
    _ = W0 m ρ c (Proc.devRef .tc main_arg1) := W1_of_ne m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-- `W1` is call 0's third input window. -/
theorem W2_main_arg3 (c : Dev nD) : W2 m ρ c (Proc.devRef .tc main_arg3) = W1 m ρ c (Proc.devRef .tc main_arg3) :=
  (W2_arr m ρ c 2).trans (((dat0 (V1 m ρ) c).arrAt_in 2 rfl _).trans (by dsimp only [dat0]))

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_main_arg3 m ρ c
    _ = W0 m ρ c (Proc.devRef .tc main_arg3) := W1_of_ne m ρ c main_arg3 (by decide)
    _ = m ((c : Thread nD τ).loc main_arg3) := rfl

/-- `W2` is call 1's third input window. -/
theorem W3_main_arg4 (c : Dev nD) : W3 m ρ c (Proc.devRef .tc main_arg4) = W2 m ρ c (Proc.devRef .tc main_arg4) :=
  (W3_arr m ρ c 2).trans (((dat1 (V2 m ρ) c).arrAt_in 2 rfl _).trans (by dsimp only [dat1]))

theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_main_arg4 m ρ c
    _ = m ((c : Thread nD τ).loc main_arg4) := W2_main_arg4 m ρ c

/-! ## What each call finds and leaves -/

/-- The result is what call 2's write-backs leave. -/
theorem V4_main_v3 (c : Dev nD) : V4 m ρ c main_v3 = (dat2 (V3 m ρ) c).arrAt 2 cfg2.N := W4_arr m ρ c 2

/-- Call 2 finds the bf16 `adj` as call 0 left it (call 1 only reads it), -/
theorem V3_main_v1_1 (c : Dev nD) : V3 m ρ c main_v1_1 = V2 m ρ c main_v1_1 :=
  (W3_arr m ρ c 0).trans (((dat1 (V2 m ρ) c).arrAt_in 0 rfl _).trans (by dsimp only [dat1]))
/-- and `x2` as call 1 left it. -/
theorem V3_main_v2 (c : Dev nD) : V3 m ρ c main_v2 = (dat1 (V2 m ρ) c).arrAt 3 cfg1.N := W3_arr m ρ c 3

/-- Call 1 finds `x1` and the bf16 `adj` as call 0 left them, and `W2` as launched. -/
theorem V2_main_v1_0 (c : Dev nD) : V2 m ρ c main_v1_0 = (dat0 (V1 m ρ) c).arrAt 3 cfg0.N := W2_arr m ρ c 3
theorem V2_main_v1_1 (c : Dev nD) : V2 m ρ c main_v1_1 = (dat0 (V1 m ρ) c).arrAt 4 cfg0.N := W2_arr m ρ c 4
theorem V2_main_arg4 (c : Dev nD) : V2 m ρ c main_arg4 = m ((c : Thread nD τ).loc main_arg4) := W2_main_arg4 m ρ c

/-- Call 0 finds `adj` and `W1` as launched. -/
theorem V1_main_arg1 (c : Dev nD) : V1 m ρ c main_arg1 = m ((c : Thread nD τ).loc main_arg1) := W1_of_ne m ρ c main_arg1 (by decide)
theorem V1_main_arg3 (c : Dev nD) : V1 m ρ c main_arg3 = m ((c : Thread nD τ).loc main_arg3) := W1_of_ne m ρ c main_arg3 (by decide)

/-- and `x0` as the host product of the launched `inputs` and `W0`. -/
theorem V1_main_v0 (c : Dev nD) :
    (V1 m ρ c main_v0 : S16384x32.Idx → Elt F .f32)
      = Host.dotGeneral dot_S16384x1_S1x32_S16384x32_1_0_0_1_n_n none (m ((c : Thread nD τ).loc main_arg0)) (m ((c : Thread nD τ).loc main_arg2)) := by
  show StableHlo.after hostOps0 (W0 m ρ c) (Proc.devRef .tc main_v0) = _
  after_results

end Cert.Kernel.Hand

end
-- ==== Proof.BitsSide.Body2.lean ====
import proofs.«131155_j73212012528270_2_alg».proof.Proof.Gen.Kernel.Launch
import proofs.«131155_j73212012528270_2_alg».proof.Proof.Gen.Kernel.Skeleton
import proofs.«131155_j73212012528270_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 2's body at one grid point

The body adds the product of this point's `adj` block and feature block to the accumulator, which it first zeroes at the
first K tile of a row tile, and at the last K tile stores the logistic of the sum into the output block. Three kinds
of point, by the K coordinate: first, middle, last. -/

/-- The all-zero offsets of a whole-block access, however spelt. -/
theorem hz2 : (![0, 0] : Fin (2 : ℕ) → ℕ) = fun _ => 0 := by funext a; fin_cases a <;> rfl

/-- The K coordinate is the first one (the accumulator is zeroed). -/
abbrev first2 (i : grid2.Coords) : Prop := (Scalar.cmpi .ne (Scalar.extui (Scalar.cmpi .eq (BitVec.ofNat 32 (i 1).val) 0#32)) 0#32) = 1#1
/-- The K coordinate is the last one (the output block is stored). -/
abbrev last2 (i : grid2.Coords) : Prop := k2_cond2 i = 1#1

set_option maxHeartbeats 1000000 in
/-- First K tile: whatever the accumulator held, it ends at zero plus this point's product; the output block is untouched. -/
theorem run2_first (c : Dev nD) (E : Set ℕ) (i : grid2.Coords)
    (arg2 : Memref sig .tc .vmem S1024x4096 .bf16) (harg2 : arg2.IsWhole) (arg3 : Memref sig .tc .vmem S4096x1 .f32) (harg3 : arg3.IsWhole)
    (arg4 : Memref sig .tc .vmem S1024x1 .f32) (harg4 : arg4.IsWhole) (arg5 : Memref sig .tc .vmem S1024x1 .f32) (harg5 : arg5.IsWhole)
    (a : Vec F S1024x4096 .bf16) (x : Vec F S4096x1 .f32) (K : PUnit → sProp 𝕄)
    (hf : first2 i) (hl : ¬ last2 i) (o : Vec F S1024x1 .f32) :
    iprop(owns (c : Thread nD τ) arg2 fullShare a ∗ owns (c : Thread nD τ) arg3 fullShare x ∗ owns (c : Thread nD τ) arg4 fullShare o
        ∗ (∃ d, owns (c : Thread nD τ) arg5 fullShare d)
        ∗ (iprop(owns (c : Thread nD τ) arg2 fullShare a ∗ owns (c : Thread nD τ) arg3 fullShare x ∗ owns (c : Thread nD τ) arg4 fullShare o
            ∗ owns (c : Thread nD τ) arg5 fullShare (k2_pay2 a x k2_pay1)) -∗ K ⟨⟩))
      ⊢ wp frame (wpE (defs₀ (F := F)) Variants.none c none) E (cc2__layer3_kernel i arg2 harg2 arg3 harg3 arg4 harg4 arg5 harg5) K := by
  simp only [cc2__layer3_kernel_eq_skeleton]; unfold cc2__layer3_kernel_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  sl_unfold_run_names
  rw [View.read_writes_eq_canon _ _ _ (fun y => ⟨_, List.mem_cons_self, View.mem_set_unit_zero hz2 inb_S1024x1_S1024x1_0_0 y⟩),
    View.canon_cons_unit_zero hz2]
  rw [View.readCov_unit_zero _ hz2]
  simp only [View.readAt_eq_ld, harg2.read_unread, harg3.read_unread, View.ld_unit_zero (S := S1024x4096) hz2,
    View.ld_unit_zero (S := S4096x1) hz2]

set_option maxHeartbeats 1000000 in
/-- A middle K tile: the accumulator ends at what it held plus this point's product; the output block is untouched. -/
theorem run2_mid (c : Dev nD) (E : Set ℕ) (i : grid2.Coords)
    (arg2 : Memref sig .tc .vmem S1024x4096 .bf16) (harg2 : arg2.IsWhole) (arg3 : Memref sig .tc .vmem S4096x1 .f32) (harg3 : arg3.IsWhole)
    (arg4 : Memref sig .tc .vmem S1024x1 .f32) (harg4 : arg4.IsWhole) (arg5 : Memref sig .tc .vmem S1024x1 .f32) (harg5 : arg5.IsWhole)
    (a : Vec F S1024x4096 .bf16) (x : Vec F S4096x1 .f32) (K : PUnit → sProp 𝕄)
    (hf : ¬ first2 i) (hl : ¬ last2 i) (o s : Vec F S1024x1 .f32) :
    iprop(owns (c : Thread nD τ) arg2 fullShare a ∗ owns (c : Thread nD τ) arg3 fullShare x ∗ owns (c : Thread nD τ) arg4 fullShare o
        ∗ owns (c : Thread nD τ) arg5 fullShare s
        ∗ (iprop(owns (c : Thread nD τ) arg2 fullShare a ∗ owns (c : Thread nD τ) arg3 fullShare x ∗ owns (c : Thread nD τ) arg4 fullShare o
            ∗ owns (c : Thread nD τ) arg5 fullShare (k2_pay2 a x s)) -∗ K ⟨⟩))
      ⊢ wp frame (wpE (defs₀ (F := F)) Variants.none c none) E (cc2__layer3_kernel i arg2 harg2 arg3 harg3 arg4 harg4 arg5 harg5) K := by
  simp only [cc2__layer3_kernel_eq_skeleton]; unfold cc2__layer3_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  sl_unfold_run_names
  rw [View.read_writes_eq_canon _ _ _ (fun y => ⟨_, List.mem_cons_self, View.mem_set_unit_zero hz2 inb_S1024x1_S1024x1_0_0 y⟩),
    View.canon_cons_unit_zero hz2]
  simp only [View.readAt_eq_ld, harg2.read_unread, harg3.read_unread, harg5.read_unread, View.ld_unit_zero (S := S1024x4096) hz2,
    View.ld_unit_zero (S := S4096x1) hz2, View.ld_unit_zero (S := S1024x1) hz2]

set_option maxHeartbeats 1000000 in
/-- The last K tile: the accumulator ends at what it held plus this point's product, and the output block at its logistic. -/
theorem run2_last (c : Dev nD) (E : Set ℕ) (i : grid2.Coords)
    (arg2 : Memref sig .tc .vmem S1024x4096 .bf16) (harg2 : arg2.IsWhole) (arg3 : Memref sig .tc .vmem S4096x1 .f32) (harg3 : arg3.IsWhole)
    (arg4 : Memref sig .tc .vmem S1024x1 .f32) (harg4 : arg4.IsWhole) (arg5 : Memref sig .tc .vmem S1024x1 .f32) (harg5 : arg5.IsWhole)
    (a : Vec F S1024x4096 .bf16) (x : Vec F S4096x1 .f32) (K : PUnit → sProp 𝕄)
    (hf : ¬ first2 i) (hl : last2 i) (s : Vec F S1024x1 .f32) :
    iprop(owns (c : Thread nD τ) arg2 fullShare a ∗ owns (c : Thread nD τ) arg3 fullShare x ∗ (∃ d, owns (c : Thread nD τ) arg4 fullShare d)
        ∗ owns (c : Thread nD τ) arg5 fullShare s
        ∗ (iprop(owns (c : Thread nD τ) arg2 fullShare a ∗ owns (c : Thread nD τ) arg3 fullShare x
            ∗ owns (c : Thread nD τ) arg4 fullShare (k2_pay3 (k2_pay2 a x s))
            ∗ owns (c : Thread nD τ) arg5 fullShare (k2_pay2 a x s)) -∗ K ⟨⟩))
      ⊢ wp frame (wpE (defs₀ (F := F)) Variants.none c none) E (cc2__layer3_kernel i arg2 harg2 arg3 harg3 arg4 harg4 arg5 harg5) K := by
  simp only [cc2__layer3_kernel_eq_skeleton]; unfold cc2__layer3_kernel_skel
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (fun y => ⟨_, List.mem_cons_self, View.mem_set_unit_zero hz2 inb_S1024x1_S1024x1_0_0 y⟩),
      View.canon_cons_unit_zero hz2]
    rw [View.readCov_unit_zero _ hz2]
    simp only [View.readAt_eq_ld, harg2.read_unread, harg3.read_unread, harg5.read_unread, View.ld_unit_zero (S := S1024x4096) hz2,
      View.ld_unit_zero (S := S4096x1) hz2, View.ld_unit_zero (S := S1024x1) hz2]
  iexists _; isplitr
  swap; · iexact H3
  ipureintro
  sl_unfold_run_names
  rw [View.read_writes_eq_canon _ _ _ (fun y => ⟨_, List.mem_cons_self, View.mem_set_unit_zero hz2 inb_S1024x1_S1024x1_0_0 y⟩),
    View.canon_cons_unit_zero hz2]
  simp only [View.readAt_eq_ld, harg2.read_unread, harg3.read_unread, harg5.read_unread, View.ld_unit_zero (S := S1024x4096) hz2,
    View.ld_unit_zero (S := S4096x1) hz2, View.ld_unit_zero (S := S1024x1) hz2]

end Cert.Kernel.Hand

end
-- ==== Proof.BitsSide.Body0.lean ====
import proofs.«131155_j73212012528270_2_alg».proof.Proof.Gen.Kernel.Launch
import proofs.«131155_j73212012528270_2_alg».proof.Proof.Gen.Kernel.Skeleton
import proofs.«131155_j73212012528270_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«131155_j73212012528270_2_alg».proof.Proof.BitsSide.Body2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 0's body at one grid point

The body rounds this point's `adj` block to bf16 and keeps the rounded block as a second output; it adds the product of
the rounded block and this point's feature block to the accumulator, zeroed at the first K tile of a row tile; at the
last K tile it stores `relu` of the sum times the projection matrix into the output block. Three kinds of point, by the
K coordinate: first, middle, last. -/

/-- The K coordinate is the first one (the accumulator is zeroed). -/
abbrev first0 (i : grid0.Coords) : Prop := (Scalar.cmpi .ne (Scalar.extui (Scalar.cmpi .eq (BitVec.ofNat 32 (i 1).val) 0#32)) 0#32) = 1#1
/-- The K coordinate is the last one (the output block is stored). -/
abbrev last0 (i : grid0.Coords) : Prop := k0_cond2 i = 1#1

set_option maxHeartbeats 1000000 in
/-- First K tile: whatever the accumulator held, it ends at zero plus this point's product; the rounded `adj` block is
    stored; the output block is untouched. -/
theorem run0_first (c : Dev nD) (E : Set ℕ) (i : grid0.Coords)
    (arg2 : Memref sig .tc .vmem S1024x2048 .f32) (harg2 : arg2.IsWhole) (arg3 : Memref sig .tc .vmem S2048x32 .f32) (harg3 : arg3.IsWhole)
    (arg4 : Memref sig .tc .vmem S32x32 .f32) (harg4 : arg4.IsWhole) (arg5 : Memref sig .tc .vmem S1024x32 .f32) (harg5 : arg5.IsWhole)
    (arg6 : Memref sig .tc .vmem S1024x2048 .bf16) (harg6 : arg6.IsWhole) (arg7 : Memref sig .tc .vmem S1024x32 .f32) (harg7 : arg7.IsWhole)
    (a : Vec F S1024x2048 .f32) (x : Vec F S2048x32 .f32) (w : Vec F S32x32 .f32) (K : PUnit → sProp 𝕄)
    (hf : first0 i) (hl : ¬ last0 i) (o : Vec F S1024x32 .f32) :
    iprop(owns (c : Thread nD τ) arg2 fullShare a ∗ owns (c : Thread nD τ) arg3 fullShare x ∗ owns (c : Thread nD τ) arg4 fullShare w
        ∗ owns (c : Thread nD τ) arg5 fullShare o ∗ (∃ d, owns (c : Thread nD τ) arg6 fullShare d) ∗ (∃ d, owns (c : Thread nD τ) arg7 fullShare d)
        ∗ (iprop(owns (c : Thread nD τ) arg2 fullShare a ∗ owns (c : Thread nD τ) arg3 fullShare x ∗ owns (c : Thread nD τ) arg4 fullShare w
            ∗ owns (c : Thread nD τ) arg5 fullShare o
            ∗ owns (c : Thread nD τ) arg6 fullShare (k0_pay2 a) ∗ owns (c : Thread nD τ) arg7 fullShare (k0_pay3 a x k0_pay1)) -∗ K ⟨⟩))
      ⊢ wp frame (wpE (defs₀ (F := F)) Variants.none c none) E (cc0__layer1_kernel i arg2 harg2 arg3 harg3 arg4 harg4 arg5 harg5 arg6 harg6 arg7 harg7) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [View.read_writes_eq_canon _ _ _ (fun y => ⟨_, List.mem_cons_self, View.mem_set_unit_zero hz2 inb_S1024x2048_S1024x2048_0_0 y⟩),
      View.canon_cons_unit_zero hz2]
    simp only [View.readAt_eq_ld, harg2.read_unread, View.ld_unit_zero (S := S1024x2048) hz2]
  iexists _; isplitr
  swap; · iexact H5
  ipureintro
  sl_unfold_run_names
  rw [View.read_writes_eq_canon _ _ _ (fun y => ⟨_, List.mem_cons_self, View.mem_set_unit_zero hz2 inb_S1024x32_S1024x32_0_0 y⟩),
    View.canon_cons_unit_zero hz2]
  rw [View.readCov_unit_zero _ hz2]
  simp only [View.readAt_eq_ld, harg2.read_unread, harg3.read_unread, View.ld_unit_zero (S := S1024x2048) hz2, View.ld_unit_zero (S := S2048x32) hz2]

set_option maxHeartbeats 1000000 in
/-- A middle K tile: the accumulator ends at what it held plus this point's product; the rounded `adj` block is stored;
    the output block is untouched. -/
theorem run0_mid (c : Dev nD) (E : Set ℕ) (i : grid0.Coords)
    (arg2 : Memref sig .tc .vmem S1024x2048 .f32) (harg2 : arg2.IsWhole) (arg3 : Memref sig .tc .vmem S2048x32 .f32) (harg3 : arg3.IsWhole)
    (arg4 : Memref sig .tc .vmem S32x32 .f32) (harg4 : arg4.IsWhole) (arg5 : Memref sig .tc .vmem S1024x32 .f32) (harg5 : arg5.IsWhole)
    (arg6 : Memref sig .tc .vmem S1024x2048 .bf16) (harg6 : arg6.IsWhole) (arg7 : Memref sig .tc .vmem S1024x32 .f32) (harg7 : arg7.IsWhole)
    (a : Vec F S1024x2048 .f32) (x : Vec F S2048x32 .f32) (w : Vec F S32x32 .f32) (K : PUnit → sProp 𝕄)
    (hf : ¬ first0 i) (hl : ¬ last0 i) (o : Vec F S1024x32 .f32) (s : Vec F S1024x32 .f32) :
    iprop(owns (c : Thread nD τ) arg2 fullShare a ∗ owns (c : Thread nD τ) arg3 fullShare x ∗ owns (c : Thread nD τ) arg4 fullShare w
        ∗ owns (c : Thread nD τ) arg5 fullShare o ∗ (∃ d, owns (c : Thread nD τ) arg6 fullShare d) ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare o
            ∗ owns (c : Thread nD τ) arg6 fullShare (k0_pay2 a) ∗ owns (c : Thread nD τ) arg7 fullShare (k0_pay3 a x s)) -∗ K ⟨⟩))
      ⊢ wp frame (wpE (defs₀ (F := F)) Variants.none c none) E (cc0__layer1_kernel i arg2 harg2 arg3 harg3 arg4 harg4 arg5 harg5 arg6 harg6 arg7 harg7) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1; obtain rfl := harg4.eq_unread hf2; obtain rfl := harg5.eq_unread hf3
  obtain rfl := harg7.eq_unread hf5
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [View.read_writes_eq_canon _ _ _ (fun y => ⟨_, List.mem_cons_self, View.mem_set_unit_zero hz2 inb_S1024x2048_S1024x2048_0_0 y⟩),
      View.canon_cons_unit_zero hz2]
    simp only [View.readAt_eq_ld, harg2.read_unread, View.ld_unit_zero (S := S1024x2048) hz2]
  iexists _; isplitr
  swap; · iexact H5
  ipureintro
  sl_unfold_run_names
  rw [View.read_writes_eq_canon _ _ _ (fun y => ⟨_, List.mem_cons_self, View.mem_set_unit_zero hz2 inb_S1024x32_S1024x32_0_0 y⟩),
    View.canon_cons_unit_zero hz2]
  simp only [View.readAt_eq_ld, harg2.read_unread, harg3.read_unread, harg7.read_unread, View.ld_unit_zero (S := S1024x2048) hz2, View.ld_unit_zero (S := S2048x32) hz2, View.ld_unit_zero (S := S1024x32) hz2]

set_option maxHeartbeats 1000000 in
/-- The last K tile: the accumulator ends at what it held plus this point's product, the rounded `adj` block is stored,
    and the output block ends at `relu` of that sum times the projection matrix. -/
theorem run0_last (c : Dev nD) (E : Set ℕ) (i : grid0.Coords)
    (arg2 : Memref sig .tc .vmem S1024x2048 .f32) (harg2 : arg2.IsWhole) (arg3 : Memref sig .tc .vmem S2048x32 .f32) (harg3 : arg3.IsWhole)
    (arg4 : Memref sig .tc .vmem S32x32 .f32) (harg4 : arg4.IsWhole) (arg5 : Memref sig .tc .vmem S1024x32 .f32) (harg5 : arg5.IsWhole)
    (arg6 : Memref sig .tc .vmem S1024x2048 .bf16) (harg6 : arg6.IsWhole) (arg7 : Memref sig .tc .vmem S1024x32 .f32) (harg7 : arg7.IsWhole)
    (a : Vec F S1024x2048 .f32) (x : Vec F S2048x32 .f32) (w : Vec F S32x32 .f32) (K : PUnit → sProp 𝕄)
    (hf : ¬ first0 i) (hl : last0 i) (s : Vec F S1024x32 .f32) :
    iprop(owns (c : Thread nD τ) arg2 fullShare a ∗ owns (c : Thread nD τ) arg3 fullShare x ∗ owns (c : Thread nD τ) arg4 fullShare w
        ∗ (∃ d, owns (c : Thread nD τ) arg5 fullShare d) ∗ (∃ d, owns (c : Thread nD τ) arg6 fullShare d) ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare (k0_pay4 (k0_pay3 a x s) w)
            ∗ owns (c : Thread nD τ) arg6 fullShare (k0_pay2 a) ∗ owns (c : Thread nD τ) arg7 fullShare (k0_pay3 a x s)) -∗ K ⟨⟩))
      ⊢ wp frame (wpE (defs₀ (F := F)) Variants.none c none) E (cc0__layer1_kernel i arg2 harg2 arg3 harg3 arg4 harg4 arg5 harg5 arg6 harg6 arg7 harg7) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, Hk⟩
  obtain rfl := harg2.eq_unread hf0; obtain rfl := harg3.eq_unread hf1; obtain rfl := harg4.eq_unread hf2
  obtain rfl := harg7.eq_unread hf5
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [View.read_writes_eq_canon _ _ _ (fun y => ⟨_, List.mem_cons_self, View.mem_set_unit_zero hz2 inb_S1024x32_S1024x32_0_0 y⟩),
      View.canon_cons_unit_zero hz2]
    rw [View.readCov_unit_zero _ hz2]
    simp only [View.readAt_eq_ld, harg2.read_unread, harg3.read_unread, harg4.read_unread, harg7.read_unread, View.ld_unit_zero (S := S1024x2048) hz2, View.ld_unit_zero (S := S2048x32) hz2, View.ld_unit_zero (S := S1024x32) hz2, View.ld_unit_zero (S := S32x32) hz2]
  isplitl [H4]
  · iexists _; isplitr
    swap; · iexact H4
    ipureintro
    sl_unfold_run_names
    rw [View.read_writes_eq_canon _ _ _ (fun y => ⟨_, List.mem_cons_self, View.mem_set_unit_zero hz2 inb_S1024x2048_S1024x2048_0_0 y⟩),
      View.canon_cons_unit_zero hz2]
    simp only [View.readAt_eq_ld, harg2.read_unread, View.ld_unit_zero (S := S1024x2048) hz2]
  iexists _; isplitr
  swap; · iexact H5
  ipureintro
  sl_unfold_run_names
  rw [View.read_writes_eq_canon _ _ _ (fun y => ⟨_, List.mem_cons_self, View.mem_set_unit_zero hz2 inb_S1024x32_S1024x32_0_0 y⟩),
    View.canon_cons_unit_zero hz2]
  simp only [View.readAt_eq_ld, harg2.read_unread, harg3.read_unread, harg7.read_unread, View.ld_unit_zero (S := S1024x2048) hz2, View.ld_unit_zero (S := S2048x32) hz2, View.ld_unit_zero (S := S1024x32) hz2]

end Cert.Kernel.Hand

end
-- ==== Proof.BitsSide.Oblig0.lean ====
import proofs.«131155_j73212012528270_2_alg».proof.Proof.BitsSide.Dats
import proofs.«131155_j73212012528270_2_alg».proof.Proof.BitsSide.Body0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 0: the body obligation at every grid point

The grid point `t` is (row tile, K tile) with the K tile innermost: `t % 8` is the K tile. The accumulator is zeroed at
`t % 8 = 0` and the output block stored at `t % 8 = 7`; between points the accumulator holds the running sum `acc0`. -/

variable (V : (c : Dev nD) → (b : Ref sig .tc) → Buf (Elt F) ((c : Thread nD τ).loc b))

/-! ## The two conditions, in closed form over the grid -/

theorem hfirst0 : ∀ t : Fin cfg0.N, first0 (grid0.coords t) ↔ t.val % 8 = 0 :=
  (by decide +kernel : ∀ t : Fin grid0.N, first0 (grid0.coords t) ↔ t.val % 8 = 0)
theorem hlast0 : ∀ t : Fin cfg0.N, last0 (grid0.coords t) ↔ t.val % 8 = 7 :=
  (by decide +kernel : ∀ t : Fin grid0.N, last0 (grid0.coords t) ↔ t.val % 8 = 7)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_4 : ∀ t : Fin cfg0.N, cfg0.idle 4 (grid0.coords t) = false := by decide +kernel
/-- Away from the last K tile the projected output block is neither stored into nor written back. -/
theorem idle0_3 : ∀ t : Fin cfg0.N, ¬ last0 (grid0.coords t) → cfg0.idle 3 (grid0.coords t) = true := by decide +kernel
theorem noFlush0_3 : ∀ t : Fin cfg0.N, ¬ last0 (grid0.coords t) → (cfg0.win 3).flush t = false := by decide +kernel
theorem live0_3 : ∀ t : Fin cfg0.N, last0 (grid0.coords t) → cfg0.idle 3 (grid0.coords t) = false := by decide +kernel

/-! ## The proof data, projected -/

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay4 (acc0 V c t.val t.isLt) (iblk0 V c 2 t) := by dsimp only [dat0]
theorem after0_4 (c : Dev nD) (t : Fin cfg0.N) : (dat0 V c).after 4 t = k0_pay2 (iblk0 V c 0 t) := by dsimp only [dat0]

/-- An input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The running sum, one point at a time -/

theorem acc0_first (c : Dev nD) (t : Fin cfg0.N) (h0 : t.val % 8 = 0) :
    acc0 V c t.val t.isLt = k0_pay3 (iblk0 V c 0 t) (iblk0 V c 1 t) k0_pay1 := by
  obtain ⟨n, hn⟩ := t
  cases n with
  | zero => rfl
  | succ n => exact congrArg (k0_pay3 _ _) (if_pos h0)

theorem acc0_next (c : Dev nD) (t : Fin cfg0.N) (h0 : ¬ t.val % 8 = 0) :
    acc0 V c t.val t.isLt = k0_pay3 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h0
  | succ n => exact congrArg (k0_pay3 _ _) (if_neg h0)

/-! ## The invariant -/

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (acc0 V c n hn) ∗ rest0 c) := rfl

theorem PhiS0_pos (c : Dev nD) (n : ℕ) (h : n ≤ cfg0.N) (hz : n ≠ 0) :
    PhiS0 V c n h = iprop(owns (c : Thread nD τ) scM0 fullShare (acc0 V c (n - 1) (by omega)) ∗ rest0 c) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- The call's scoped rest split at its accumulator: the accumulator at some contents, and everything else. -/
theorem scoped0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

theorem PhiA0_split (c : Dev nD) :
    (Pipeline.ΦA spec0 c : sProp 𝕄) ⊢ iprop((∃ d, owns (c : Thread nD τ) scM0 fullShare d) ∗ rest0 c) := by
  unfold Pipeline.ΦA rest0
  rw [scoped0_split c]
  simp only [scM0, owns_whole]
  iintro ⟨⟨HS, HB⟩, Hg⟩
  isplitl [HS]; · iexact HS
  isplitl [HB]; · iexact HB
  iexact Hg

theorem PhiA0_join (c : Dev nD) :
    iprop((∃ d, owns (c : Thread nD τ) scM0 fullShare d) ∗ rest0 c) ⊢ (Pipeline.ΦA spec0 c : sProp 𝕄) := by
  unfold Pipeline.ΦA rest0
  rw [scoped0_split c]
  simp only [scM0, owns_whole]
  iintro ⟨HS, HB, Hg⟩
  isplitl [HS HB]
  · isplitl [HS]; · iexact HS
    iexact HB
  iexact Hg

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point, by the K tile: the inputs' buffers hold their blocks; the bf16 copy is stored at every point;
    the invariant hands the accumulator over at the running sum so far (at anything before the first point) and takes it
    back at the running sum after this point; the projected output block is touched only at the last K tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (win0_0.stage (cfg0.slots t 0)) fullShare ((dat0 V c).after 0 t) from by
    unfold Dat.leavesExact; rw [live0_0 t], after0_0]
  rw [show (dat0 V c).leavesExact 1 t = owns (c : Thread nD τ) (win0_1.stage (cfg0.slots t 1)) fullShare ((dat0 V c).after 1 t) from by
    unfold Dat.leavesExact; rw [live0_1 t], after0_1]
  rw [show (dat0 V c).leavesExact 2 t = owns (c : Thread nD τ) (win0_2.stage (cfg0.slots t 2)) fullShare ((dat0 V c).after 2 t) from by
    unfold Dat.leavesExact; rw [live0_2 t], after0_2]
  rw [show (dat0 V c).leavesExact 4 t = owns (c : Thread nD τ) (win0_4.stage (cfg0.slots t 4)) fullShare ((dat0 V c).after 4 t) from by
    unfold Dat.leavesExact; rw [live0_4 t], after0_4]
  by_cases h0 : t.val % 8 = 0
  · have h1 : ¬ t.val % 8 = 7 := by omega
    rw [Dat.leavesExact_idle (dat0 V c) 3 t (idle0_3 t (fun h => h1 ((hlast0 t).mp h))) (noFlush0_3 t (fun h => h1 ((hlast0 t).mp h)))]
    rw [acc0_first V c t h0]
    by_cases hz : t.val = 0
    · rw [PhiS0_castSucc V c t, PhiS0_zero V c _ _ hz]
      iintro ⟨HΦ, Ho, ⟨%d0, H0⟩, ⟨%d1, H1⟩, ⟨%d2, H2⟩, ⟨%d3, H3⟩, ⟨%d4, H4⟩⟩
      ihave HΦ' := (PhiA0_split c) $$ HΦ
      icases HΦ' with ⟨HS, Hrest⟩
      iapply (run0_first c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) scM0 (Memref.isWhole_whole _) (iblk0 V c 0 t) (iblk0 V c 1 t) (iblk0 V c 2 t) _ ((hfirst0 t).mpr h0) (fun h => h1 ((hlast0 t).mp h)) ((dat0 V c).before 3 t d3))
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hrest]
      · isplitl [HS]; · iexact HS
        iexact Hrest
      isplitl [Ho]; · iexact Ho
      isplitl [H0]; · iexact H0
      isplitl [H1]; · iexact H1
      isplitl [H2]; · iexact H2
      isplitl [H3]; · iexists _; iexact H3
      iexact H4
    · rw [PhiS0_castSucc V c t, PhiS0_pos V c _ _ hz]
      iintro ⟨HΦ, Ho, ⟨%d0, H0⟩, ⟨%d1, H1⟩, ⟨%d2, H2⟩, ⟨%d3, H3⟩, ⟨%d4, H4⟩⟩
      icases HΦ with ⟨HS, Hrest⟩
      iapply (run0_first c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) scM0 (Memref.isWhole_whole _) (iblk0 V c 0 t) (iblk0 V c 1 t) (iblk0 V c 2 t) _ ((hfirst0 t).mpr h0) (fun h => h1 ((hlast0 t).mp h)) ((dat0 V c).before 3 t d3))
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, H4, HS⟩
      isplitl [HS Hrest]
      · isplitl [HS]; · iexact HS
        iexact Hrest
      isplitl [Ho]; · iexact Ho
      isplitl [H0]; · iexact H0
      isplitl [H1]; · iexact H1
      isplitl [H2]; · iexact H2
      isplitl [H3]; · iexists _; iexact H3
      iexact H4
  · by_cases h1 : t.val % 8 = 7
    · have hz : t.val ≠ 0 := by omega
      rw [show (dat0 V c).leavesExact 3 t = owns (c : Thread nD τ) (win0_3.stage (cfg0.slots t 3)) fullShare ((dat0 V c).after 3 t) from by
        unfold Dat.leavesExact; rw [live0_3 t ((hlast0 t).mpr h1)], after0_3]
      rw [acc0_next V c t h0]
      rw [PhiS0_castSucc V c t, PhiS0_pos V c _ _ hz]
      iintro ⟨HΦ, Ho, ⟨%d0, H0⟩, ⟨%d1, H1⟩, ⟨%d2, H2⟩, ⟨%d3, H3⟩, ⟨%d4, H4⟩⟩
      icases HΦ with ⟨HS, Hrest⟩
      iapply (run0_last c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) scM0 (Memref.isWhole_whole _) (iblk0 V c 0 t) (iblk0 V c 1 t) (iblk0 V c 2 t) _ (fun h => h0 ((hfirst0 t).mp h)) ((hlast0 t).mpr h1) _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, H3, H4, HS⟩
      isplitl [HS Hrest]
      · isplitl [HS]; · iexact HS
        iexact Hrest
      isplitl [Ho]; · iexact Ho
      isplitl [H0]; · iexact H0
      isplitl [H1]; · iexact H1
      isplitl [H2]; · iexact H2
      isplitl [H3]; · iexact H3
      iexact H4
    · have hz : t.val ≠ 0 := by omega
      rw [Dat.leavesExact_idle (dat0 V c) 3 t (idle0_3 t (fun h => h1 ((hlast0 t).mp h))) (noFlush0_3 t (fun h => h1 ((hlast0 t).mp h)))]
      rw [acc0_next V c t h0]
      rw [PhiS0_castSucc V c t, PhiS0_pos V c _ _ hz]
      iintro ⟨HΦ, Ho, ⟨%d0, H0⟩, ⟨%d1, H1⟩, ⟨%d2, H2⟩, ⟨%d3, H3⟩, ⟨%d4, H4⟩⟩
      icases HΦ with ⟨HS, Hrest⟩
      iapply (run0_mid c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) scM0 (Memref.isWhole_whole _) (iblk0 V c 0 t) (iblk0 V c 1 t) (iblk0 V c 2 t) _ (fun h => h0 ((hfirst0 t).mp h)) (fun h => h1 ((hlast0 t).mp h)) ((dat0 V c).before 3 t d3) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hrest]
      · isplitl [HS]; · iexact HS
        iexact Hrest
      isplitl [Ho]; · iexact Ho
      isplitl [H0]; · iexact H0
      isplitl [H1]; · iexact H1
      isplitl [H2]; · iexact H2
      isplitl [H3]; · iexists _; iexact H3
      iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After any point the invariant gives it back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  iintro ⟨HS, Hrest⟩
  iapply (PhiA0_join c)
  isplitl [HS]; · iexists _; iexact HS
  iexact Hrest

theorem hout0 (c : Dev nD) : (dat0 V c).Φ (Fin.last cfg0.N) ⊢ Pipeline.ΦA spec0 c :=
  Phi_out0 V c _ (by rw [Fin.val_last]; have : cfg0.N = 128 := N_0; omega)

end Cert.Kernel.Hand

end
-- ==== Proof.BitsSide.Body1.lean ====
import proofs.«131155_j73212012528270_2_alg».proof.Proof.Gen.Kernel.Launch
import proofs.«131155_j73212012528270_2_alg».proof.Proof.Gen.Kernel.Skeleton
import proofs.«131155_j73212012528270_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«131155_j73212012528270_2_alg».proof.Proof.BitsSide.Body2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 1's body at one grid point

The body adds the product of this point's `adj` block (already bf16) and feature block to the accumulator, zeroed at the
first K tile of a row tile; at the last K tile it stores `relu` of the sum times the projection column into the output block. -/

/-- The K coordinate is the first one (the accumulator is zeroed). -/
abbrev first1 (i : grid1.Coords) : Prop := (Scalar.cmpi .ne (Scalar.extui (Scalar.cmpi .eq (BitVec.ofNat 32 (i 1).val) 0#32)) 0#32) = 1#1
/-- The K coordinate is the last one (the output block is stored). -/
abbrev last1 (i : grid1.Coords) : Prop := k1_cond2 i = 1#1

set_option maxHeartbeats 1000000 in
/-- First K tile: whatever the accumulator held, it ends at zero plus this point's product; the output block is untouched. -/
theorem run1_first (c : Dev nD) (E : Set ℕ) (i : grid1.Coords)
    (arg2 : Memref sig .tc .vmem S1024x4096 .bf16) (harg2 : arg2.IsWhole) (arg3 : Memref sig .tc .vmem S4096x32 .f32) (harg3 : arg3.IsWhole)
    (arg4 : Memref sig .tc .vmem S32x1 .f32) (harg4 : arg4.IsWhole) (arg5 : Memref sig .tc .vmem S1024x1 .f32) (harg5 : arg5.IsWhole)
    (arg6 : Memref sig .tc .vmem S1024x32 .f32) (harg6 : arg6.IsWhole)
    (a : Vec F S1024x4096 .bf16) (x : Vec F S4096x32 .f32) (w : Vec F S32x1 .f32) (K : PUnit → sProp 𝕄)
    (hf : first1 i) (hl : ¬ last1 i) (o : Vec F S1024x1 .f32) :
    iprop(owns (c : Thread nD τ) arg2 fullShare a ∗ owns (c : Thread nD τ) arg3 fullShare x ∗ owns (c : Thread nD τ) arg4 fullShare w
        ∗ owns (c : Thread nD τ) arg5 fullShare o ∗ (∃ d, owns (c : Thread nD τ) arg6 fullShare d)
        ∗ (iprop(owns (c : Thread nD τ) arg2 fullShare a ∗ owns (c : Thread nD τ) arg3 fullShare x ∗ owns (c : Thread nD τ) arg4 fullShare w
            ∗ owns (c : Thread nD τ) arg5 fullShare o ∗ owns (c : Thread nD τ) arg6 fullShare (k1_pay2 a x k1_pay1)) -∗ K ⟨⟩))
      ⊢ wp frame (wpE (defs₀ (F := F)) Variants.none c none) E (cc1__layer2_kernel i arg2 harg2 arg3 harg3 arg4 harg4 arg5 harg5 arg6 harg6) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  sl_unfold_run_names
  rw [View.read_writes_eq_canon _ _ _ (fun y => ⟨_, List.mem_cons_self, View.mem_set_unit_zero hz2 inb_S1024x32_S1024x32_0_0 y⟩),
    View.canon_cons_unit_zero hz2]
  rw [View.readCov_unit_zero _ hz2]
  simp only [View.readAt_eq_ld, harg2.read_unread, harg3.read_unread, View.ld_unit_zero (S := S1024x4096) hz2,
    View.ld_unit_zero (S := S4096x32) hz2]

set_option maxHeartbeats 1000000 in
/-- A middle K tile: the accumulator ends at what it held plus this point's product; the output block is untouched. -/
theorem run1_mid (c : Dev nD) (E : Set ℕ) (i : grid1.Coords)
    (arg2 : Memref sig .tc .vmem S1024x4096 .bf16) (harg2 : arg2.IsWhole) (arg3 : Memref sig .tc .vmem S4096x32 .f32) (harg3 : arg3.IsWhole)
    (arg4 : Memref sig .tc .vmem S32x1 .f32) (harg4 : arg4.IsWhole) (arg5 : Memref sig .tc .vmem S1024x1 .f32) (harg5 : arg5.IsWhole)
    (arg6 : Memref sig .tc .vmem S1024x32 .f32) (harg6 : arg6.IsWhole)
    (a : Vec F S1024x4096 .bf16) (x : Vec F S4096x32 .f32) (w : Vec F S32x1 .f32) (K : PUnit → sProp 𝕄)
    (hf : ¬ first1 i) (hl : ¬ last1 i) (o : Vec F S1024x1 .f32) (s : Vec F S1024x32 .f32) :
    iprop(owns (c : Thread nD τ) arg2 fullShare a ∗ owns (c : Thread nD τ) arg3 fullShare x ∗ owns (c : Thread nD τ) arg4 fullShare w
        ∗ owns (c : Thread nD τ) arg5 fullShare o ∗ owns (c : Thread nD τ) arg6 fullShare s
        ∗ (iprop(owns (c : Thread nD τ) arg2 fullShare a ∗ owns (c : Thread nD τ) arg3 fullShare x ∗ owns (c : Thread nD τ) arg4 fullShare w
            ∗ owns (c : Thread nD τ) arg5 fullShare o ∗ owns (c : Thread nD τ) arg6 fullShare (k1_pay2 a x s)) -∗ K ⟨⟩))
      ⊢ wp frame (wpE (defs₀ (F := F)) Variants.none c none) E (cc1__layer2_kernel i arg2 harg2 arg3 harg3 arg4 harg4 arg5 harg5 arg6 harg6) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2; obtain rfl := harg5.eq_unread hf3
  obtain rfl := harg6.eq_unread hf4
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  sl_unfold_run_names
  rw [View.read_writes_eq_canon _ _ _ (fun y => ⟨_, List.mem_cons_self, View.mem_set_unit_zero hz2 inb_S1024x32_S1024x32_0_0 y⟩),
    View.canon_cons_unit_zero hz2]
  simp only [View.readAt_eq_ld, harg2.read_unread, harg3.read_unread, harg6.read_unread, View.ld_unit_zero (S := S1024x4096) hz2,
    View.ld_unit_zero (S := S4096x32) hz2, View.ld_unit_zero (S := S1024x32) hz2]

set_option maxHeartbeats 1000000 in
/-- The last K tile: the accumulator ends at what it held plus this point's product, and the output block at `relu` of
    that sum times the projection column. -/
theorem run1_last (c : Dev nD) (E : Set ℕ) (i : grid1.Coords)
    (arg2 : Memref sig .tc .vmem S1024x4096 .bf16) (harg2 : arg2.IsWhole) (arg3 : Memref sig .tc .vmem S4096x32 .f32) (harg3 : arg3.IsWhole)
    (arg4 : Memref sig .tc .vmem S32x1 .f32) (harg4 : arg4.IsWhole) (arg5 : Memref sig .tc .vmem S1024x1 .f32) (harg5 : arg5.IsWhole)
    (arg6 : Memref sig .tc .vmem S1024x32 .f32) (harg6 : arg6.IsWhole)
    (a : Vec F S1024x4096 .bf16) (x : Vec F S4096x32 .f32) (w : Vec F S32x1 .f32) (K : PUnit → sProp 𝕄)
    (hf : ¬ first1 i) (hl : last1 i) (s : Vec F S1024x32 .f32) :
    iprop(owns (c : Thread nD τ) arg2 fullShare a ∗ owns (c : Thread nD τ) arg3 fullShare x ∗ owns (c : Thread nD τ) arg4 fullShare w
        ∗ (∃ d, owns (c : Thread nD τ) arg5 fullShare d) ∗ owns (c : Thread nD τ) arg6 fullShare s
        ∗ (iprop(owns (c : Thread nD τ) arg2 fullShare a ∗ owns (c : Thread nD τ) arg3 fullShare x ∗ owns (c : Thread nD τ) arg4 fullShare w
            ∗ owns (c : Thread nD τ) arg5 fullShare (k1_pay3 (k1_pay2 a x s) w)
            ∗ owns (c : Thread nD τ) arg6 fullShare (k1_pay2 a x s)) -∗ K ⟨⟩))
      ⊢ wp frame (wpE (defs₀ (F := F)) Variants.none c none) E (cc1__layer2_kernel i arg2 harg2 arg3 harg3 arg4 harg4 arg5 harg5 arg6 harg6) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2
  obtain rfl := harg6.eq_unread hf4
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [View.read_writes_eq_canon _ _ _ (fun y => ⟨_, List.mem_cons_self, View.mem_set_unit_zero hz2 inb_S1024x1_S1024x1_0_0 y⟩),
      View.canon_cons_unit_zero hz2]
    rw [View.readCov_unit_zero _ hz2]
    simp only [View.readAt_eq_ld, harg2.read_unread, harg3.read_unread, harg4.read_unread, harg6.read_unread,
      View.ld_unit_zero (S := S1024x4096) hz2, View.ld_unit_zero (S := S4096x32) hz2, View.ld_unit_zero (S := S1024x32) hz2,
      View.ld_unit_zero (S := S32x1) hz2]
  iexists _; isplitr
  swap; · iexact H4
  ipureintro
  sl_unfold_run_names
  rw [View.read_writes_eq_canon _ _ _ (fun y => ⟨_, List.mem_cons_self, View.mem_set_unit_zero hz2 inb_S1024x32_S1024x32_0_0 y⟩),
    View.canon_cons_unit_zero hz2]
  simp only [View.readAt_eq_ld, harg2.read_unread, harg3.read_unread, harg6.read_unread, View.ld_unit_zero (S := S1024x4096) hz2,
    View.ld_unit_zero (S := S4096x32) hz2, View.ld_unit_zero (S := S1024x32) hz2]

end Cert.Kernel.Hand

end
-- ==== Proof.BitsSide.Oblig1.lean ====
import proofs.«131155_j73212012528270_2_alg».proof.Proof.BitsSide.Dats
import proofs.«131155_j73212012528270_2_alg».proof.Proof.BitsSide.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 1: the body obligation at every grid point

The grid point `t` is (row tile, K tile) with the K tile innermost: `t % 4` is the K tile. The accumulator is zeroed at
`t % 4 = 0` and the output block stored at `t % 4 = 3`; between points the accumulator holds the running sum `acc1`. -/

variable (V : (c : Dev nD) → (b : Ref sig .tc) → Buf (Elt F) ((c : Thread nD τ).loc b))

/-! ## The two conditions, in closed form over the grid -/

theorem hfirst1 : ∀ t : Fin cfg1.N, first1 (grid1.coords t) ↔ t.val % 4 = 0 :=
  (by decide +kernel : ∀ t : Fin grid1.N, first1 (grid1.coords t) ↔ t.val % 4 = 0)
theorem hlast1 : ∀ t : Fin cfg1.N, last1 (grid1.coords t) ↔ t.val % 4 = 3 :=
  (by decide +kernel : ∀ t : Fin grid1.N, last1 (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last K tile the output block is neither stored into nor written back. -/
theorem idle1_3 : ∀ t : Fin cfg1.N, ¬ last1 (grid1.coords t) → cfg1.idle 3 (grid1.coords t) = true := by decide +kernel
theorem noFlush1_3 : ∀ t : Fin cfg1.N, ¬ last1 (grid1.coords t) → (cfg1.win 3).flush t = false := by decide +kernel
theorem live1_3 : ∀ t : Fin cfg1.N, last1 (grid1.coords t) → cfg1.idle 3 (grid1.coords t) = false := by decide +kernel

/-! ## The proof data, projected -/

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) (iblk1 V c 2 t) := by dsimp only [dat1]

/-- An input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The running sum, one point at a time -/

theorem acc1_first (c : Dev nD) (t : Fin cfg1.N) (h0 : t.val % 4 = 0) :
    acc1 V c t.val t.isLt = k1_pay2 (iblk1 V c 0 t) (iblk1 V c 1 t) k1_pay1 := by
  obtain ⟨n, hn⟩ := t
  cases n with
  | zero => rfl
  | succ n => exact congrArg (k1_pay2 _ _) (if_pos h0)

theorem acc1_next (c : Dev nD) (t : Fin cfg1.N) (h0 : ¬ t.val % 4 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact congrArg (k1_pay2 _ _) (if_neg h0)

/-! ## The invariant -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (acc1 V c n hn) ∗ rest1 c) := rfl

theorem PhiS1_pos (c : Dev nD) (n : ℕ) (h : n ≤ cfg1.N) (hz : n ≠ 0) :
    PhiS1 V c n h = iprop(owns (c : Thread nD τ) scM1 fullShare (acc1 V c (n - 1) (by omega)) ∗ rest1 c) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- The call's scoped rest split at its accumulator: the accumulator at some contents, and everything else. -/
theorem scoped1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

theorem PhiA1_split (c : Dev nD) :
    (Pipeline.ΦA spec1 c : sProp 𝕄) ⊢ iprop((∃ d, owns (c : Thread nD τ) scM1 fullShare d) ∗ rest1 c) := by
  unfold Pipeline.ΦA rest1
  rw [scoped1_split c]
  simp only [scM1, owns_whole]
  iintro ⟨⟨HS, HB⟩, Hg⟩
  isplitl [HS]; · iexact HS
  isplitl [HB]; · iexact HB
  iexact Hg

theorem PhiA1_join (c : Dev nD) :
    iprop((∃ d, owns (c : Thread nD τ) scM1 fullShare d) ∗ rest1 c) ⊢ (Pipeline.ΦA spec1 c : sProp 𝕄) := by
  unfold Pipeline.ΦA rest1
  rw [scoped1_split c]
  simp only [scM1, owns_whole]
  iintro ⟨HS, HB, Hg⟩
  isplitl [HS HB]
  · isplitl [HS]; · iexact HS
    iexact HB
  iexact Hg

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point, by the K tile: the inputs' buffers hold their blocks; the invariant hands the accumulator over
    at the running sum so far (at anything before the first point) and takes it back at the running sum after this
    point; the output block is touched only at the last K tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (win1_0.stage (cfg1.slots t 0)) fullShare ((dat1 V c).after 0 t) from by
    unfold Dat.leavesExact; rw [live1_0 t], after1_0]
  rw [show (dat1 V c).leavesExact 1 t = owns (c : Thread nD τ) (win1_1.stage (cfg1.slots t 1)) fullShare ((dat1 V c).after 1 t) from by
    unfold Dat.leavesExact; rw [live1_1 t], after1_1]
  rw [show (dat1 V c).leavesExact 2 t = owns (c : Thread nD τ) (win1_2.stage (cfg1.slots t 2)) fullShare ((dat1 V c).after 2 t) from by
    unfold Dat.leavesExact; rw [live1_2 t], after1_2]
  by_cases h0 : t.val % 4 = 0
  · have h1 : ¬ t.val % 4 = 3 := by omega
    rw [Dat.leavesExact_idle (dat1 V c) 3 t (idle1_3 t (fun h => h1 ((hlast1 t).mp h))) (noFlush1_3 t (fun h => h1 ((hlast1 t).mp h)))]
    rw [acc1_first V c t h0]
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩⟩
      ihave HΦ' := (PhiA1_split c) $$ HΦ
      icases HΦ' with ⟨HS, Hrest⟩
      iapply (run1_first c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) scM1 (Memref.isWhole_whole _) (iblk1 V c 0 t) (iblk1 V c 1 t) (iblk1 V c 2 t) _ ((hfirst1 t).mpr h0) (fun h => h1 ((hlast1 t).mp h)) ((dat1 V c).before 3 t d3))
      isplitl [H0]; · iexact H0
      isplitl [H1]; · iexact H1
      isplitl [H2]; · iexact H2
      isplitl [H3]; · iexact H3
      isplitl [HS]; · iexact HS
      iintro ⟨H0, H1, H2, H3, HS⟩
      isplitl [HS Hrest]
      · isplitl [HS]; · iexact HS
        iexact Hrest
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨HΦ, Ho, ⟨%d0, H0⟩, ⟨%d1, H1⟩, ⟨%d2, H2⟩, ⟨%d3, H3⟩⟩
      icases HΦ with ⟨HS, Hrest⟩
      iapply (run1_first c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) scM1 (Memref.isWhole_whole _) (iblk1 V c 0 t) (iblk1 V c 1 t) (iblk1 V c 2 t) _ ((hfirst1 t).mpr h0) (fun h => h1 ((hlast1 t).mp h)) ((dat1 V c).before 3 t d3))
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hrest]
      · isplitl [HS]; · iexact HS
        iexact Hrest
      isplitl [Ho]; · iexact Ho
      isplitl [H0]; · iexact H0
      isplitl [H1]; · iexact H1
      isplitl [H2]; · iexact H2
      iexists _; iexact H3
  · by_cases h1 : t.val % 4 = 3
    · have hz : t.val ≠ 0 := by omega
      rw [show (dat1 V c).leavesExact 3 t = owns (c : Thread nD τ) (win1_3.stage (cfg1.slots t 3)) fullShare ((dat1 V c).after 3 t) from by
        unfold Dat.leavesExact; rw [live1_3 t ((hlast1 t).mpr h1)], after1_3]
      rw [acc1_next V c t h0]
      rw [PhiS1_castSucc V c t, PhiS1_pos V c _ _ hz]
      iintro ⟨HΦ, Ho, ⟨%d0, H0⟩, ⟨%d1, H1⟩, ⟨%d2, H2⟩, ⟨%d3, H3⟩⟩
      icases HΦ with ⟨HS, Hrest⟩
      iapply (run1_last c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) scM1 (Memref.isWhole_whole _) (iblk1 V c 0 t) (iblk1 V c 1 t) (iblk1 V c 2 t) _ (fun h => h0 ((hfirst1 t).mp h)) ((hlast1 t).mpr h1) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest]
      · isplitl [HS]; · iexact HS
        iexact Hrest
      isplitl [Ho]; · iexact Ho
      isplitl [H0]; · iexact H0
      isplitl [H1]; · iexact H1
      isplitl [H2]; · iexact H2
      iexact H3
    · have hz : t.val ≠ 0 := by omega
      rw [Dat.leavesExact_idle (dat1 V c) 3 t (idle1_3 t (fun h => h1 ((hlast1 t).mp h))) (noFlush1_3 t (fun h => h1 ((hlast1 t).mp h)))]
      rw [acc1_next V c t h0]
      rw [PhiS1_castSucc V c t, PhiS1_pos V c _ _ hz]
      iintro ⟨HΦ, Ho, ⟨%d0, H0⟩, ⟨%d1, H1⟩, ⟨%d2, H2⟩, ⟨%d3, H3⟩⟩
      icases HΦ with ⟨HS, Hrest⟩
      iapply (run1_mid c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) scM1 (Memref.isWhole_whole _) (iblk1 V c 0 t) (iblk1 V c 1 t) (iblk1 V c 2 t) _ (fun h => h0 ((hfirst1 t).mp h)) (fun h => h1 ((hlast1 t).mp h)) ((dat1 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest]
      · isplitl [HS]; · iexact HS
        iexact Hrest
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point the invariant gives it back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HS, Hrest⟩
  iapply (PhiA1_join c)
  isplitl [HS]; · iexists _; iexact HS
  iexact Hrest

theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.BitsSide.Oblig2.lean ====
import proofs.«131155_j73212012528270_2_alg».proof.Proof.BitsSide.Dats
import proofs.«131155_j73212012528270_2_alg».proof.Proof.BitsSide.Body2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 2: the body obligation at every grid point

The grid point `t` is (row tile, K tile) with the K tile innermost: `t % 4` is the K tile. The accumulator is zeroed at
`t % 4 = 0` and the output block stored at `t % 4 = 3`; between points the accumulator holds the running sum `acc2`. -/

variable (V : (c : Dev nD) → (b : Ref sig .tc) → Buf (Elt F) ((c : Thread nD τ).loc b))

/-! ## The two conditions, in closed form over the grid -/

theorem hfirst2 : ∀ t : Fin cfg2.N, first2 (grid2.coords t) ↔ t.val % 4 = 0 :=
  (by decide +kernel : ∀ t : Fin grid2.N, first2 (grid2.coords t) ↔ t.val % 4 = 0)
theorem hlast2 : ∀ t : Fin cfg2.N, last2 (grid2.coords t) ↔ t.val % 4 = 3 :=
  (by decide +kernel : ∀ t : Fin grid2.N, last2 (grid2.coords t) ↔ t.val % 4 = 3)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
/-- Away from the last K tile the output block is neither stored into nor written back. -/
theorem idle2_2 : ∀ t : Fin cfg2.N, ¬ last2 (grid2.coords t) → cfg2.idle 2 (grid2.coords t) = true := by decide +kernel
theorem noFlush2_2 : ∀ t : Fin cfg2.N, ¬ last2 (grid2.coords t) → (cfg2.win 2).flush t = false := by decide +kernel
theorem live2_2 : ∀ t : Fin cfg2.N, last2 (grid2.coords t) → cfg2.idle 2 (grid2.coords t) = false := by decide +kernel

/-! ## The proof data, projected -/

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (acc2 V c t.val t.isLt) := by dsimp only [dat2]

/-- An input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-! ## The running sum, one point at a time -/

theorem acc2_first (c : Dev nD) (t : Fin cfg2.N) (h0 : t.val % 4 = 0) :
    acc2 V c t.val t.isLt = k2_pay2 (iblk2 V c 0 t) (iblk2 V c 1 t) k2_pay1 := by
  obtain ⟨n, hn⟩ := t
  cases n with
  | zero => rfl
  | succ n => exact congrArg (k2_pay2 _ _) (if_pos h0)

theorem acc2_next (c : Dev nD) (t : Fin cfg2.N) (h0 : ¬ t.val % 4 = 0) :
    acc2 V c t.val t.isLt = k2_pay2 (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h0
  | succ n => exact congrArg (k2_pay2 _ _) (if_neg h0)

/-! ## The invariant -/

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2 fullShare (acc2 V c n hn) ∗ rest2 c) := rfl

theorem PhiS2_pos (c : Dev nD) (n : ℕ) (h : n ≤ cfg2.N) (hz : n ≠ 0) :
    PhiS2 V c n h = iprop(owns (c : Thread nD τ) scM2 fullShare (acc2 V c (n - 1) (by omega)) ∗ rest2 c) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

/-- The call's scoped rest split at its accumulator: the accumulator at some contents, and everything else. -/
theorem scoped2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

theorem PhiA2_split (c : Dev nD) :
    (Pipeline.ΦA spec2 c : sProp 𝕄) ⊢ iprop((∃ d, owns (c : Thread nD τ) scM2 fullShare d) ∗ rest2 c) := by
  unfold Pipeline.ΦA rest2
  rw [scoped2_split c]
  simp only [scM2, owns_whole]
  iintro ⟨⟨HS, HB⟩, Hg⟩
  isplitl [HS]; · iexact HS
  isplitl [HB]; · iexact HB
  iexact Hg

theorem PhiA2_join (c : Dev nD) :
    iprop((∃ d, owns (c : Thread nD τ) scM2 fullShare d) ∗ rest2 c) ⊢ (Pipeline.ΦA spec2 c : sProp 𝕄) := by
  unfold Pipeline.ΦA rest2
  rw [scoped2_split c]
  simp only [scM2, owns_whole]
  iintro ⟨HS, HB, Hg⟩
  isplitl [HS HB]
  · isplitl [HS]; · iexact HS
    iexact HB
  iexact Hg

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (win2_0.stage (cfg2.slots t 0)) fullShare ((dat2 V c).before 0 t d))
    ∗ (∃ d, owns (c : Thread nD τ) (win2_1.stage (cfg2.slots t 1)) fullShare ((dat2 V c).before 1 t d))
    ∗ (∃ d, owns (c : Thread nD τ) (win2_2.stage (cfg2.slots t 2)) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point, by the K tile: the inputs' buffers hold their blocks; the invariant hands the accumulator over
    at the running sum so far (at anything before the first point) and takes it back at the running sum after this
    point; the output block is touched only at the last K tile. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (win2_0.stage (cfg2.slots t 0)) fullShare ((dat2 V c).after 0 t) from by
    unfold Dat.leavesExact; rw [live2_0 t], after2_0]
  rw [show (dat2 V c).leavesExact 1 t = owns (c : Thread nD τ) (win2_1.stage (cfg2.slots t 1)) fullShare ((dat2 V c).after 1 t) from by
    unfold Dat.leavesExact; rw [live2_1 t], after2_1]
  by_cases h0 : t.val % 4 = 0
  · have h1 : ¬ t.val % 4 = 3 := by omega
    rw [Dat.leavesExact_idle (dat2 V c) 2 t (idle2_2 t (fun h => h1 ((hlast2 t).mp h))) (noFlush2_2 t (fun h => h1 ((hlast2 t).mp h)))]
    rw [acc2_first V c t h0]
    by_cases hz : t.val = 0
    ·
      rw [PhiS2_castSucc V c t, PhiS2_zero V c _ _ hz]
      iintro ⟨HΦ, Ho, ⟨%d0, H0⟩, ⟨%d1, H1⟩, ⟨%d2, H2⟩⟩
      ihave HΦ' := (PhiA2_split c) $$ HΦ
      icases HΦ' with ⟨HS, Hrest⟩
      iapply (run2_first c Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) scM2 (Memref.isWhole_whole _) (iblk2 V c 0 t) (iblk2 V c 1 t) _ ((hfirst2 t).mpr h0) (fun h => h1 ((hlast2 t).mp h)) ((dat2 V c).before 2 t d2) )
      isplitl [H0]; · iexact H0
      isplitl [H1]; · iexact H1
      isplitl [H2]; · iexact H2
      isplitl [HS]; · iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexists _; iexact H2
    ·
      rw [PhiS2_castSucc V c t, PhiS2_pos V c _ _ hz]
      iintro ⟨HΦ, Ho, ⟨%d0, H0⟩, ⟨%d1, H1⟩, ⟨%d2, H2⟩⟩
      icases HΦ with ⟨HS, Hrest⟩
      iapply (run2_first c Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) scM2 (Memref.isWhole_whole _) (iblk2 V c 0 t) (iblk2 V c 1 t) _ ((hfirst2 t).mpr h0) (fun h => h1 ((hlast2 t).mp h)) ((dat2 V c).before 2 t d2) )
      isplitl [H0]; · iexact H0
      isplitl [H1]; · iexact H1
      isplitl [H2]; · iexact H2
      isplitl [HS]; · iexists _; iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexists _; iexact H2
  · by_cases h1 : t.val % 4 = 3
    · have hz : t.val ≠ 0 := by omega
      rw [show (dat2 V c).leavesExact 2 t = owns (c : Thread nD τ) (win2_2.stage (cfg2.slots t 2)) fullShare ((dat2 V c).after 2 t) from by
        unfold Dat.leavesExact; rw [live2_2 t ((hlast2 t).mpr h1)], after2_2]
      rw [acc2_next V c t h0]
      rw [PhiS2_castSucc V c t, PhiS2_pos V c _ _ hz]
      iintro ⟨HΦ, Ho, ⟨%d0, H0⟩, ⟨%d1, H1⟩, ⟨%d2, H2⟩⟩
      icases HΦ with ⟨HS, Hrest⟩
      iapply (run2_last c Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) scM2 (Memref.isWhole_whole _) (iblk2 V c 0 t) (iblk2 V c 1 t) _ (fun h => h0 ((hfirst2 t).mp h)) ((hlast2 t).mpr h1) _)
      isplitl [H0]; · iexact H0
      isplitl [H1]; · iexact H1
      isplitl [H2]; · iexists _; iexact H2
      isplitl [HS]; · iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexact H2
    · have hz : t.val ≠ 0 := by omega
      rw [Dat.leavesExact_idle (dat2 V c) 2 t (idle2_2 t (fun h => h1 ((hlast2 t).mp h))) (noFlush2_2 t (fun h => h1 ((hlast2 t).mp h)))]
      rw [acc2_next V c t h0]
      rw [PhiS2_castSucc V c t, PhiS2_pos V c _ _ hz]
      iintro ⟨HΦ, Ho, ⟨%d0, H0⟩, ⟨%d1, H1⟩, ⟨%d2, H2⟩⟩
      icases HΦ with ⟨HS, Hrest⟩
      iapply (run2_mid c Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) scM2 (Memref.isWhole_whole _) (iblk2 V c 0 t) (iblk2 V c 1 t) _ (fun h => h0 ((hfirst2 t).mp h)) (fun h => h1 ((hlast2 t).mp h)) ((dat2 V c).before 2 t d2) _)
      isplitl [H0]; · iexact H0
      isplitl [H1]; · iexact H1
      isplitl [H2]; · iexact H2
      isplitl [HS]; · iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After any point the invariant gives it back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  iintro ⟨HS, Hrest⟩
  iapply (PhiA2_join c)
  isplitl [HS]; · iexists _; iexact HS
  iexact Hrest

theorem hout2 (c : Dev nD) : (dat2 V c).Φ (Fin.last cfg2.N) ⊢ Pipeline.ΦA spec2 c :=
  Phi_out2 V c _ (by rw [Fin.val_last]; have : cfg2.N = 64 := N_2; omega)

end Cert.Kernel.Hand

end
-- ==== Proof.BitsSide.Run.lean ====
import proofs.«131155_j73212012528270_2_alg».proof.Proof.BitsSide.Bounds
import proofs.«131155_j73212012528270_2_alg».proof.Proof.BitsSide.Oblig0
import proofs.«131155_j73212012528270_2_alg».proof.Proof.BitsSide.Oblig1
import proofs.«131155_j73212012528270_2_alg».proof.Proof.BitsSide.Oblig2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of `@main`: the host product and the three calls as segments -/

variable (m : (ℓ : Loc nD τ sig) → Buf (Elt F) ℓ) (ρ : Dev nD → PrngReg)

/-! ## The proof data family and what rides beside the buffers -/

/-- No call has a prefetched table. -/
abbrev noTables : (p : Fin 3) → (pcfgs (F := F) p).Adm := fun p => (cfgs p).toPCfg_adm
/-- Every call's proof data, each at its entry contents — a literal match on the call. -/
def pdats : (p : Fin 3) → (c : Dev nD) → Dat τ (Elt F) Unit ℕ (UR sig nD τ) ℕ (Pipeline.pin (pcfgs (F := F)) noTables p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
theorem hostOps0_fresh : (hostOps0 : List (HloOp τ sig (Elt F))).Forall fun op => op.fresh = ∅ := by
  simp only [List.Forall]; repeat' constructor
/-- The host product as a segment. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the `owes` apart. -/
abbrev Tₙ (c : Dev nD) : sProp 𝕄 := iprop(StableHlo.held (c : Thread nD τ) (Pipeline.ucRefs τ sig) (W4 m ρ c) ∗ ∃ r, prngReg c r)

/-! ## The calls as segments -/

-- a library lemma stated over `pin pcs a p` unifies with the pinned configuration only when unification may unfold plain
-- definitions in a metavariable's type
set_option backward.isDefEq.respectTransparency.types false in
/-- Call 0 as a segment: entered with every unscoped buffer at `W1`, left with them at `W2`. Its arrays are split out of
    the unscoped buffers and put back at what the write-backs leave; the generator register and the scoped rest go into
    the call's invariant and come back; nothing is owed; the kernel has no semaphore of its own. -/
def reg0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin0 (V1 m ρ) c)
    unfold Pipeline.ΦA
    isplitl [Hr]; · iexact Hr
    iexact Hp
  hout c := by
    rw [Pipeline.ownSems0_none, show (pdats m ρ 0 c).Φ (Fin.last _) = (dat0 (V1 m ρ) c).Φ (Fin.last cfg0.N) from rfl]
    iintro Hinv
    ihave H := (hout0 (V1 m ρ) c) $$ Hinv
    unfold Pipeline.ΦA
    icases H with ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- Call 1 as a segment: entered with every unscoped buffer at `W2`, left with them at `W3`. Its arrays are split out of
    the unscoped buffers and put back at what the write-backs leave; the generator register and the scoped rest go into
    the call's invariant and come back; nothing is owed; the kernel has no semaphore of its own. -/
def reg1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (hin1 (V2 m ρ) c)
    unfold Pipeline.ΦA
    isplitl [Hr]; · iexact Hr
    iexact Hp
  hout c := by
    rw [Pipeline.ownSems0_none, show (pdats m ρ 1 c).Φ (Fin.last _) = (dat1 (V2 m ρ) c).Φ (Fin.last cfg1.N) from rfl]
    iintro Hinv
    ihave H := (hout1 (V2 m ρ) c) $$ Hinv
    unfold Pipeline.ΦA
    icases H with ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- Call 2 as a segment: entered with every unscoped buffer at `W3`, left with them at `W4`. Its arrays are split out of
    the unscoped buffers and put back at what the write-backs leave; the generator register and the scoped rest go into
    the call's invariant and come back; nothing is owed; the kernel has no semaphore of its own. -/
def reg2 : Pipeline.RegionSeg (pcfgs (F := F)) noTables (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) noTables (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V3 m ρ) c).Φ 0 from rfl]
    iintro ⟨Hp, -, Hr⟩
    iapply (hin2 (V3 m ρ) c)
    unfold Pipeline.ΦA
    isplitl [Hr]; · iexact Hr
    iexact Hp
  hout c := by
    rw [Pipeline.ownSems0_none, show (pdats m ρ 2 c).Φ (Fin.last _) = (dat2 (V3 m ρ) c).Φ (Fin.last cfg2.N) from rfl]
    iintro Hinv
    ihave H := (hout2 (V3 m ρ) c) $$ Hinv
    unfold Pipeline.ΦA
    icases H with ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) noTables (pdats m ρ) () defs₀ 𝒱₀ L lv) :=
  [ .host (hseg0 m ρ), .region (reg0 m ρ), .region (reg1 m ρ), .region (reg2 m ρ) ]

theorem main_run (c : Dev nD) : main (F := F) c = Pipeline.Seg.run (segs m ρ) :=
  main_segs noTables (pdats m ρ) () 𝒱₀ L lv (hseg0 m ρ) (reg0 m ρ) (reg1 m ρ) (reg2 m ρ) rfl c

set_option backward.isDefEq.respectTransparency.types false in
/-- Every weakly fair execution of `@main` from memory `m` terminates, nothing faulting, with every unscoped buffer of
    every core at the last valuation `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) noTables (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.Kernel.Hand

end
-- ==== Proof.IdealSide.Dats.lean ====
import proofs.«131155_j73212012528270_2_alg».proof.Proof.Gen.KernelIdeal.Launch
import proofs.«131155_j73212012528270_2_alg».proof.Proof.Gen.KernelIdeal.Skeleton
import proofs.«131155_j73212012528270_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The proof data of the three pallas_calls, at a parameter `V`

Each call walks a grid (row tile, K tile), K innermost, and keeps a running sum of partial matrix products in a scratch
buffer: zeroed at the first K tile of a row tile, added to at every K tile, read out (through the epilogue) at the last.
`V` is the contents of the TensorCore's buffers when the call is entered. -/

variable (V : (c : Dev nD) → (b : Ref sig .tc) → Buf (Elt F) ((c : Thread nD τ).loc b))

/-! ## Call 0: `relu (adj · x0) · W1`, and the bf16 copy of `adj` -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator of call 0. -/
abbrev scM0 : Memref sig .tc .vmem S1024x32 .f32 := Memref.whole cc0_scratch0

/-- The running sum after point `n`: this point's partial product added to the sum so far, which restarts from zero at
    the first K tile of each row tile (every eighth point). -/
def acc0 (c : Dev nD) : (n : ℕ) → n < cfg0.N → Vec F S1024x32 .f32
  | 0, h => k0_pay3 (iblk0 V c 0 ⟨0, h⟩) (iblk0 V c 1 ⟨0, h⟩) k0_pay1
  | n + 1, h => k0_pay3 (iblk0 V c 0 ⟨n + 1, h⟩) (iblk0 V c 1 ⟨n + 1, h⟩)
      (if (n + 1) % 8 = 0 then k0_pay1 else acc0 c n (Nat.lt_of_succ_lt h))

/-- What rides beside the accumulator through the call: every other scoped buffer, unopened, and the generator register. -/
def rest0 (c : Dev nD) : sProp 𝕄 :=
  iprop(Pipeline.scopedRestBut (Ix := Unit) (Name := ℕ) (U := UR sig nD τ) (Lvl := ℕ) (Val := Elt F) spec0 c [cc0_scratch0] ∗ (∃ r, prngReg c r))

/-- The invariant before position `n`: before the first point the accumulator holds anything; afterwards the running sum. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ rest0 c)

/-- The proof data of call 0: inputs at their blocks; the projected output at the epilogue of the running sum (read
    only at the last K tile of a row tile); the bf16 copy at the cast of this point's `adj` block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay4 (acc0 V c t.val t.isLt) (iblk0 V c 2 t)
    | ⟨4, _⟩ => k0_pay2 (iblk0 V c 0 t)
  Φ t := PhiS0 V c t.val (Nat.le_of_lt_succ t.isLt)
  q _ := fullShare
  owed _ := 0

/-! ## Call 1: `relu (adj · x1) · W2` -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scM1 : Memref sig .tc .vmem S1024x32 .f32 := Memref.whole cc1_scratch0

/-- The running sum after point `n`; it restarts every fourth point. -/
def acc1 (c : Dev nD) : (n : ℕ) → n < cfg1.N → Vec F S1024x32 .f32
  | 0, h => k1_pay2 (iblk1 V c 0 ⟨0, h⟩) (iblk1 V c 1 ⟨0, h⟩) k1_pay1
  | n + 1, h => k1_pay2 (iblk1 V c 0 ⟨n + 1, h⟩) (iblk1 V c 1 ⟨n + 1, h⟩)
      (if (n + 1) % 4 = 0 then k1_pay1 else acc1 c n (Nat.lt_of_succ_lt h))

def rest1 (c : Dev nD) : sProp 𝕄 :=
  iprop(Pipeline.scopedRestBut (Ix := Unit) (Name := ℕ) (U := UR sig nD τ) (Lvl := ℕ) (Val := Elt F) spec1 c [cc1_scratch0] ∗ (∃ r, prngReg c r))

def PhiS1 (c : Dev nD) : (n : ℕ) → n ≤ cfg1.N → sProp 𝕄
  | 0, _ => Pipeline.ΦA spec1 c
  | n + 1, hn => iprop(owns (c : Thread nD τ) scM1 fullShare (acc1 V c n hn) ∗ rest1 c)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

/-! ## Call 2: `logistic (adj · x2)` -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2 : Memref sig .tc .vmem S1024x1 .f32 := Memref.whole cc2_scratch0

def acc2 (c : Dev nD) : (n : ℕ) → n < cfg2.N → Vec F S1024x1 .f32
  | 0, h => k2_pay2 (iblk2 V c 0 ⟨0, h⟩) (iblk2 V c 1 ⟨0, h⟩) k2_pay1
  | n + 1, h => k2_pay2 (iblk2 V c 0 ⟨n + 1, h⟩) (iblk2 V c 1 ⟨n + 1, h⟩)
      (if (n + 1) % 4 = 0 then k2_pay1 else acc2 c n (Nat.lt_of_succ_lt h))

def rest2 (c : Dev nD) : sProp 𝕄 :=
  iprop(Pipeline.scopedRestBut (Ix := Unit) (Name := ℕ) (U := UR sig nD τ) (Lvl := ℕ) (Val := Elt F) spec2 c [cc2_scratch0] ∗ (∃ r, prngReg c r))

def PhiS2 (c : Dev nD) : (n : ℕ) → n ≤ cfg2.N → sProp 𝕄
  | 0, _ => Pipeline.ΦA spec2 c
  | n + 1, hn => iprop(owns (c : Thread nD τ) scM2 fullShare (acc2 V c n hn) ∗ rest2 c)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t.val t.isLt)
  Φ t := PhiS2 V c t.val (Nat.le_of_lt_succ t.isLt)
  q _ := fullShare
  owed _ := 0

end Cert.KernelIdeal.Hand

end
-- ==== Proof.IdealSide.Bounds.lean ====
import proofs.«131155_j73212012528270_2_alg».proof.Proof.IdealSide.Dats
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! # The run of `@main`: one host product, then the three calls

`@main` computes `x0 = inputs · W0` on the host and launches the three calls one after the other. Between two items the
TensorCore's unscoped buffers hold known contents: the launch memory, then the host product written, then after each call
its arrays at what its write-backs leave and everything else as before. The run ends with every unscoped buffer at the last of these valuations; the frame and the result's value are read off it. -/

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host product (call 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After call 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After call 1. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After call 2 (the end of `@main`). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- The host product writes `main_v0` only. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.binary_writes, Finset.mem_singleton]
    exact StableHlo.devRef_ne_of_ne hb))

/-! # Reading the boundary valuations

No item writes an argument array: the host product writes `main_v0`, call 0 its two outputs, call 1 `main_v2`, call 2 the
result. So each argument walks back through the valuations to the launch memory, and each array a later call reads is
what the earlier call's write-backs left. -/

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_ne m ρ c main_arg0 (by decide)
    _ = m ((c : Thread nD τ).loc main_arg0) := rfl

/-- `adj` is call 0's first input window: the pipeline reads it and leaves it. -/
theorem W2_main_arg1 (c : Dev nD) : W2 m ρ c (Proc.devRef .tc main_arg1) = W1 m ρ c (Proc.devRef .tc main_arg1) :=
  (W2_arr m ρ c 0).trans (((dat0 (V1 m ρ) c).arrAt_in 0 rfl _).trans (by dsimp only [dat0]))

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_main_arg1 m ρ c
    _ = W0 m ρ c (Proc.devRef .tc main_arg1) := W1_of_ne m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-- `W1` is call 0's third input window. -/
theorem W2_main_arg3 (c : Dev nD) : W2 m ρ c (Proc.devRef .tc main_arg3) = W1 m ρ c (Proc.devRef .tc main_arg3) :=
  (W2_arr m ρ c 2).trans (((dat0 (V1 m ρ) c).arrAt_in 2 rfl _).trans (by dsimp only [dat0]))

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_main_arg3 m ρ c
    _ = W0 m ρ c (Proc.devRef .tc main_arg3) := W1_of_ne m ρ c main_arg3 (by decide)
    _ = m ((c : Thread nD τ).loc main_arg3) := rfl

/-- `W2` is call 1's third input window. -/
theorem W3_main_arg4 (c : Dev nD) : W3 m ρ c (Proc.devRef .tc main_arg4) = W2 m ρ c (Proc.devRef .tc main_arg4) :=
  (W3_arr m ρ c 2).trans (((dat1 (V2 m ρ) c).arrAt_in 2 rfl _).trans (by dsimp only [dat1]))

theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_main_arg4 m ρ c
    _ = m ((c : Thread nD τ).loc main_arg4) := W2_main_arg4 m ρ c

/-! ## What each call finds and leaves -/

/-- The result is what call 2's write-backs leave. -/
theorem V4_main_v3 (c : Dev nD) : V4 m ρ c main_v3 = (dat2 (V3 m ρ) c).arrAt 2 cfg2.N := W4_arr m ρ c 2

/-- Call 2 finds the bf16 `adj` as call 0 left it (call 1 only reads it), -/
theorem V3_main_v1_1 (c : Dev nD) : V3 m ρ c main_v1_1 = V2 m ρ c main_v1_1 :=
  (W3_arr m ρ c 0).trans (((dat1 (V2 m ρ) c).arrAt_in 0 rfl _).trans (by dsimp only [dat1]))
/-- and `x2` as call 1 left it. -/
theorem V3_main_v2 (c : Dev nD) : V3 m ρ c main_v2 = (dat1 (V2 m ρ) c).arrAt 3 cfg1.N := W3_arr m ρ c 3

/-- Call 1 finds `x1` and the bf16 `adj` as call 0 left them, and `W2` as launched. -/
theorem V2_main_v1_0 (c : Dev nD) : V2 m ρ c main_v1_0 = (dat0 (V1 m ρ) c).arrAt 3 cfg0.N := W2_arr m ρ c 3
theorem V2_main_v1_1 (c : Dev nD) : V2 m ρ c main_v1_1 = (dat0 (V1 m ρ) c).arrAt 4 cfg0.N := W2_arr m ρ c 4
theorem V2_main_arg4 (c : Dev nD) : V2 m ρ c main_arg4 = m ((c : Thread nD τ).loc main_arg4) := W2_main_arg4 m ρ c

/-- Call 0 finds `adj` and `W1` as launched. -/
theorem V1_main_arg1 (c : Dev nD) : V1 m ρ c main_arg1 = m ((c : Thread nD τ).loc main_arg1) := W1_of_ne m ρ c main_arg1 (by decide)
theorem V1_main_arg3 (c : Dev nD) : V1 m ρ c main_arg3 = m ((c : Thread nD τ).loc main_arg3) := W1_of_ne m ρ c main_arg3 (by decide)

/-- and `x0` as the host product of the launched `inputs` and `W0`. -/
theorem V1_main_v0 (c : Dev nD) :
    (V1 m ρ c main_v0 : S16384x32.Idx → Elt F .f32)
      = Host.dotGeneral dot_S16384x1_S1x32_S16384x32_1_0_0_1_n_n none (m ((c : Thread nD τ).loc main_arg0)) (m ((c : Thread nD τ).loc main_arg2)) := by
  show StableHlo.after hostOps0 (W0 m ρ c) (Proc.devRef .tc main_v0) = _
  after_results

end Cert.KernelIdeal.Hand

end
-- ==== Proof.IdealSide.Body2.lean ====
import proofs.«131155_j73212012528270_2_alg».proof.Proof.Gen.KernelIdeal.Launch
import proofs.«131155_j73212012528270_2_alg».proof.Proof.Gen.KernelIdeal.Skeleton
import proofs.«131155_j73212012528270_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 2's body at one grid point

The body adds the product of this point's `adj` block and feature block to the accumulator, which it first zeroes at the
first K tile of a row tile, and at the last K tile stores the logistic of the sum into the output block. Three kinds
of point, by the K coordinate: first, middle, last. -/

/-- The all-zero offsets of a whole-block access, however spelt. -/
theorem hz2 : (![0, 0] : Fin (2 : ℕ) → ℕ) = fun _ => 0 := by funext a; fin_cases a <;> rfl

/-- The K coordinate is the first one (the accumulator is zeroed). -/
abbrev first2 (i : grid2.Coords) : Prop := (Scalar.cmpi .ne (Scalar.extui (Scalar.cmpi .eq (BitVec.ofNat 32 (i 1).val) 0#32)) 0#32) = 1#1
/-- The K coordinate is the last one (the output block is stored). -/
abbrev last2 (i : grid2.Coords) : Prop := k2_cond2 i = 1#1

set_option maxHeartbeats 1000000 in
/-- First K tile: whatever the accumulator held, it ends at zero plus this point's product; the output block is untouched. -/
theorem run2_first (c : Dev nD) (E : Set ℕ) (i : grid2.Coords)
    (arg2 : Memref sig .tc .vmem S1024x4096 .bf16) (harg2 : arg2.IsWhole) (arg3 : Memref sig .tc .vmem S4096x1 .f32) (harg3 : arg3.IsWhole)
    (arg4 : Memref sig .tc .vmem S1024x1 .f32) (harg4 : arg4.IsWhole) (arg5 : Memref sig .tc .vmem S1024x1 .f32) (harg5 : arg5.IsWhole)
    (a : Vec F S1024x4096 .bf16) (x : Vec F S4096x1 .f32) (K : PUnit → sProp 𝕄)
    (hf : first2 i) (hl : ¬ last2 i) (o : Vec F S1024x1 .f32) :
    iprop(owns (c : Thread nD τ) arg2 fullShare a ∗ owns (c : Thread nD τ) arg3 fullShare x ∗ owns (c : Thread nD τ) arg4 fullShare o
        ∗ (∃ d, owns (c : Thread nD τ) arg5 fullShare d)
        ∗ (iprop(owns (c : Thread nD τ) arg2 fullShare a ∗ owns (c : Thread nD τ) arg3 fullShare x ∗ owns (c : Thread nD τ) arg4 fullShare o
            ∗ owns (c : Thread nD τ) arg5 fullShare (k2_pay2 a x k2_pay1)) -∗ K ⟨⟩))
      ⊢ wp frame (wpE (defs₀ (F := F)) Variants.none c none) E (cc2__layer3_kernel i arg2 harg2 arg3 harg3 arg4 harg4 arg5 harg5) K := by
  simp only [cc2__layer3_kernel_eq_skeleton]; unfold cc2__layer3_kernel_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  sl_unfold_run_names
  rw [View.read_writes_eq_canon _ _ _ (fun y => ⟨_, List.mem_cons_self, View.mem_set_unit_zero hz2 inb_S1024x1_S1024x1_0_0 y⟩),
    View.canon_cons_unit_zero hz2]
  rw [View.readCov_unit_zero _ hz2]
  simp only [View.readAt_eq_ld, harg2.read_unread, harg3.read_unread, View.ld_unit_zero (S := S1024x4096) hz2,
    View.ld_unit_zero (S := S4096x1) hz2]

set_option maxHeartbeats 1000000 in
/-- A middle K tile: the accumulator ends at what it held plus this point's product; the output block is untouched. -/
theorem run2_mid (c : Dev nD) (E : Set ℕ) (i : grid2.Coords)
    (arg2 : Memref sig .tc .vmem S1024x4096 .bf16) (harg2 : arg2.IsWhole) (arg3 : Memref sig .tc .vmem S4096x1 .f32) (harg3 : arg3.IsWhole)
    (arg4 : Memref sig .tc .vmem S1024x1 .f32) (harg4 : arg4.IsWhole) (arg5 : Memref sig .tc .vmem S1024x1 .f32) (harg5 : arg5.IsWhole)
    (a : Vec F S1024x4096 .bf16) (x : Vec F S4096x1 .f32) (K : PUnit → sProp 𝕄)
    (hf : ¬ first2 i) (hl : ¬ last2 i) (o s : Vec F S1024x1 .f32) :
    iprop(owns (c : Thread nD τ) arg2 fullShare a ∗ owns (c : Thread nD τ) arg3 fullShare x ∗ owns (c : Thread nD τ) arg4 fullShare o
        ∗ owns (c : Thread nD τ) arg5 fullShare s
        ∗ (iprop(owns (c : Thread nD τ) arg2 fullShare a ∗ owns (c : Thread nD τ) arg3 fullShare x ∗ owns (c : Thread nD τ) arg4 fullShare o
            ∗ owns (c : Thread nD τ) arg5 fullShare (k2_pay2 a x s)) -∗ K ⟨⟩))
      ⊢ wp frame (wpE (defs₀ (F := F)) Variants.none c none) E (cc2__layer3_kernel i arg2 harg2 arg3 harg3 arg4 harg4 arg5 harg5) K := by
  simp only [cc2__layer3_kernel_eq_skeleton]; unfold cc2__layer3_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  sl_unfold_run_names
  rw [View.read_writes_eq_canon _ _ _ (fun y => ⟨_, List.mem_cons_self, View.mem_set_unit_zero hz2 inb_S1024x1_S1024x1_0_0 y⟩),
    View.canon_cons_unit_zero hz2]
  simp only [View.readAt_eq_ld, harg2.read_unread, harg3.read_unread, harg5.read_unread, View.ld_unit_zero (S := S1024x4096) hz2,
    View.ld_unit_zero (S := S4096x1) hz2, View.ld_unit_zero (S := S1024x1) hz2]

set_option maxHeartbeats 1000000 in
/-- The last K tile: the accumulator ends at what it held plus this point's product, and the output block at its logistic. -/
theorem run2_last (c : Dev nD) (E : Set ℕ) (i : grid2.Coords)
    (arg2 : Memref sig .tc .vmem S1024x4096 .bf16) (harg2 : arg2.IsWhole) (arg3 : Memref sig .tc .vmem S4096x1 .f32) (harg3 : arg3.IsWhole)
    (arg4 : Memref sig .tc .vmem S1024x1 .f32) (harg4 : arg4.IsWhole) (arg5 : Memref sig .tc .vmem S1024x1 .f32) (harg5 : arg5.IsWhole)
    (a : Vec F S1024x4096 .bf16) (x : Vec F S4096x1 .f32) (K : PUnit → sProp 𝕄)
    (hf : ¬ first2 i) (hl : last2 i) (s : Vec F S1024x1 .f32) :
    iprop(owns (c : Thread nD τ) arg2 fullShare a ∗ owns (c : Thread nD τ) arg3 fullShare x ∗ (∃ d, owns (c : Thread nD τ) arg4 fullShare d)
        ∗ owns (c : Thread nD τ) arg5 fullShare s
        ∗ (iprop(owns (c : Thread nD τ) arg2 fullShare a ∗ owns (c : Thread nD τ) arg3 fullShare x
            ∗ owns (c : Thread nD τ) arg4 fullShare (k2_pay3 (k2_pay2 a x s))
            ∗ owns (c : Thread nD τ) arg5 fullShare (k2_pay2 a x s)) -∗ K ⟨⟩))
      ⊢ wp frame (wpE (defs₀ (F := F)) Variants.none c none) E (cc2__layer3_kernel i arg2 harg2 arg3 harg3 arg4 harg4 arg5 harg5) K := by
  simp only [cc2__layer3_kernel_eq_skeleton]; unfold cc2__layer3_kernel_skel
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (fun y => ⟨_, List.mem_cons_self, View.mem_set_unit_zero hz2 inb_S1024x1_S1024x1_0_0 y⟩),
      View.canon_cons_unit_zero hz2]
    rw [View.readCov_unit_zero _ hz2]
    simp only [View.readAt_eq_ld, harg2.read_unread, harg3.read_unread, harg5.read_unread, View.ld_unit_zero (S := S1024x4096) hz2,
      View.ld_unit_zero (S := S4096x1) hz2, View.ld_unit_zero (S := S1024x1) hz2]
  iexists _; isplitr
  swap; · iexact H3
  ipureintro
  sl_unfold_run_names
  rw [View.read_writes_eq_canon _ _ _ (fun y => ⟨_, List.mem_cons_self, View.mem_set_unit_zero hz2 inb_S1024x1_S1024x1_0_0 y⟩),
    View.canon_cons_unit_zero hz2]
  simp only [View.readAt_eq_ld, harg2.read_unread, harg3.read_unread, harg5.read_unread, View.ld_unit_zero (S := S1024x4096) hz2,
    View.ld_unit_zero (S := S4096x1) hz2, View.ld_unit_zero (S := S1024x1) hz2]

end Cert.KernelIdeal.Hand

end
-- ==== Proof.IdealSide.Body0.lean ====
import proofs.«131155_j73212012528270_2_alg».proof.Proof.Gen.KernelIdeal.Launch
import proofs.«131155_j73212012528270_2_alg».proof.Proof.Gen.KernelIdeal.Skeleton
import proofs.«131155_j73212012528270_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«131155_j73212012528270_2_alg».proof.Proof.IdealSide.Body2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 0's body at one grid point

The body rounds this point's `adj` block to bf16 and keeps the rounded block as a second output; it adds the product of
the rounded block and this point's feature block to the accumulator, zeroed at the first K tile of a row tile; at the
last K tile it stores `relu` of the sum times the projection matrix into the output block. Three kinds of point, by the
K coordinate: first, middle, last. -/

/-- The K coordinate is the first one (the accumulator is zeroed). -/
abbrev first0 (i : grid0.Coords) : Prop := (Scalar.cmpi .ne (Scalar.extui (Scalar.cmpi .eq (BitVec.ofNat 32 (i 1).val) 0#32)) 0#32) = 1#1
/-- The K coordinate is the last one (the output block is stored). -/
abbrev last0 (i : grid0.Coords) : Prop := k0_cond2 i = 1#1

set_option maxHeartbeats 1000000 in
/-- First K tile: whatever the accumulator held, it ends at zero plus this point's product; the rounded `adj` block is
    stored; the output block is untouched. -/
theorem run0_first (c : Dev nD) (E : Set ℕ) (i : grid0.Coords)
    (arg2 : Memref sig .tc .vmem S1024x2048 .f32) (harg2 : arg2.IsWhole) (arg3 : Memref sig .tc .vmem S2048x32 .f32) (harg3 : arg3.IsWhole)
    (arg4 : Memref sig .tc .vmem S32x32 .f32) (harg4 : arg4.IsWhole) (arg5 : Memref sig .tc .vmem S1024x32 .f32) (harg5 : arg5.IsWhole)
    (arg6 : Memref sig .tc .vmem S1024x2048 .bf16) (harg6 : arg6.IsWhole) (arg7 : Memref sig .tc .vmem S1024x32 .f32) (harg7 : arg7.IsWhole)
    (a : Vec F S1024x2048 .f32) (x : Vec F S2048x32 .f32) (w : Vec F S32x32 .f32) (K : PUnit → sProp 𝕄)
    (hf : first0 i) (hl : ¬ last0 i) (o : Vec F S1024x32 .f32) :
    iprop(owns (c : Thread nD τ) arg2 fullShare a ∗ owns (c : Thread nD τ) arg3 fullShare x ∗ owns (c : Thread nD τ) arg4 fullShare w
        ∗ owns (c : Thread nD τ) arg5 fullShare o ∗ (∃ d, owns (c : Thread nD τ) arg6 fullShare d) ∗ (∃ d, owns (c : Thread nD τ) arg7 fullShare d)
        ∗ (iprop(owns (c : Thread nD τ) arg2 fullShare a ∗ owns (c : Thread nD τ) arg3 fullShare x ∗ owns (c : Thread nD τ) arg4 fullShare w
            ∗ owns (c : Thread nD τ) arg5 fullShare o
            ∗ owns (c : Thread nD τ) arg6 fullShare (k0_pay2 a) ∗ owns (c : Thread nD τ) arg7 fullShare (k0_pay3 a x k0_pay1)) -∗ K ⟨⟩))
      ⊢ wp frame (wpE (defs₀ (F := F)) Variants.none c none) E (cc0__layer1_kernel i arg2 harg2 arg3 harg3 arg4 harg4 arg5 harg5 arg6 harg6 arg7 harg7) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [View.read_writes_eq_canon _ _ _ (fun y => ⟨_, List.mem_cons_self, View.mem_set_unit_zero hz2 inb_S1024x2048_S1024x2048_0_0 y⟩),
      View.canon_cons_unit_zero hz2]
    simp only [View.readAt_eq_ld, harg2.read_unread, View.ld_unit_zero (S := S1024x2048) hz2]
  iexists _; isplitr
  swap; · iexact H5
  ipureintro
  sl_unfold_run_names
  rw [View.read_writes_eq_canon _ _ _ (fun y => ⟨_, List.mem_cons_self, View.mem_set_unit_zero hz2 inb_S1024x32_S1024x32_0_0 y⟩),
    View.canon_cons_unit_zero hz2]
  rw [View.readCov_unit_zero _ hz2]
  simp only [View.readAt_eq_ld, harg2.read_unread, harg3.read_unread, View.ld_unit_zero (S := S1024x2048) hz2, View.ld_unit_zero (S := S2048x32) hz2]

set_option maxHeartbeats 1000000 in
/-- A middle K tile: the accumulator ends at what it held plus this point's product; the rounded `adj` block is stored;
    the output block is untouched. -/
theorem run0_mid (c : Dev nD) (E : Set ℕ) (i : grid0.Coords)
    (arg2 : Memref sig .tc .vmem S1024x2048 .f32) (harg2 : arg2.IsWhole) (arg3 : Memref sig .tc .vmem S2048x32 .f32) (harg3 : arg3.IsWhole)
    (arg4 : Memref sig .tc .vmem S32x32 .f32) (harg4 : arg4.IsWhole) (arg5 : Memref sig .tc .vmem S1024x32 .f32) (harg5 : arg5.IsWhole)
    (arg6 : Memref sig .tc .vmem S1024x2048 .bf16) (harg6 : arg6.IsWhole) (arg7 : Memref sig .tc .vmem S1024x32 .f32) (harg7 : arg7.IsWhole)
    (a : Vec F S1024x2048 .f32) (x : Vec F S2048x32 .f32) (w : Vec F S32x32 .f32) (K : PUnit → sProp 𝕄)
    (hf : ¬ first0 i) (hl : ¬ last0 i) (o : Vec F S1024x32 .f32) (s : Vec F S1024x32 .f32) :
    iprop(owns (c : Thread nD τ) arg2 fullShare a ∗ owns (c : Thread nD τ) arg3 fullShare x ∗ owns (c : Thread nD τ) arg4 fullShare w
        ∗ owns (c : Thread nD τ) arg5 fullShare o ∗ (∃ d, owns (c : Thread nD τ) arg6 fullShare d) ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare o
            ∗ owns (c : Thread nD τ) arg6 fullShare (k0_pay2 a) ∗ owns (c : Thread nD τ) arg7 fullShare (k0_pay3 a x s)) -∗ K ⟨⟩))
      ⊢ wp frame (wpE (defs₀ (F := F)) Variants.none c none) E (cc0__layer1_kernel i arg2 harg2 arg3 harg3 arg4 harg4 arg5 harg5 arg6 harg6 arg7 harg7) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1; obtain rfl := harg4.eq_unread hf2; obtain rfl := harg5.eq_unread hf3
  obtain rfl := harg7.eq_unread hf5
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [View.read_writes_eq_canon _ _ _ (fun y => ⟨_, List.mem_cons_self, View.mem_set_unit_zero hz2 inb_S1024x2048_S1024x2048_0_0 y⟩),
      View.canon_cons_unit_zero hz2]
    simp only [View.readAt_eq_ld, harg2.read_unread, View.ld_unit_zero (S := S1024x2048) hz2]
  iexists _; isplitr
  swap; · iexact H5
  ipureintro
  sl_unfold_run_names
  rw [View.read_writes_eq_canon _ _ _ (fun y => ⟨_, List.mem_cons_self, View.mem_set_unit_zero hz2 inb_S1024x32_S1024x32_0_0 y⟩),
    View.canon_cons_unit_zero hz2]
  simp only [View.readAt_eq_ld, harg2.read_unread, harg3.read_unread, harg7.read_unread, View.ld_unit_zero (S := S1024x2048) hz2, View.ld_unit_zero (S := S2048x32) hz2, View.ld_unit_zero (S := S1024x32) hz2]

set_option maxHeartbeats 1000000 in
/-- The last K tile: the accumulator ends at what it held plus this point's product, the rounded `adj` block is stored,
    and the output block ends at `relu` of that sum times the projection matrix. -/
theorem run0_last (c : Dev nD) (E : Set ℕ) (i : grid0.Coords)
    (arg2 : Memref sig .tc .vmem S1024x2048 .f32) (harg2 : arg2.IsWhole) (arg3 : Memref sig .tc .vmem S2048x32 .f32) (harg3 : arg3.IsWhole)
    (arg4 : Memref sig .tc .vmem S32x32 .f32) (harg4 : arg4.IsWhole) (arg5 : Memref sig .tc .vmem S1024x32 .f32) (harg5 : arg5.IsWhole)
    (arg6 : Memref sig .tc .vmem S1024x2048 .bf16) (harg6 : arg6.IsWhole) (arg7 : Memref sig .tc .vmem S1024x32 .f32) (harg7 : arg7.IsWhole)
    (a : Vec F S1024x2048 .f32) (x : Vec F S2048x32 .f32) (w : Vec F S32x32 .f32) (K : PUnit → sProp 𝕄)
    (hf : ¬ first0 i) (hl : last0 i) (s : Vec F S1024x32 .f32) :
    iprop(owns (c : Thread nD τ) arg2 fullShare a ∗ owns (c : Thread nD τ) arg3 fullShare x ∗ owns (c : Thread nD τ) arg4 fullShare w
        ∗ (∃ d, owns (c : Thread nD τ) arg5 fullShare d) ∗ (∃ d, owns (c : Thread nD τ) arg6 fullShare d) ∗ owns (c : Thread nD τ) arg7 fullShare s
        ∗ (iprop(owns (c : Thread nD τ) arg2 fullShare a ∗ owns (c : Thread nD τ) arg3 fullShare x ∗ owns (c : Thread nD τ) arg4 fullShare w
            ∗ owns (c : Thread nD τ) arg5 fullShare (k0_pay4 (k0_pay3 a x s) w)
            ∗ owns (c : Thread nD τ) arg6 fullShare (k0_pay2 a) ∗ owns (c : Thread nD τ) arg7 fullShare (k0_pay3 a x s)) -∗ K ⟨⟩))
      ⊢ wp frame (wpE (defs₀ (F := F)) Variants.none c none) E (cc0__layer1_kernel i arg2 harg2 arg3 harg3 arg4 harg4 arg5 harg5 arg6 harg6 arg7 harg7) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, Hk⟩
  obtain rfl := harg2.eq_unread hf0; obtain rfl := harg3.eq_unread hf1; obtain rfl := harg4.eq_unread hf2
  obtain rfl := harg7.eq_unread hf5
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [View.read_writes_eq_canon _ _ _ (fun y => ⟨_, List.mem_cons_self, View.mem_set_unit_zero hz2 inb_S1024x32_S1024x32_0_0 y⟩),
      View.canon_cons_unit_zero hz2]
    rw [View.readCov_unit_zero _ hz2]
    simp only [View.readAt_eq_ld, harg2.read_unread, harg3.read_unread, harg4.read_unread, harg7.read_unread, View.ld_unit_zero (S := S1024x2048) hz2, View.ld_unit_zero (S := S2048x32) hz2, View.ld_unit_zero (S := S1024x32) hz2, View.ld_unit_zero (S := S32x32) hz2]
  isplitl [H4]
  · iexists _; isplitr
    swap; · iexact H4
    ipureintro
    sl_unfold_run_names
    rw [View.read_writes_eq_canon _ _ _ (fun y => ⟨_, List.mem_cons_self, View.mem_set_unit_zero hz2 inb_S1024x2048_S1024x2048_0_0 y⟩),
      View.canon_cons_unit_zero hz2]
    simp only [View.readAt_eq_ld, harg2.read_unread, View.ld_unit_zero (S := S1024x2048) hz2]
  iexists _; isplitr
  swap; · iexact H5
  ipureintro
  sl_unfold_run_names
  rw [View.read_writes_eq_canon _ _ _ (fun y => ⟨_, List.mem_cons_self, View.mem_set_unit_zero hz2 inb_S1024x32_S1024x32_0_0 y⟩),
    View.canon_cons_unit_zero hz2]
  simp only [View.readAt_eq_ld, harg2.read_unread, harg3.read_unread, harg7.read_unread, View.ld_unit_zero (S := S1024x2048) hz2, View.ld_unit_zero (S := S2048x32) hz2, View.ld_unit_zero (S := S1024x32) hz2]

end Cert.KernelIdeal.Hand

end
-- ==== Proof.IdealSide.Oblig0.lean ====
import proofs.«131155_j73212012528270_2_alg».proof.Proof.IdealSide.Dats
import proofs.«131155_j73212012528270_2_alg».proof.Proof.IdealSide.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 0: the body obligation at every grid point

The grid point `t` is (row tile, K tile) with the K tile innermost: `t % 8` is the K tile. The accumulator is zeroed at
`t % 8 = 0` and the output block stored at `t % 8 = 7`; between points the accumulator holds the running sum `acc0`. -/

variable (V : (c : Dev nD) → (b : Ref sig .tc) → Buf (Elt F) ((c : Thread nD τ).loc b))

/-! ## The two conditions, in closed form over the grid -/

theorem hfirst0 : ∀ t : Fin cfg0.N, first0 (grid0.coords t) ↔ t.val % 8 = 0 :=
  (by decide +kernel : ∀ t : Fin grid0.N, first0 (grid0.coords t) ↔ t.val % 8 = 0)
theorem hlast0 : ∀ t : Fin cfg0.N, last0 (grid0.coords t) ↔ t.val % 8 = 7 :=
  (by decide +kernel : ∀ t : Fin grid0.N, last0 (grid0.coords t) ↔ t.val % 8 = 7)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_4 : ∀ t : Fin cfg0.N, cfg0.idle 4 (grid0.coords t) = false := by decide +kernel
/-- Away from the last K tile the projected output block is neither stored into nor written back. -/
theorem idle0_3 : ∀ t : Fin cfg0.N, ¬ last0 (grid0.coords t) → cfg0.idle 3 (grid0.coords t) = true := by decide +kernel
theorem noFlush0_3 : ∀ t : Fin cfg0.N, ¬ last0 (grid0.coords t) → (cfg0.win 3).flush t = false := by decide +kernel
theorem live0_3 : ∀ t : Fin cfg0.N, last0 (grid0.coords t) → cfg0.idle 3 (grid0.coords t) = false := by decide +kernel

/-! ## The proof data, projected -/

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay4 (acc0 V c t.val t.isLt) (iblk0 V c 2 t) := by dsimp only [dat0]
theorem after0_4 (c : Dev nD) (t : Fin cfg0.N) : (dat0 V c).after 4 t = k0_pay2 (iblk0 V c 0 t) := by dsimp only [dat0]

/-- An input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The running sum, one point at a time -/

theorem acc0_first (c : Dev nD) (t : Fin cfg0.N) (h0 : t.val % 8 = 0) :
    acc0 V c t.val t.isLt = k0_pay3 (iblk0 V c 0 t) (iblk0 V c 1 t) k0_pay1 := by
  obtain ⟨n, hn⟩ := t
  cases n with
  | zero => rfl
  | succ n => exact congrArg (k0_pay3 _ _) (if_pos h0)

theorem acc0_next (c : Dev nD) (t : Fin cfg0.N) (h0 : ¬ t.val % 8 = 0) :
    acc0 V c t.val t.isLt = k0_pay3 (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h0
  | succ n => exact congrArg (k0_pay3 _ _) (if_neg h0)

/-! ## The invariant -/

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (acc0 V c n hn) ∗ rest0 c) := rfl

theorem PhiS0_pos (c : Dev nD) (n : ℕ) (h : n ≤ cfg0.N) (hz : n ≠ 0) :
    PhiS0 V c n h = iprop(owns (c : Thread nD τ) scM0 fullShare (acc0 V c (n - 1) (by omega)) ∗ rest0 c) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- The call's scoped rest split at its accumulator: the accumulator at some contents, and everything else. -/
theorem scoped0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

theorem PhiA0_split (c : Dev nD) :
    (Pipeline.ΦA spec0 c : sProp 𝕄) ⊢ iprop((∃ d, owns (c : Thread nD τ) scM0 fullShare d) ∗ rest0 c) := by
  unfold Pipeline.ΦA rest0
  rw [scoped0_split c]
  simp only [scM0, owns_whole]
  iintro ⟨⟨HS, HB⟩, Hg⟩
  isplitl [HS]; · iexact HS
  isplitl [HB]; · iexact HB
  iexact Hg

theorem PhiA0_join (c : Dev nD) :
    iprop((∃ d, owns (c : Thread nD τ) scM0 fullShare d) ∗ rest0 c) ⊢ (Pipeline.ΦA spec0 c : sProp 𝕄) := by
  unfold Pipeline.ΦA rest0
  rw [scoped0_split c]
  simp only [scM0, owns_whole]
  iintro ⟨HS, HB, Hg⟩
  isplitl [HS HB]
  · isplitl [HS]; · iexact HS
    iexact HB
  iexact Hg

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point, by the K tile: the inputs' buffers hold their blocks; the bf16 copy is stored at every point;
    the invariant hands the accumulator over at the running sum so far (at anything before the first point) and takes it
    back at the running sum after this point; the projected output block is touched only at the last K tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (win0_0.stage (cfg0.slots t 0)) fullShare ((dat0 V c).after 0 t) from by
    unfold Dat.leavesExact; rw [live0_0 t], after0_0]
  rw [show (dat0 V c).leavesExact 1 t = owns (c : Thread nD τ) (win0_1.stage (cfg0.slots t 1)) fullShare ((dat0 V c).after 1 t) from by
    unfold Dat.leavesExact; rw [live0_1 t], after0_1]
  rw [show (dat0 V c).leavesExact 2 t = owns (c : Thread nD τ) (win0_2.stage (cfg0.slots t 2)) fullShare ((dat0 V c).after 2 t) from by
    unfold Dat.leavesExact; rw [live0_2 t], after0_2]
  rw [show (dat0 V c).leavesExact 4 t = owns (c : Thread nD τ) (win0_4.stage (cfg0.slots t 4)) fullShare ((dat0 V c).after 4 t) from by
    unfold Dat.leavesExact; rw [live0_4 t], after0_4]
  by_cases h0 : t.val % 8 = 0
  · have h1 : ¬ t.val % 8 = 7 := by omega
    rw [Dat.leavesExact_idle (dat0 V c) 3 t (idle0_3 t (fun h => h1 ((hlast0 t).mp h))) (noFlush0_3 t (fun h => h1 ((hlast0 t).mp h)))]
    rw [acc0_first V c t h0]
    by_cases hz : t.val = 0
    · rw [PhiS0_castSucc V c t, PhiS0_zero V c _ _ hz]
      iintro ⟨HΦ, Ho, ⟨%d0, H0⟩, ⟨%d1, H1⟩, ⟨%d2, H2⟩, ⟨%d3, H3⟩, ⟨%d4, H4⟩⟩
      ihave HΦ' := (PhiA0_split c) $$ HΦ
      icases HΦ' with ⟨HS, Hrest⟩
      iapply (run0_first c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) scM0 (Memref.isWhole_whole _) (iblk0 V c 0 t) (iblk0 V c 1 t) (iblk0 V c 2 t) _ ((hfirst0 t).mpr h0) (fun h => h1 ((hlast0 t).mp h)) ((dat0 V c).before 3 t d3))
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hrest]
      · isplitl [HS]; · iexact HS
        iexact Hrest
      isplitl [Ho]; · iexact Ho
      isplitl [H0]; · iexact H0
      isplitl [H1]; · iexact H1
      isplitl [H2]; · iexact H2
      isplitl [H3]; · iexists _; iexact H3
      iexact H4
    · rw [PhiS0_castSucc V c t, PhiS0_pos V c _ _ hz]
      iintro ⟨HΦ, Ho, ⟨%d0, H0⟩, ⟨%d1, H1⟩, ⟨%d2, H2⟩, ⟨%d3, H3⟩, ⟨%d4, H4⟩⟩
      icases HΦ with ⟨HS, Hrest⟩
      iapply (run0_first c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) scM0 (Memref.isWhole_whole _) (iblk0 V c 0 t) (iblk0 V c 1 t) (iblk0 V c 2 t) _ ((hfirst0 t).mpr h0) (fun h => h1 ((hlast0 t).mp h)) ((dat0 V c).before 3 t d3))
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, H4, HS⟩
      isplitl [HS Hrest]
      · isplitl [HS]; · iexact HS
        iexact Hrest
      isplitl [Ho]; · iexact Ho
      isplitl [H0]; · iexact H0
      isplitl [H1]; · iexact H1
      isplitl [H2]; · iexact H2
      isplitl [H3]; · iexists _; iexact H3
      iexact H4
  · by_cases h1 : t.val % 8 = 7
    · have hz : t.val ≠ 0 := by omega
      rw [show (dat0 V c).leavesExact 3 t = owns (c : Thread nD τ) (win0_3.stage (cfg0.slots t 3)) fullShare ((dat0 V c).after 3 t) from by
        unfold Dat.leavesExact; rw [live0_3 t ((hlast0 t).mpr h1)], after0_3]
      rw [acc0_next V c t h0]
      rw [PhiS0_castSucc V c t, PhiS0_pos V c _ _ hz]
      iintro ⟨HΦ, Ho, ⟨%d0, H0⟩, ⟨%d1, H1⟩, ⟨%d2, H2⟩, ⟨%d3, H3⟩, ⟨%d4, H4⟩⟩
      icases HΦ with ⟨HS, Hrest⟩
      iapply (run0_last c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) scM0 (Memref.isWhole_whole _) (iblk0 V c 0 t) (iblk0 V c 1 t) (iblk0 V c 2 t) _ (fun h => h0 ((hfirst0 t).mp h)) ((hlast0 t).mpr h1) _)
      isplitl [H0]; · iexact H0
      isplitl [H1]; · iexact H1
      isplitl [H2]; · iexact H2
      isplitl [H3]; · iexists _; iexact H3
      isplitl [H4]; · iexists _; iexact H4
      isplitl [HS]; · iexact HS
      iintro ⟨H0, H1, H2, H3, H4, HS⟩
      isplitl [HS Hrest]
      · isplitl [HS]; · iexact HS
        iexact Hrest
      isplitl [Ho]; · iexact Ho
      isplitl [H0]; · iexact H0
      isplitl [H1]; · iexact H1
      isplitl [H2]; · iexact H2
      isplitl [H3]; · iexact H3
      iexact H4
    · have hz : t.val ≠ 0 := by omega
      rw [Dat.leavesExact_idle (dat0 V c) 3 t (idle0_3 t (fun h => h1 ((hlast0 t).mp h))) (noFlush0_3 t (fun h => h1 ((hlast0 t).mp h)))]
      rw [acc0_next V c t h0]
      rw [PhiS0_castSucc V c t, PhiS0_pos V c _ _ hz]
      iintro ⟨HΦ, Ho, ⟨%d0, H0⟩, ⟨%d1, H1⟩, ⟨%d2, H2⟩, ⟨%d3, H3⟩, ⟨%d4, H4⟩⟩
      icases HΦ with ⟨HS, Hrest⟩
      iapply (run0_mid c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) scM0 (Memref.isWhole_whole _) (iblk0 V c 0 t) (iblk0 V c 1 t) (iblk0 V c 2 t) _ (fun h => h0 ((hfirst0 t).mp h)) (fun h => h1 ((hlast0 t).mp h)) ((dat0 V c).before 3 t d3) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hrest]
      · isplitl [HS]; · iexact HS
        iexact Hrest
      isplitl [Ho]; · iexact Ho
      isplitl [H0]; · iexact H0
      isplitl [H1]; · iexact H1
      isplitl [H2]; · iexact H2
      isplitl [H3]; · iexists _; iexact H3
      iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After any point the invariant gives it back: what the accumulator holds is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  iintro ⟨HS, Hrest⟩
  iapply (PhiA0_join c)
  isplitl [HS]; · iexists _; iexact HS
  iexact Hrest

theorem hout0 (c : Dev nD) : (dat0 V c).Φ (Fin.last cfg0.N) ⊢ Pipeline.ΦA spec0 c :=
  Phi_out0 V c _ (by rw [Fin.val_last]; have : cfg0.N = 128 := N_0; omega)

end Cert.KernelIdeal.Hand

end
-- ==== Proof.IdealSide.Body1.lean ====
import proofs.«131155_j73212012528270_2_alg».proof.Proof.Gen.KernelIdeal.Launch
import proofs.«131155_j73212012528270_2_alg».proof.Proof.Gen.KernelIdeal.Skeleton
import proofs.«131155_j73212012528270_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«131155_j73212012528270_2_alg».proof.Proof.IdealSide.Body2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 1's body at one grid point

The body adds the product of this point's `adj` block (already bf16) and feature block to the accumulator, zeroed at the
first K tile of a row tile; at the last K tile it stores `relu` of the sum times the projection column into the output block. -/

/-- The K coordinate is the first one (the accumulator is zeroed). -/
abbrev first1 (i : grid1.Coords) : Prop := (Scalar.cmpi .ne (Scalar.extui (Scalar.cmpi .eq (BitVec.ofNat 32 (i 1).val) 0#32)) 0#32) = 1#1
/-- The K coordinate is the last one (the output block is stored). -/
abbrev last1 (i : grid1.Coords) : Prop := k1_cond2 i = 1#1

set_option maxHeartbeats 1000000 in
/-- First K tile: whatever the accumulator held, it ends at zero plus this point's product; the output block is untouched. -/
theorem run1_first (c : Dev nD) (E : Set ℕ) (i : grid1.Coords)
    (arg2 : Memref sig .tc .vmem S1024x4096 .bf16) (harg2 : arg2.IsWhole) (arg3 : Memref sig .tc .vmem S4096x32 .f32) (harg3 : arg3.IsWhole)
    (arg4 : Memref sig .tc .vmem S32x1 .f32) (harg4 : arg4.IsWhole) (arg5 : Memref sig .tc .vmem S1024x1 .f32) (harg5 : arg5.IsWhole)
    (arg6 : Memref sig .tc .vmem S1024x32 .f32) (harg6 : arg6.IsWhole)
    (a : Vec F S1024x4096 .bf16) (x : Vec F S4096x32 .f32) (w : Vec F S32x1 .f32) (K : PUnit → sProp 𝕄)
    (hf : first1 i) (hl : ¬ last1 i) (o : Vec F S1024x1 .f32) :
    iprop(owns (c : Thread nD τ) arg2 fullShare a ∗ owns (c : Thread nD τ) arg3 fullShare x ∗ owns (c : Thread nD τ) arg4 fullShare w
        ∗ owns (c : Thread nD τ) arg5 fullShare o ∗ (∃ d, owns (c : Thread nD τ) arg6 fullShare d)
        ∗ (iprop(owns (c : Thread nD τ) arg2 fullShare a ∗ owns (c : Thread nD τ) arg3 fullShare x ∗ owns (c : Thread nD τ) arg4 fullShare w
            ∗ owns (c : Thread nD τ) arg5 fullShare o ∗ owns (c : Thread nD τ) arg6 fullShare (k1_pay2 a x k1_pay1)) -∗ K ⟨⟩))
      ⊢ wp frame (wpE (defs₀ (F := F)) Variants.none c none) E (cc1__layer2_kernel i arg2 harg2 arg3 harg3 arg4 harg4 arg5 harg5 arg6 harg6) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  sl_unfold_run_names
  rw [View.read_writes_eq_canon _ _ _ (fun y => ⟨_, List.mem_cons_self, View.mem_set_unit_zero hz2 inb_S1024x32_S1024x32_0_0 y⟩),
    View.canon_cons_unit_zero hz2]
  rw [View.readCov_unit_zero _ hz2]
  simp only [View.readAt_eq_ld, harg2.read_unread, harg3.read_unread, View.ld_unit_zero (S := S1024x4096) hz2,
    View.ld_unit_zero (S := S4096x32) hz2]

set_option maxHeartbeats 1000000 in
/-- A middle K tile: the accumulator ends at what it held plus this point's product; the output block is untouched. -/
theorem run1_mid (c : Dev nD) (E : Set ℕ) (i : grid1.Coords)
    (arg2 : Memref sig .tc .vmem S1024x4096 .bf16) (harg2 : arg2.IsWhole) (arg3 : Memref sig .tc .vmem S4096x32 .f32) (harg3 : arg3.IsWhole)
    (arg4 : Memref sig .tc .vmem S32x1 .f32) (harg4 : arg4.IsWhole) (arg5 : Memref sig .tc .vmem S1024x1 .f32) (harg5 : arg5.IsWhole)
    (arg6 : Memref sig .tc .vmem S1024x32 .f32) (harg6 : arg6.IsWhole)
    (a : Vec F S1024x4096 .bf16) (x : Vec F S4096x32 .f32) (w : Vec F S32x1 .f32) (K : PUnit → sProp 𝕄)
    (hf : ¬ first1 i) (hl : ¬ last1 i) (o : Vec F S1024x1 .f32) (s : Vec F S1024x32 .f32) :
    iprop(owns (c : Thread nD τ) arg2 fullShare a ∗ owns (c : Thread nD τ) arg3 fullShare x ∗ owns (c : Thread nD τ) arg4 fullShare w
        ∗ owns (c : Thread nD τ) arg5 fullShare o ∗ owns (c : Thread nD τ) arg6 fullShare s
        ∗ (iprop(owns (c : Thread nD τ) arg2 fullShare a ∗ owns (c : Thread nD τ) arg3 fullShare x ∗ owns (c : Thread nD τ) arg4 fullShare w
            ∗ owns (c : Thread nD τ) arg5 fullShare o ∗ owns (c : Thread nD τ) arg6 fullShare (k1_pay2 a x s)) -∗ K ⟨⟩))
      ⊢ wp frame (wpE (defs₀ (F := F)) Variants.none c none) E (cc1__layer2_kernel i arg2 harg2 arg3 harg3 arg4 harg4 arg5 harg5 arg6 harg6) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2; obtain rfl := harg5.eq_unread hf3
  obtain rfl := harg6.eq_unread hf4
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  sl_unfold_run_names
  rw [View.read_writes_eq_canon _ _ _ (fun y => ⟨_, List.mem_cons_self, View.mem_set_unit_zero hz2 inb_S1024x32_S1024x32_0_0 y⟩),
    View.canon_cons_unit_zero hz2]
  simp only [View.readAt_eq_ld, harg2.read_unread, harg3.read_unread, harg6.read_unread, View.ld_unit_zero (S := S1024x4096) hz2,
    View.ld_unit_zero (S := S4096x32) hz2, View.ld_unit_zero (S := S1024x32) hz2]

set_option maxHeartbeats 1000000 in
/-- The last K tile: the accumulator ends at what it held plus this point's product, and the output block at `relu` of
    that sum times the projection column. -/
theorem run1_last (c : Dev nD) (E : Set ℕ) (i : grid1.Coords)
    (arg2 : Memref sig .tc .vmem S1024x4096 .bf16) (harg2 : arg2.IsWhole) (arg3 : Memref sig .tc .vmem S4096x32 .f32) (harg3 : arg3.IsWhole)
    (arg4 : Memref sig .tc .vmem S32x1 .f32) (harg4 : arg4.IsWhole) (arg5 : Memref sig .tc .vmem S1024x1 .f32) (harg5 : arg5.IsWhole)
    (arg6 : Memref sig .tc .vmem S1024x32 .f32) (harg6 : arg6.IsWhole)
    (a : Vec F S1024x4096 .bf16) (x : Vec F S4096x32 .f32) (w : Vec F S32x1 .f32) (K : PUnit → sProp 𝕄)
    (hf : ¬ first1 i) (hl : last1 i) (s : Vec F S1024x32 .f32) :
    iprop(owns (c : Thread nD τ) arg2 fullShare a ∗ owns (c : Thread nD τ) arg3 fullShare x ∗ owns (c : Thread nD τ) arg4 fullShare w
        ∗ (∃ d, owns (c : Thread nD τ) arg5 fullShare d) ∗ owns (c : Thread nD τ) arg6 fullShare s
        ∗ (iprop(owns (c : Thread nD τ) arg2 fullShare a ∗ owns (c : Thread nD τ) arg3 fullShare x ∗ owns (c : Thread nD τ) arg4 fullShare w
            ∗ owns (c : Thread nD τ) arg5 fullShare (k1_pay3 (k1_pay2 a x s) w)
            ∗ owns (c : Thread nD τ) arg6 fullShare (k1_pay2 a x s)) -∗ K ⟨⟩))
      ⊢ wp frame (wpE (defs₀ (F := F)) Variants.none c none) E (cc1__layer2_kernel i arg2 harg2 arg3 harg3 arg4 harg4 arg5 harg5 arg6 harg6) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2
  obtain rfl := harg6.eq_unread hf4
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [View.read_writes_eq_canon _ _ _ (fun y => ⟨_, List.mem_cons_self, View.mem_set_unit_zero hz2 inb_S1024x1_S1024x1_0_0 y⟩),
      View.canon_cons_unit_zero hz2]
    rw [View.readCov_unit_zero _ hz2]
    simp only [View.readAt_eq_ld, harg2.read_unread, harg3.read_unread, harg4.read_unread, harg6.read_unread,
      View.ld_unit_zero (S := S1024x4096) hz2, View.ld_unit_zero (S := S4096x32) hz2, View.ld_unit_zero (S := S1024x32) hz2,
      View.ld_unit_zero (S := S32x1) hz2]
  iexists _; isplitr
  swap; · iexact H4
  ipureintro
  sl_unfold_run_names
  rw [View.read_writes_eq_canon _ _ _ (fun y => ⟨_, List.mem_cons_self, View.mem_set_unit_zero hz2 inb_S1024x32_S1024x32_0_0 y⟩),
    View.canon_cons_unit_zero hz2]
  simp only [View.readAt_eq_ld, harg2.read_unread, harg3.read_unread, harg6.read_unread, View.ld_unit_zero (S := S1024x4096) hz2,
    View.ld_unit_zero (S := S4096x32) hz2, View.ld_unit_zero (S := S1024x32) hz2]

end Cert.KernelIdeal.Hand

end
-- ==== Proof.IdealSide.Oblig1.lean ====
import proofs.«131155_j73212012528270_2_alg».proof.Proof.IdealSide.Dats
import proofs.«131155_j73212012528270_2_alg».proof.Proof.IdealSide.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 1: the body obligation at every grid point

The grid point `t` is (row tile, K tile) with the K tile innermost: `t % 4` is the K tile. The accumulator is zeroed at
`t % 4 = 0` and the output block stored at `t % 4 = 3`; between points the accumulator holds the running sum `acc1`. -/

variable (V : (c : Dev nD) → (b : Ref sig .tc) → Buf (Elt F) ((c : Thread nD τ).loc b))

/-! ## The two conditions, in closed form over the grid -/

theorem hfirst1 : ∀ t : Fin cfg1.N, first1 (grid1.coords t) ↔ t.val % 4 = 0 :=
  (by decide +kernel : ∀ t : Fin grid1.N, first1 (grid1.coords t) ↔ t.val % 4 = 0)
theorem hlast1 : ∀ t : Fin cfg1.N, last1 (grid1.coords t) ↔ t.val % 4 = 3 :=
  (by decide +kernel : ∀ t : Fin grid1.N, last1 (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last K tile the output block is neither stored into nor written back. -/
theorem idle1_3 : ∀ t : Fin cfg1.N, ¬ last1 (grid1.coords t) → cfg1.idle 3 (grid1.coords t) = true := by decide +kernel
theorem noFlush1_3 : ∀ t : Fin cfg1.N, ¬ last1 (grid1.coords t) → (cfg1.win 3).flush t = false := by decide +kernel
theorem live1_3 : ∀ t : Fin cfg1.N, last1 (grid1.coords t) → cfg1.idle 3 (grid1.coords t) = false := by decide +kernel

/-! ## The proof data, projected -/

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) (iblk1 V c 2 t) := by dsimp only [dat1]

/-- An input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The running sum, one point at a time -/

theorem acc1_first (c : Dev nD) (t : Fin cfg1.N) (h0 : t.val % 4 = 0) :
    acc1 V c t.val t.isLt = k1_pay2 (iblk1 V c 0 t) (iblk1 V c 1 t) k1_pay1 := by
  obtain ⟨n, hn⟩ := t
  cases n with
  | zero => rfl
  | succ n => exact congrArg (k1_pay2 _ _) (if_pos h0)

theorem acc1_next (c : Dev nD) (t : Fin cfg1.N) (h0 : ¬ t.val % 4 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact congrArg (k1_pay2 _ _) (if_neg h0)

/-! ## The invariant -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (acc1 V c n hn) ∗ rest1 c) := rfl

theorem PhiS1_pos (c : Dev nD) (n : ℕ) (h : n ≤ cfg1.N) (hz : n ≠ 0) :
    PhiS1 V c n h = iprop(owns (c : Thread nD τ) scM1 fullShare (acc1 V c (n - 1) (by omega)) ∗ rest1 c) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- The call's scoped rest split at its accumulator: the accumulator at some contents, and everything else. -/
theorem scoped1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

theorem PhiA1_split (c : Dev nD) :
    (Pipeline.ΦA spec1 c : sProp 𝕄) ⊢ iprop((∃ d, owns (c : Thread nD τ) scM1 fullShare d) ∗ rest1 c) := by
  unfold Pipeline.ΦA rest1
  rw [scoped1_split c]
  simp only [scM1, owns_whole]
  iintro ⟨⟨HS, HB⟩, Hg⟩
  isplitl [HS]; · iexact HS
  isplitl [HB]; · iexact HB
  iexact Hg

theorem PhiA1_join (c : Dev nD) :
    iprop((∃ d, owns (c : Thread nD τ) scM1 fullShare d) ∗ rest1 c) ⊢ (Pipeline.ΦA spec1 c : sProp 𝕄) := by
  unfold Pipeline.ΦA rest1
  rw [scoped1_split c]
  simp only [scM1, owns_whole]
  iintro ⟨HS, HB, Hg⟩
  isplitl [HS HB]
  · isplitl [HS]; · iexact HS
    iexact HB
  iexact Hg

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point, by the K tile: the inputs' buffers hold their blocks; the invariant hands the accumulator over
    at the running sum so far (at anything before the first point) and takes it back at the running sum after this
    point; the output block is touched only at the last K tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (win1_0.stage (cfg1.slots t 0)) fullShare ((dat1 V c).after 0 t) from by
    unfold Dat.leavesExact; rw [live1_0 t], after1_0]
  rw [show (dat1 V c).leavesExact 1 t = owns (c : Thread nD τ) (win1_1.stage (cfg1.slots t 1)) fullShare ((dat1 V c).after 1 t) from by
    unfold Dat.leavesExact; rw [live1_1 t], after1_1]
  rw [show (dat1 V c).leavesExact 2 t = owns (c : Thread nD τ) (win1_2.stage (cfg1.slots t 2)) fullShare ((dat1 V c).after 2 t) from by
    unfold Dat.leavesExact; rw [live1_2 t], after1_2]
  by_cases h0 : t.val % 4 = 0
  · have h1 : ¬ t.val % 4 = 3 := by omega
    rw [Dat.leavesExact_idle (dat1 V c) 3 t (idle1_3 t (fun h => h1 ((hlast1 t).mp h))) (noFlush1_3 t (fun h => h1 ((hlast1 t).mp h)))]
    rw [acc1_first V c t h0]
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩⟩
      ihave HΦ' := (PhiA1_split c) $$ HΦ
      icases HΦ' with ⟨HS, Hrest⟩
      iapply (run1_first c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) scM1 (Memref.isWhole_whole _) (iblk1 V c 0 t) (iblk1 V c 1 t) (iblk1 V c 2 t) _ ((hfirst1 t).mpr h0) (fun h => h1 ((hlast1 t).mp h)) ((dat1 V c).before 3 t d3))
      isplitl [H0]; · iexact H0
      isplitl [H1]; · iexact H1
      isplitl [H2]; · iexact H2
      isplitl [H3]; · iexact H3
      isplitl [HS]; · iexact HS
      iintro ⟨H0, H1, H2, H3, HS⟩
      isplitl [HS Hrest]
      · isplitl [HS]; · iexact HS
        iexact Hrest
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨HΦ, Ho, ⟨%d0, H0⟩, ⟨%d1, H1⟩, ⟨%d2, H2⟩, ⟨%d3, H3⟩⟩
      icases HΦ with ⟨HS, Hrest⟩
      iapply (run1_first c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) scM1 (Memref.isWhole_whole _) (iblk1 V c 0 t) (iblk1 V c 1 t) (iblk1 V c 2 t) _ ((hfirst1 t).mpr h0) (fun h => h1 ((hlast1 t).mp h)) ((dat1 V c).before 3 t d3))
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hrest]
      · isplitl [HS]; · iexact HS
        iexact Hrest
      isplitl [Ho]; · iexact Ho
      isplitl [H0]; · iexact H0
      isplitl [H1]; · iexact H1
      isplitl [H2]; · iexact H2
      iexists _; iexact H3
  · by_cases h1 : t.val % 4 = 3
    · have hz : t.val ≠ 0 := by omega
      rw [show (dat1 V c).leavesExact 3 t = owns (c : Thread nD τ) (win1_3.stage (cfg1.slots t 3)) fullShare ((dat1 V c).after 3 t) from by
        unfold Dat.leavesExact; rw [live1_3 t ((hlast1 t).mpr h1)], after1_3]
      rw [acc1_next V c t h0]
      rw [PhiS1_castSucc V c t, PhiS1_pos V c _ _ hz]
      iintro ⟨HΦ, Ho, ⟨%d0, H0⟩, ⟨%d1, H1⟩, ⟨%d2, H2⟩, ⟨%d3, H3⟩⟩
      icases HΦ with ⟨HS, Hrest⟩
      iapply (run1_last c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) scM1 (Memref.isWhole_whole _) (iblk1 V c 0 t) (iblk1 V c 1 t) (iblk1 V c 2 t) _ (fun h => h0 ((hfirst1 t).mp h)) ((hlast1 t).mpr h1) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hrest]
      · isplitl [HS]; · iexact HS
        iexact Hrest
      isplitl [Ho]; · iexact Ho
      isplitl [H0]; · iexact H0
      isplitl [H1]; · iexact H1
      isplitl [H2]; · iexact H2
      iexact H3
    · have hz : t.val ≠ 0 := by omega
      rw [Dat.leavesExact_idle (dat1 V c) 3 t (idle1_3 t (fun h => h1 ((hlast1 t).mp h))) (noFlush1_3 t (fun h => h1 ((hlast1 t).mp h)))]
      rw [acc1_next V c t h0]
      rw [PhiS1_castSucc V c t, PhiS1_pos V c _ _ hz]
      iintro ⟨HΦ, Ho, ⟨%d0, H0⟩, ⟨%d1, H1⟩, ⟨%d2, H2⟩, ⟨%d3, H3⟩⟩
      icases HΦ with ⟨HS, Hrest⟩
      iapply (run1_mid c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) scM1 (Memref.isWhole_whole _) (iblk1 V c 0 t) (iblk1 V c 1 t) (iblk1 V c 2 t) _ (fun h => h0 ((hfirst1 t).mp h)) (fun h => h1 ((hlast1 t).mp h)) ((dat1 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest]
      · isplitl [HS]; · iexact HS
        iexact Hrest
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point the invariant gives it back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HS, Hrest⟩
  iapply (PhiA1_join c)
  isplitl [HS]; · iexists _; iexact HS
  iexact Hrest

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.IdealSide.Oblig2.lean ====
import proofs.«131155_j73212012528270_2_alg».proof.Proof.IdealSide.Dats
import proofs.«131155_j73212012528270_2_alg».proof.Proof.IdealSide.Body2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 2: the body obligation at every grid point

The grid point `t` is (row tile, K tile) with the K tile innermost: `t % 4` is the K tile. The accumulator is zeroed at
`t % 4 = 0` and the output block stored at `t % 4 = 3`; between points the accumulator holds the running sum `acc2`. -/

variable (V : (c : Dev nD) → (b : Ref sig .tc) → Buf (Elt F) ((c : Thread nD τ).loc b))

/-! ## The two conditions, in closed form over the grid -/

theorem hfirst2 : ∀ t : Fin cfg2.N, first2 (grid2.coords t) ↔ t.val % 4 = 0 :=
  (by decide +kernel : ∀ t : Fin grid2.N, first2 (grid2.coords t) ↔ t.val % 4 = 0)
theorem hlast2 : ∀ t : Fin cfg2.N, last2 (grid2.coords t) ↔ t.val % 4 = 3 :=
  (by decide +kernel : ∀ t : Fin grid2.N, last2 (grid2.coords t) ↔ t.val % 4 = 3)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
/-- Away from the last K tile the output block is neither stored into nor written back. -/
theorem idle2_2 : ∀ t : Fin cfg2.N, ¬ last2 (grid2.coords t) → cfg2.idle 2 (grid2.coords t) = true := by decide +kernel
theorem noFlush2_2 : ∀ t : Fin cfg2.N, ¬ last2 (grid2.coords t) → (cfg2.win 2).flush t = false := by decide +kernel
theorem live2_2 : ∀ t : Fin cfg2.N, last2 (grid2.coords t) → cfg2.idle 2 (grid2.coords t) = false := by decide +kernel

/-! ## The proof data, projected -/

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (acc2 V c t.val t.isLt) := by dsimp only [dat2]

/-- An input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-! ## The running sum, one point at a time -/

theorem acc2_first (c : Dev nD) (t : Fin cfg2.N) (h0 : t.val % 4 = 0) :
    acc2 V c t.val t.isLt = k2_pay2 (iblk2 V c 0 t) (iblk2 V c 1 t) k2_pay1 := by
  obtain ⟨n, hn⟩ := t
  cases n with
  | zero => rfl
  | succ n => exact congrArg (k2_pay2 _ _) (if_pos h0)

theorem acc2_next (c : Dev nD) (t : Fin cfg2.N) (h0 : ¬ t.val % 4 = 0) :
    acc2 V c t.val t.isLt = k2_pay2 (iblk2 V c 0 t) (iblk2 V c 1 t)
      (acc2 V c (t.val - 1) (Nat.lt_of_le_of_lt (Nat.sub_le _ _) t.isLt)) := by
  obtain ⟨n, hn⟩ := t
  cases n with
  | zero => exact absurd (Nat.zero_mod _) h0
  | succ n => exact congrArg (k2_pay2 _ _) (if_neg h0)

/-! ## The invariant -/

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2 fullShare (acc2 V c n hn) ∗ rest2 c) := rfl

theorem PhiS2_pos (c : Dev nD) (n : ℕ) (h : n ≤ cfg2.N) (hz : n ≠ 0) :
    PhiS2 V c n h = iprop(owns (c : Thread nD τ) scM2 fullShare (acc2 V c (n - 1) (by omega)) ∗ rest2 c) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

/-- The call's scoped rest split at its accumulator: the accumulator at some contents, and everything else. -/
theorem scoped2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

theorem PhiA2_split (c : Dev nD) :
    (Pipeline.ΦA spec2 c : sProp 𝕄) ⊢ iprop((∃ d, owns (c : Thread nD τ) scM2 fullShare d) ∗ rest2 c) := by
  unfold Pipeline.ΦA rest2
  rw [scoped2_split c]
  simp only [scM2, owns_whole]
  iintro ⟨⟨HS, HB⟩, Hg⟩
  isplitl [HS]; · iexact HS
  isplitl [HB]; · iexact HB
  iexact Hg

theorem PhiA2_join (c : Dev nD) :
    iprop((∃ d, owns (c : Thread nD τ) scM2 fullShare d) ∗ rest2 c) ⊢ (Pipeline.ΦA spec2 c : sProp 𝕄) := by
  unfold Pipeline.ΦA rest2
  rw [scoped2_split c]
  simp only [scM2, owns_whole]
  iintro ⟨HS, HB, Hg⟩
  isplitl [HS HB]
  · isplitl [HS]; · iexact HS
    iexact HB
  iexact Hg

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (win2_0.stage (cfg2.slots t 0)) fullShare ((dat2 V c).before 0 t d))
    ∗ (∃ d, owns (c : Thread nD τ) (win2_1.stage (cfg2.slots t 1)) fullShare ((dat2 V c).before 1 t d))
    ∗ (∃ d, owns (c : Thread nD τ) (win2_2.stage (cfg2.slots t 2)) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point, by the K tile: the inputs' buffers hold their blocks; the invariant hands the accumulator over
    at the running sum so far (at anything before the first point) and takes it back at the running sum after this
    point; the output block is touched only at the last K tile. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (win2_0.stage (cfg2.slots t 0)) fullShare ((dat2 V c).after 0 t) from by
    unfold Dat.leavesExact; rw [live2_0 t], after2_0]
  rw [show (dat2 V c).leavesExact 1 t = owns (c : Thread nD τ) (win2_1.stage (cfg2.slots t 1)) fullShare ((dat2 V c).after 1 t) from by
    unfold Dat.leavesExact; rw [live2_1 t], after2_1]
  by_cases h0 : t.val % 4 = 0
  · have h1 : ¬ t.val % 4 = 3 := by omega
    rw [Dat.leavesExact_idle (dat2 V c) 2 t (idle2_2 t (fun h => h1 ((hlast2 t).mp h))) (noFlush2_2 t (fun h => h1 ((hlast2 t).mp h)))]
    rw [acc2_first V c t h0]
    by_cases hz : t.val = 0
    ·
      rw [PhiS2_castSucc V c t, PhiS2_zero V c _ _ hz]
      iintro ⟨HΦ, Ho, ⟨%d0, H0⟩, ⟨%d1, H1⟩, ⟨%d2, H2⟩⟩
      ihave HΦ' := (PhiA2_split c) $$ HΦ
      icases HΦ' with ⟨HS, Hrest⟩
      iapply (run2_first c Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) scM2 (Memref.isWhole_whole _) (iblk2 V c 0 t) (iblk2 V c 1 t) _ ((hfirst2 t).mpr h0) (fun h => h1 ((hlast2 t).mp h)) ((dat2 V c).before 2 t d2) )
      isplitl [H0]; · iexact H0
      isplitl [H1]; · iexact H1
      isplitl [H2]; · iexact H2
      isplitl [HS]; · iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexists _; iexact H2
    ·
      rw [PhiS2_castSucc V c t, PhiS2_pos V c _ _ hz]
      iintro ⟨HΦ, Ho, ⟨%d0, H0⟩, ⟨%d1, H1⟩, ⟨%d2, H2⟩⟩
      icases HΦ with ⟨HS, Hrest⟩
      iapply (run2_first c Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) scM2 (Memref.isWhole_whole _) (iblk2 V c 0 t) (iblk2 V c 1 t) _ ((hfirst2 t).mpr h0) (fun h => h1 ((hlast2 t).mp h)) ((dat2 V c).before 2 t d2) )
      isplitl [H0]; · iexact H0
      isplitl [H1]; · iexact H1
      isplitl [H2]; · iexact H2
      isplitl [HS]; · iexists _; iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexists _; iexact H2
  · by_cases h1 : t.val % 4 = 3
    · have hz : t.val ≠ 0 := by omega
      rw [show (dat2 V c).leavesExact 2 t = owns (c : Thread nD τ) (win2_2.stage (cfg2.slots t 2)) fullShare ((dat2 V c).after 2 t) from by
        unfold Dat.leavesExact; rw [live2_2 t ((hlast2 t).mpr h1)], after2_2]
      rw [acc2_next V c t h0]
      rw [PhiS2_castSucc V c t, PhiS2_pos V c _ _ hz]
      iintro ⟨HΦ, Ho, ⟨%d0, H0⟩, ⟨%d1, H1⟩, ⟨%d2, H2⟩⟩
      icases HΦ with ⟨HS, Hrest⟩
      iapply (run2_last c Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) scM2 (Memref.isWhole_whole _) (iblk2 V c 0 t) (iblk2 V c 1 t) _ (fun h => h0 ((hfirst2 t).mp h)) ((hlast2 t).mpr h1) _)
      isplitl [H0]; · iexact H0
      isplitl [H1]; · iexact H1
      isplitl [H2]; · iexists _; iexact H2
      isplitl [HS]; · iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexact H2
    · have hz : t.val ≠ 0 := by omega
      rw [Dat.leavesExact_idle (dat2 V c) 2 t (idle2_2 t (fun h => h1 ((hlast2 t).mp h))) (noFlush2_2 t (fun h => h1 ((hlast2 t).mp h)))]
      rw [acc2_next V c t h0]
      rw [PhiS2_castSucc V c t, PhiS2_pos V c _ _ hz]
      iintro ⟨HΦ, Ho, ⟨%d0, H0⟩, ⟨%d1, H1⟩, ⟨%d2, H2⟩⟩
      icases HΦ with ⟨HS, Hrest⟩
      iapply (run2_mid c Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) scM2 (Memref.isWhole_whole _) (iblk2 V c 0 t) (iblk2 V c 1 t) _ (fun h => h0 ((hfirst2 t).mp h)) (fun h => h1 ((hlast2 t).mp h)) ((dat2 V c).before 2 t d2) _)
      isplitl [H0]; · iexact H0
      isplitl [H1]; · iexact H1
      isplitl [H2]; · iexact H2
      isplitl [HS]; · iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After any point the invariant gives it back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  iintro ⟨HS, Hrest⟩
  iapply (PhiA2_join c)
  isplitl [HS]; · iexists _; iexact HS
  iexact Hrest

theorem hout2 (c : Dev nD) : (dat2 V c).Φ (Fin.last cfg2.N) ⊢ Pipeline.ΦA spec2 c :=
  Phi_out2 V c _ (by rw [Fin.val_last]; have : cfg2.N = 64 := N_2; omega)

end Cert.KernelIdeal.Hand

end
-- ==== Proof.IdealSide.Run.lean ====
import proofs.«131155_j73212012528270_2_alg».proof.Proof.IdealSide.Bounds
import proofs.«131155_j73212012528270_2_alg».proof.Proof.IdealSide.Oblig0
import proofs.«131155_j73212012528270_2_alg».proof.Proof.IdealSide.Oblig1
import proofs.«131155_j73212012528270_2_alg».proof.Proof.IdealSide.Oblig2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of `@main`: the host product and the three calls as segments -/

variable (m : (ℓ : Loc nD τ sig) → Buf (Elt F) ℓ) (ρ : Dev nD → PrngReg)

/-! ## The proof data family and what rides beside the buffers -/

/-- No call has a prefetched table. -/
abbrev noTables : (p : Fin 3) → (pcfgs (F := F) p).Adm := fun p => (cfgs p).toPCfg_adm
/-- Every call's proof data, each at its entry contents — a literal match on the call. -/
def pdats : (p : Fin 3) → (c : Dev nD) → Dat τ (Elt F) Unit ℕ (UR sig nD τ) ℕ (Pipeline.pin (pcfgs (F := F)) noTables p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
theorem hostOps0_fresh : (hostOps0 : List (HloOp τ sig (Elt F))).Forall fun op => op.fresh = ∅ := by
  simp only [List.Forall]; repeat' constructor
/-- The host product as a segment. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m ρ) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the `owes` apart. -/
abbrev Tₙ (c : Dev nD) : sProp 𝕄 := iprop(StableHlo.held (c : Thread nD τ) (Pipeline.ucRefs τ sig) (W4 m ρ c) ∗ ∃ r, prngReg c r)

/-! ## The calls as segments -/

-- a library lemma stated over `pin pcs a p` unifies with the pinned configuration only when unification may unfold plain
-- definitions in a metavariable's type
set_option backward.isDefEq.respectTransparency.types false in
/-- Call 0 as a segment: entered with every unscoped buffer at `W1`, left with them at `W2`. Its arrays are split out of
    the unscoped buffers and put back at what the write-backs leave; the generator register and the scoped rest go into
    the call's invariant and come back; nothing is owed; the kernel has no semaphore of its own. -/
def reg0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin0 (V1 m ρ) c)
    unfold Pipeline.ΦA
    isplitl [Hr]; · iexact Hr
    iexact Hp
  hout c := by
    rw [Pipeline.ownSems0_none, show (pdats m ρ 0 c).Φ (Fin.last _) = (dat0 (V1 m ρ) c).Φ (Fin.last cfg0.N) from rfl]
    iintro Hinv
    ihave H := (hout0 (V1 m ρ) c) $$ Hinv
    unfold Pipeline.ΦA
    icases H with ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- Call 1 as a segment: entered with every unscoped buffer at `W2`, left with them at `W3`. Its arrays are split out of
    the unscoped buffers and put back at what the write-backs leave; the generator register and the scoped rest go into
    the call's invariant and come back; nothing is owed; the kernel has no semaphore of its own. -/
def reg1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (hin1 (V2 m ρ) c)
    unfold Pipeline.ΦA
    isplitl [Hr]; · iexact Hr
    iexact Hp
  hout c := by
    rw [Pipeline.ownSems0_none, show (pdats m ρ 1 c).Φ (Fin.last _) = (dat1 (V2 m ρ) c).Φ (Fin.last cfg1.N) from rfl]
    iintro Hinv
    ihave H := (hout1 (V2 m ρ) c) $$ Hinv
    unfold Pipeline.ΦA
    icases H with ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- Call 2 as a segment: entered with every unscoped buffer at `W3`, left with them at `W4`. Its arrays are split out of
    the unscoped buffers and put back at what the write-backs leave; the generator register and the scoped rest go into
    the call's invariant and come back; nothing is owed; the kernel has no semaphore of its own. -/
def reg2 : Pipeline.RegionSeg (pcfgs (F := F)) noTables (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) noTables (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V3 m ρ) c).Φ 0 from rfl]
    iintro ⟨Hp, -, Hr⟩
    iapply (hin2 (V3 m ρ) c)
    unfold Pipeline.ΦA
    isplitl [Hr]; · iexact Hr
    iexact Hp
  hout c := by
    rw [Pipeline.ownSems0_none, show (pdats m ρ 2 c).Φ (Fin.last _) = (dat2 (V3 m ρ) c).Φ (Fin.last cfg2.N) from rfl]
    iintro Hinv
    ihave H := (hout2 (V3 m ρ) c) $$ Hinv
    unfold Pipeline.ΦA
    icases H with ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) noTables (pdats m ρ) () defs₀ 𝒱₀ L lv) :=
  [ .host (hseg0 m ρ), .region (reg0 m ρ), .region (reg1 m ρ), .region (reg2 m ρ) ]

theorem main_run (c : Dev nD) : main (F := F) c = Pipeline.Seg.run (segs m ρ) :=
  main_segs noTables (pdats m ρ) () 𝒱₀ L lv (hseg0 m ρ) (reg0 m ρ) (reg1 m ρ) (reg2 m ρ) rfl c

set_option backward.isDefEq.respectTransparency.types false in
/-- Every weakly fair execution of `@main` from memory `m` terminates, nothing faulting, with every unscoped buffer of
    every core at the last valuation `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) noTables (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Hand

end
-- ==== Proof.IdealSide.Value0Payloads.lean ====
import proofs.«131155_j73212012528270_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.ValueIdx

/-! # The first call's arithmetic, entry by entry, on the extended reals

Per grid point the body adds to a 1024 × 32 running sum the product of a 1024 × 2048 block of `adj` and a 2048 × 32
block of the features; at the last K tile it clamps the sum at zero from below and multiplies by the 32 × 32 weights.
Casts between formats are the identity and a matrix product into the zero accumulator is the plain sum over the
contracted index. -/

/-- The zero the running sum restarts from. -/
theorem zero_block_apply (p : Fin 1024) (q : Fin 32) : (k0_pay1 (F := Ideal)) (ix2 p q) = 0 := by
  unfold k0_pay1
  rw [shapeCast_self]
  show Ideal.ofBits .f32 0x00000000#32 = 0
  exact Ideal.ofBits_zero_f32

/-! ## The block product `adj-block · feature-block`: the contraction runs over the block's 2048 columns -/

theorem blockdot_lhs_0 (i : S1024x32.Idx) (q : dot_S1024x2048_S2048x32_S1024x32_1_0_0_1_n_n.contr.Idx) :
    (dot_S1024x2048_S2048x32_S1024x32_1_0_0_1_n_n.lhsIdx i q 0).val = (i 0).val := by
  unfold DotDims.lhsIdx
  rw [dif_neg (show ¬(0 : Fin S1024x2048.rank) ∈ dot_S1024x2048_S2048x32_S1024x32_1_0_0_1_n_n.lhsBatch by decide), dif_pos (show (0 : Fin S1024x2048.rank) ∈ dot_S1024x2048_S2048x32_S1024x32_1_0_0_1_n_n.lhsNonContracting by decide)]
  rfl
theorem blockdot_lhs_1 (i : S1024x32.Idx) (q : dot_S1024x2048_S2048x32_S1024x32_1_0_0_1_n_n.contr.Idx) :
    (dot_S1024x2048_S2048x32_S1024x32_1_0_0_1_n_n.lhsIdx i q 1).val = (q ⟨0, by decide⟩).val :=
  dot_S1024x2048_S2048x32_S1024x32_1_0_0_1_n_n.lhsIdx_val_of_single rfl i q
theorem blockdot_rhs_0 (i : S1024x32.Idx) (q : dot_S1024x2048_S2048x32_S1024x32_1_0_0_1_n_n.contr.Idx) :
    (dot_S1024x2048_S2048x32_S1024x32_1_0_0_1_n_n.rhsIdx i q 0).val = (q ⟨0, by decide⟩).val :=
  dot_S1024x2048_S2048x32_S1024x32_1_0_0_1_n_n.rhsIdx_val_of_single rfl i q
theorem blockdot_rhs_1 (i : S1024x32.Idx) (q : dot_S1024x2048_S2048x32_S1024x32_1_0_0_1_n_n.contr.Idx) :
    (dot_S1024x2048_S2048x32_S1024x32_1_0_0_1_n_n.rhsIdx i q 1).val = (i 1).val := by
  unfold DotDims.rhsIdx
  rw [dif_neg (show ¬(1 : Fin S2048x32.rank) ∈ dot_S1024x2048_S2048x32_S1024x32_1_0_0_1_n_n.rhsBatch by decide), dif_pos (show (1 : Fin S2048x32.rank) ∈ dot_S1024x2048_S2048x32_S1024x32_1_0_0_1_n_n.rhsNonContracting by decide)]
  rfl

/-- The product of two blocks into the zero accumulator, at an entry: the sum over the block's columns. -/
theorem blockdot_apply (a : FVec Ideal S1024x2048 .bf16) (x : FVec Ideal S2048x32 .bf16) (p : Fin 1024) (q : Fin 32) :
    matmul dot_S1024x2048_S2048x32_S1024x32_1_0_0_1_n_n none a x (constant (F := Ideal) S1024x32 .f32 0x00000000#32) (ix2 p q)
      = ∑ j : Fin 2048, a (ix2 p j) * x (ix2 j q) := by
  simp only [matmul]
  rw [Ideal.matmul_constant_zero_apply, ← Equiv.sum_comp (ValueIdx.contrEquiv1 dot_S1024x2048_S2048x32_S1024x32_1_0_0_1_n_n 2048 rfl rfl).symm]
  refine Finset.sum_congr rfl fun k _ => ?_
  have hk := ValueIdx.contrEquiv1_symm_val dot_S1024x2048_S2048x32_S1024x32_1_0_0_1_n_n 2048 rfl rfl k
  have el : dot_S1024x2048_S2048x32_S1024x32_1_0_0_1_n_n.lhsIdx (ix2 p q) ((ValueIdx.contrEquiv1 dot_S1024x2048_S2048x32_S1024x32_1_0_0_1_n_n 2048 rfl rfl).symm k) = ix2 p k := funext fun a => Fin.ext (by
    match a with
    | ⟨0, _⟩ => exact blockdot_lhs_0 _ _
    | ⟨1, _⟩ => exact (blockdot_lhs_1 _ _).trans hk)
  have er : dot_S1024x2048_S2048x32_S1024x32_1_0_0_1_n_n.rhsIdx (ix2 p q) ((ValueIdx.contrEquiv1 dot_S1024x2048_S2048x32_S1024x32_1_0_0_1_n_n 2048 rfl rfl).symm k) = ix2 k q := funext fun a => Fin.ext (by
    match a with
    | ⟨0, _⟩ => exact (blockdot_rhs_0 _ _).trans hk
    | ⟨1, _⟩ => exact blockdot_rhs_1 _ _)
  rw [el, er]

/-- One step of the running sum at an entry: the sum so far plus this point's block product. -/
theorem step_apply (a : Vec Ideal S1024x2048 .f32) (x : Vec Ideal S2048x32 .f32) (s : Vec Ideal S1024x32 .f32)
    (p : Fin 1024) (q : Fin 32) :
    k0_pay3 a x s (ix2 p q) = s (ix2 p q) + ∑ j : Fin 2048, a (ix2 p j) * x (ix2 j q) := by
  unfold k0_pay3 k0_pay2
  dsimp only
  rw [shapeCast_self, shapeCast_self]
  refine (addf_apply _ _ (ix2 p q)).trans ?_
  refine congrArg (s (ix2 p q) + ·) ?_
  exact blockdot_apply _ _ p q

/-! ## The projection `relu(sum) · W`: the contraction runs over the 32 features -/

theorem proj_lhs_0 (i : S1024x32.Idx) (q : dot_S1024x32_S32x32_S1024x32_1_0_0_1_n_n.contr.Idx) :
    (dot_S1024x32_S32x32_S1024x32_1_0_0_1_n_n.lhsIdx i q 0).val = (i 0).val := by
  unfold DotDims.lhsIdx
  rw [dif_neg (show ¬(0 : Fin S1024x32.rank) ∈ dot_S1024x32_S32x32_S1024x32_1_0_0_1_n_n.lhsBatch by decide), dif_pos (show (0 : Fin S1024x32.rank) ∈ dot_S1024x32_S32x32_S1024x32_1_0_0_1_n_n.lhsNonContracting by decide)]
  rfl
theorem proj_lhs_1 (i : S1024x32.Idx) (q : dot_S1024x32_S32x32_S1024x32_1_0_0_1_n_n.contr.Idx) :
    (dot_S1024x32_S32x32_S1024x32_1_0_0_1_n_n.lhsIdx i q 1).val = (q ⟨0, by decide⟩).val :=
  dot_S1024x32_S32x32_S1024x32_1_0_0_1_n_n.lhsIdx_val_of_single rfl i q
theorem proj_rhs_0 (i : S1024x32.Idx) (q : dot_S1024x32_S32x32_S1024x32_1_0_0_1_n_n.contr.Idx) :
    (dot_S1024x32_S32x32_S1024x32_1_0_0_1_n_n.rhsIdx i q 0).val = (q ⟨0, by decide⟩).val :=
  dot_S1024x32_S32x32_S1024x32_1_0_0_1_n_n.rhsIdx_val_of_single rfl i q
theorem proj_rhs_1 (i : S1024x32.Idx) (q : dot_S1024x32_S32x32_S1024x32_1_0_0_1_n_n.contr.Idx) :
    (dot_S1024x32_S32x32_S1024x32_1_0_0_1_n_n.rhsIdx i q 1).val = (i 1).val := by
  unfold DotDims.rhsIdx
  rw [dif_neg (show ¬(1 : Fin S32x32.rank) ∈ dot_S1024x32_S32x32_S1024x32_1_0_0_1_n_n.rhsBatch by decide), dif_pos (show (1 : Fin S32x32.rank) ∈ dot_S1024x32_S32x32_S1024x32_1_0_0_1_n_n.rhsNonContracting by decide)]
  rfl

theorem proj_apply (a : FVec Ideal S1024x32 .bf16) (w : FVec Ideal S32x32 .bf16) (p : Fin 1024) (q : Fin 32) :
    matmul dot_S1024x32_S32x32_S1024x32_1_0_0_1_n_n none a w (constant (F := Ideal) S1024x32 .f32 0x00000000#32) (ix2 p q)
      = ∑ h : Fin 32, a (ix2 p h) * w (ix2 h q) := by
  simp only [matmul]
  rw [Ideal.matmul_constant_zero_apply, ← Equiv.sum_comp (ValueIdx.contrEquiv1 dot_S1024x32_S32x32_S1024x32_1_0_0_1_n_n 32 rfl rfl).symm]
  refine Finset.sum_congr rfl fun k _ => ?_
  have hk := ValueIdx.contrEquiv1_symm_val dot_S1024x32_S32x32_S1024x32_1_0_0_1_n_n 32 rfl rfl k
  have el : dot_S1024x32_S32x32_S1024x32_1_0_0_1_n_n.lhsIdx (ix2 p q) ((ValueIdx.contrEquiv1 dot_S1024x32_S32x32_S1024x32_1_0_0_1_n_n 32 rfl rfl).symm k) = ix2 p k := funext fun a => Fin.ext (by
    match a with
    | ⟨0, _⟩ => exact proj_lhs_0 _ _
    | ⟨1, _⟩ => exact (proj_lhs_1 _ _).trans hk)
  have er : dot_S1024x32_S32x32_S1024x32_1_0_0_1_n_n.rhsIdx (ix2 p q) ((ValueIdx.contrEquiv1 dot_S1024x32_S32x32_S1024x32_1_0_0_1_n_n 32 rfl rfl).symm k) = ix2 k q := funext fun a => Fin.ext (by
    match a with
    | ⟨0, _⟩ => exact (proj_rhs_0 _ _).trans hk
    | ⟨1, _⟩ => exact proj_rhs_1 _ _)
  rw [el, er]

/-- The epilogue at an entry: the clamped sums of the entry's row against the entry's column of the weights. -/
theorem epilogue_apply (s : Vec Ideal S1024x32 .f32) (w : Vec Ideal S32x32 .f32) (p : Fin 1024) (q : Fin 32) :
    k0_pay4 s w (ix2 p q) = ∑ h : Fin 32, max (s (ix2 p h)) 0 * w (ix2 h q) := by
  unfold k0_pay4
  refine (proj_apply _ _ p q).trans ?_
  refine Finset.sum_congr rfl fun h _ => ?_
  show max (s (ix2 p h)) (Ideal.ofBits .f32 0x00000000#32) * w (ix2 h q) = _
  rw [Ideal.ofBits_zero_f32]

end Cert.KernelIdeal.Hand

end
-- ==== Proof.IdealSide.BlockSum.lean ====
import Mathlib.Algebra.BigOperators.Fin
import Mathlib.Logic.Equiv.Fin.Basic

/-! # A sum over a tiled range, tile by tile

A range of `K * T` indices cut into `K` consecutive tiles of `T`: the sum over the whole range is the sum, over the
tiles, of the sums inside each tile. Only commutativity and associativity of the addition are used, so the law holds
in every additive commutative monoid (in particular on the extended reals, where nothing can be cancelled). -/

namespace Cert.BlockSum

open Finset

/-- Position `j` of tile `kb` lies in the range. -/
theorem tile_lt {K T : ℕ} (kb : Fin K) (j : Fin T) : kb.val * T + j.val < K * T := by
  have h1 : kb.val * T + T ≤ K * T := by
    have : (kb.val + 1) * T ≤ K * T := Nat.mul_le_mul_right T kb.isLt
    simpa [Nat.add_mul] using this
  have := j.isLt
  omega

/-- The sum over `K * T` consecutive indices, regrouped into `K` tiles of `T`. -/
theorem sum_tiles {M : Type*} [AddCommMonoid M] {N : ℕ} (K T : ℕ) (hN : N = K * T) (f : Fin N → M) :
    ∑ j : Fin N, f j
      = ∑ kb : Fin K, ∑ j : Fin T, f ⟨kb.val * T + j.val, hN ▸ tile_lt kb j⟩ := by
  subst hN
  rw [← Fintype.sum_prod_type']
  refine (Equiv.sum_comp finProdFinEquiv f).symm.trans ?_
  refine Fintype.sum_congr _ _ (fun x => ?_)
  congr 1
  apply Fin.ext
  simp [finProdFinEquiv, Nat.mul_comm, Nat.add_comm]

/-- The same with the tiles numbered by a range of naturals and a summand defined on all naturals. -/
theorem sum_tiles_range {M : Type*} [AddCommMonoid M] {N : ℕ} (K T : ℕ) (hN : N = K * T) (f : Fin N → M)
    (g : ℕ → M)
    (hg : ∀ kb : Fin K, g kb.val = ∑ j : Fin T, f ⟨kb.val * T + j.val, hN ▸ tile_lt kb j⟩) :
    ∑ kb ∈ range K, g kb = ∑ j : Fin N, f j := by
  rw [sum_tiles K T hN f, Finset.sum_range]
  exact Fintype.sum_congr _ _ hg

end Cert.BlockSum
-- ==== Proof.IdealSide.Value0Sum.lean ====
import proofs.«131155_j73212012528270_2_alg».proof.Proof.IdealSide.Dats
import proofs.«131155_j73212012528270_2_alg».proof.Proof.IdealSide.Value0Payloads
import proofs.«131155_j73212012528270_2_alg».proof.Proof.IdealSide.BlockSum
import proofs.«131155_j73212012528270_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window)

/-! # The first call's running sum is a partial row-by-column product

Grid point `t` is row tile `t / 8` and K tile `t % 8`. Its block of `adj` holds rows `1024·(t/8) …` and columns
`2048·(t%8) …`; its block of the features holds rows `2048·(t%8) …`. After the point, entry (p, q) of the running sum is
the product of row `1024·(t/8) + p` of `adj` with column `q` of the features over the K tiles `0 … t%8`; after the last
K tile that is the whole product, by regrouping the sum over 16384 columns into 8 tiles of 2048. -/

variable (V : (c : Dev nD) → (b : Ref sig .tc) → Buf (Elt Ideal) ((c : Thread nD τ).loc b))

/-- Where each window's block sits at grid point `t`. -/
theorem blocks_at : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0 :=
  (by decide +kernel : ∀ t : Fin grid0.N, _)

/-- The point's block of `adj`, at an entry: row `1024·(t/8) + p`, column `2048·(t%8) + j`. -/
theorem adj_block_apply (c : Dev nD) (t : Fin cfg0.N) (p : Fin 1024) (j : Fin 2048) (r m : Fin 16384)
    (hr : r.val = t.val / 8 * 1024 + p.val) (hm : m.val = t.val % 8 * 2048 + j.val) :
    (iblk0 V c 0 t (ix2 p j) : EReal) = (V c main_arg1 : S16384x16384.Idx → EReal) (ix2 r m) := by
  obtain ⟨e0, e1, -⟩ := blocks_at t
  show (V c main_arg1 (((cfg0.win 0).blk t).view.emb (ix2 p j)) : EReal) = _
  refine congrArg (V c main_arg1 : S16384x16384.Idx → EReal) ?_
  funext a; apply Fin.ext
  match a with
  | ⟨0, _⟩ => show win0_0.index t (0 : Fin 2) * 1024 + 1 * p.val = r.val; omega
  | ⟨1, _⟩ => show win0_0.index t (1 : Fin 2) * 2048 + 1 * j.val = m.val; omega

/-- The point's block of the features, at an entry: row `2048·(t%8) + j`, column `q`. -/
theorem feat_block_apply (c : Dev nD) (t : Fin cfg0.N) (j : Fin 2048) (q : Fin 32) (m : Fin 16384)
    (hm : m.val = t.val % 8 * 2048 + j.val) :
    (iblk0 V c 1 t (ix2 j q) : EReal) = (V c main_v0 : S16384x32.Idx → EReal) (ix2 m q) := by
  obtain ⟨-, -, e2, e3, -⟩ := blocks_at t
  show (V c main_v0 (((cfg0.win 1).blk t).view.emb (ix2 j q)) : EReal) = _
  refine congrArg (V c main_v0 : S16384x32.Idx → EReal) ?_
  funext a; apply Fin.ext
  match a with
  | ⟨0, _⟩ => show win0_1.index t (0 : Fin 2) * 2048 + 1 * j.val = m.val; omega
  | ⟨1, _⟩ => show win0_1.index t (1 : Fin 2) * 32 + 1 * q.val = q.val; omega

/-- The weights' one block is the whole matrix. -/
theorem weight_block_apply (c : Dev nD) (t : Fin cfg0.N) (h : Fin 32) (q : Fin 32) :
    (iblk0 V c 2 t (ix2 h q) : EReal) = (V c main_arg3 : S32x32.Idx → EReal) (ix2 h q) := by
  obtain ⟨-, -, -, -, e4, e5, -⟩ := blocks_at t
  show (V c main_arg3 (((cfg0.win 2).blk t).view.emb (ix2 h q)) : EReal) = _
  refine congrArg (V c main_arg3 : S32x32.Idx → EReal) ?_
  funext a; apply Fin.ext
  match a with
  | ⟨0, _⟩ => show win0_2.index t (0 : Fin 2) * 32 + 1 * h.val = h.val; omega
  | ⟨1, _⟩ => show win0_2.index t (1 : Fin 2) * 32 + 1 * q.val = q.val; omega

/-- Row `r` of `adj` against column `q` of the features over K tile `kb`: the columns `2048·kb … 2048·kb + 2047`
    (nothing past the eighth tile). -/
def tileSum (A : Cert.Spec.Mat 16384 16384) (X : Cert.Spec.Mat 16384 32) (r : Fin 16384) (q : Fin 32) (kb : ℕ) : EReal :=
  ∑ j : Fin 2048, if h : kb * 2048 + j.val < 16384 then A (ix2 r ⟨kb * 2048 + j.val, h⟩) * X (ix2 ⟨kb * 2048 + j.val, h⟩ q) else 0

/-- The eight tiles together are the whole product of the row with the column. -/
theorem sum_tileSum (A : Cert.Spec.Mat 16384 16384) (X : Cert.Spec.Mat 16384 32) (r : Fin 16384) (q : Fin 32) :
    ∑ kb ∈ Finset.range 8, tileSum A X r q kb = Cert.Spec.agg32 A X r q := by
  unfold Cert.Spec.agg32
  refine Cert.BlockSum.sum_tiles_range 8 2048 (by norm_num) (fun j => A (ix2 r j) * X (ix2 j q)) (tileSum A X r q) fun kb => ?_
  unfold tileSum
  refine Finset.sum_congr rfl fun j _ => ?_
  rw [dif_pos (by have := kb.isLt; have := j.isLt; omega)]

/-- One point's block product, at an entry, is that point's tile of the row-by-column product. -/
theorem block_product (c : Dev nD) (t : Fin cfg0.N) (a : Vec Ideal S1024x2048 .f32) (x : Vec Ideal S2048x32 .f32)
    (ha : a = iblk0 V c 0 t) (hx : x = iblk0 V c 1 t) (p : Fin 1024) (q : Fin 32) (r : Fin 16384)
    (hr : r.val = t.val / 8 * 1024 + p.val) :
    ∑ j : Fin 2048, a (ix2 p j) * x (ix2 j q) = tileSum (V c main_arg1) (V c main_v0) r q (t.val % 8) := by
  subst ha hx
  unfold tileSum
  refine Finset.sum_congr rfl fun j _ => ?_
  have hN : grid0.N = 128 := N_0
  have hlt : t.val % 8 * 2048 + j.val < 16384 := by have := j.isLt; omega
  rw [dif_pos hlt, adj_block_apply V c t p j r ⟨t.val % 8 * 2048 + j.val, hlt⟩ hr rfl,
    feat_block_apply V c t j q ⟨t.val % 8 * 2048 + j.val, hlt⟩ rfl]

/-- THE RUNNING SUM after point `n`, at entry (p, q): the tiles `0 … n % 8` of row `1024·(n/8) + p` against column `q`.
    By induction on the point: the first K tile of a row tile restarts from zero, every other adds its tile. -/
theorem acc0_apply (c : Dev nD) : ∀ (n : ℕ) (h : n < cfg0.N) (p : Fin 1024) (q : Fin 32) (r : Fin 16384),
    r.val = n / 8 * 1024 + p.val →
    (acc0 V c n h (ix2 p q) : EReal) = ∑ kb ∈ Finset.range (n % 8 + 1), tileSum (V c main_arg1) (V c main_v0) r q kb
  | 0, h, p, q, r, hr => by
    rw [acc0]
    refine (step_apply (iblk0 V c 0 ⟨0, h⟩) (iblk0 V c 1 ⟨0, h⟩) (k0_pay1 (F := Ideal)) p q).trans ?_
    rw [zero_block_apply, zero_add, block_product V c ⟨0, h⟩ (iblk0 V c 0 ⟨0, h⟩) (iblk0 V c 1 ⟨0, h⟩) rfl rfl p q r hr]
    show tileSum _ _ r q 0 = ∑ kb ∈ Finset.range 1, _
    rw [Finset.sum_range_one]
  | n + 1, h, p, q, r, hr => by
    rw [acc0]
    refine (step_apply (iblk0 V c 0 ⟨n + 1, h⟩) (iblk0 V c 1 ⟨n + 1, h⟩)
      (if (n + 1) % 8 = 0 then k0_pay1 (F := Ideal) else acc0 V c n (Nat.lt_of_succ_lt h)) p q).trans ?_
    rw [block_product V c ⟨n + 1, h⟩ (iblk0 V c 0 ⟨n + 1, h⟩) (iblk0 V c 1 ⟨n + 1, h⟩) rfl rfl p q r hr]
    show _ + tileSum _ _ r q ((n + 1) % 8) = _
    by_cases hm : (n + 1) % 8 = 0
    · rw [if_pos hm, zero_block_apply, zero_add, hm, Finset.sum_range_one]
    · have e : (n + 1) % 8 = n % 8 + 1 := by omega
      rw [if_neg hm, acc0_apply c n (Nat.lt_of_succ_lt h) p q r (by omega), e]
      exact (Finset.sum_range_succ _ (n % 8 + 1)).symm

/-- After the last K tile of a row tile the running sum is the whole product `adj · features` at the entry. -/
theorem acc0_last (c : Dev nD) (t : Fin cfg0.N) (h7 : t.val % 8 = 7) (p : Fin 1024) (q : Fin 32) (r : Fin 16384)
    (hr : r.val = t.val / 8 * 1024 + p.val) :
    (acc0 V c t.val t.isLt (ix2 p q) : EReal) = Cert.Spec.agg32 (V c main_arg1) (V c main_v0) r q := by
  rw [acc0_apply V c t.val t.isLt p q r hr, h7, sum_tileSum]

end Cert.KernelIdeal.Hand

end
-- ==== Proof.IdealSide.Value0.lean ====
import proofs.«131155_j73212012528270_2_alg».proof.Proof.IdealSide.Dats
import proofs.«131155_j73212012528270_2_alg».proof.Proof.IdealSide.Value0Sum
import proofs.«131155_j73212012528270_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window)

/-! # The first call's first result is `relu (adj · x0) · W1`

The projected output block of row tile `i` is written back once, after the row tile's last K tile, when the running
sum holds the whole product `adj · x0` on the tile's 1024 rows. The 16 row tiles cover the 16384 rows, so the result
array ends holding the specification's layer, entry by entry. -/

variable (V : (c : Dev nD) → (b : Ref sig .tc) → Buf (Elt Ideal) ((c : Thread nD τ).loc b))

/-- The epilogue of the completed running sum, at an entry of the block: the layer at row `1024·(t/8) + p`. -/
theorem layer_block_entry (c : Dev nD) (t : Fin cfg0.N) (h7 : t.val % 8 = 7) (p : Fin 1024) (q : Fin 32) (r : Fin 16384)
    (hr : r.val = t.val / 8 * 1024 + p.val) :
    (k0_pay4 (acc0 V c t.val t.isLt) (iblk0 V c 2 t) (ix2 p q) : EReal)
      = Cert.Spec.layer1 (V c main_arg1) (V c main_v0) (V c main_arg3) (ix2 r q) := by
  refine (epilogue_apply (acc0 V c t.val t.isLt) (iblk0 V c 2 t) p q).trans ?_
  show _ = ∑ h : Fin 32, max (Cert.Spec.agg32 (V c main_arg1) (V c main_v0) r h) 0
    * (V c main_arg3 : S32x32.Idx → EReal) (ix2 h q)
  refine Finset.sum_congr rfl fun h _ => ?_
  rw [acc0_last V c t h7 p h r hr, weight_block_apply V c t h q]

/-- The same at an index of the block, read where the output window puts it in the array. -/
theorem layer_block_at (c : Dev nD) (t : Fin cfg0.N) (h7 : t.val % 8 = 7) (y : S1024x32.Idx) :
    (k0_pay4 (acc0 V c t.val t.isLt) (iblk0 V c 2 t) y : EReal)
      = Cert.Spec.layer1 (V c main_arg1) (V c main_v0) (V c main_arg3) (((cfg0.win 3).blk t).view.emb y) := by
  obtain ⟨p, q, rfl⟩ : ∃ (p : Fin 1024) (q : Fin 32), y = ix2 p q := ⟨y 0, y 1, eq_ix2 y⟩
  have hN : grid0.N = 128 := N_0
  have htN : t.val < 128 := hN ▸ t.isLt
  obtain ⟨-, -, -, -, -, -, e6, e7⟩ := blocks_at t
  refine (layer_block_entry V c t h7 p q ⟨t.val / 8 * 1024 + p.val, by have := p.isLt; omega⟩ rfl).trans ?_
  refine congrArg (Cert.Spec.layer1 (V c main_arg1) (V c main_v0) (V c main_arg3)) ?_
  funext a; apply Fin.ext
  match a with
  | ⟨0, _⟩ => show t.val / 8 * 1024 + p.val = win0_3.index t (0 : Fin 2) * 1024 + 1 * p.val; omega
  | ⟨1, _⟩ => show q.val = win0_3.index t (1 : Fin 2) * 32 + 1 * q.val; omega

/-- What a point that writes the output block back writes is that block of the layer. -/
theorem layer_flushed_eq (c : Dev nD) (t : Fin cfg0.N) (hf : (cfg0.win 3).flush t = true) :
    (dat0 (F := Ideal) V c).flushed 3 t
      = ((cfg0.win 3).blk t).view.read (Elt Ideal) (Cert.Spec.layer1 (V c main_arg1) (V c main_v0) (V c main_arg3)) := by
  have h7 : t.val % 8 = 7 := (flush0_3 t).mp hf
  show (cfg0.win 3).cut (grid0.coords t) ((dat0 (F := Ideal) V c).after 3 t) = _
  dsimp only [dat0]
  funext y
  show (k0_pay4 (acc0 V c t.val t.isLt) (iblk0 V c 2 t) y : EReal)
    = Cert.Spec.layer1 (V c main_arg1) (V c main_v0) (V c main_arg3) (((cfg0.win 3).blk t).view.emb y)
  exact layer_block_at V c t h7 y

/-- An entry of the result lies in point `t`'s output block iff each coordinate is in the block's range. -/
theorem mem_layer_block (t : Fin cfg0.N) (i : S16384x32.Idx) :
    i ∈ ((cfg0.win 3).blk t).view.set ↔ ∀ a : Fin 2, win0_3.index t a * S1024x32.size a ≤ (i a).val
      ∧ (i a).val < win0_3.index t a * S1024x32.size a + S1024x32.size a := by
  show i ∈ ((View.whole main_v1_0).slice (win0_3.rect t)).set ↔ _
  rw [View.set_slice_whole, Rect.mem_set_unit]
  exact Iff.rfl

/-- Row `r` is written at the last K tile of row tile `r / 1024`. -/
theorem layer_cover (i : S16384x32.Idx) :
    ∃ t : Fin cfg0.N, (cfg0.win 3).flush t = true ∧ i ∈ ((cfg0.win 3).blk t).view.set := by
  have hi0 : (i 0).val < 16384 := (i 0).isLt
  have hi1 : (i 1).val < 32 := (i 1).isLt
  have hN : grid0.N = 128 := N_0
  let t : Fin cfg0.N := ⟨8 * ((i 0).val / 1024) + 7, by show _ < grid0.N; omega⟩
  have ht : t.val = 8 * ((i 0).val / 1024) + 7 := rfl
  obtain ⟨-, -, -, -, -, -, q0, q1⟩ := blocks_at t
  refine ⟨t, (flush0_3 t).mpr (by omega), ?_⟩
  rw [mem_layer_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 32 ≤ (i 1).val ∧ (i 1).val < win0_3.index t (1 : Fin 2) * 32 + 32
    omega

/-- After the call the first result holds `relu (adj · x0) · W1` of the arrays the call found. -/
theorem final0_x (c : Dev nD) :
    (dat0 (F := Ideal) V c).arrAt 3 cfg0.N = Cert.Spec.layer1 (V c main_arg1) (V c main_v0) (V c main_arg3) :=
  (dat0 (F := Ideal) V c).arrAt_eq_of_cover 3 (Cert.Spec.layer1 (V c main_arg1) (V c main_v0) (V c main_arg3))
    (layer_flushed_eq V c) layer_cover

end Cert.KernelIdeal.Hand

end
-- ==== Proof.IdealSide.Value0Adj.lean ====
import proofs.«131155_j73212012528270_2_alg».proof.Proof.IdealSide.Dats
import proofs.«131155_j73212012528270_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window)

/-! # The bf16 copy of the adjacency matrix is the adjacency matrix

At every grid point the first call stores the cast of the point's own block of `adj` into the matching block of its
second result. On the extended reals a change of format is the identity, the two windows move together over the grid,
and the 16 × 8 blocks of 1024 × 2048 entries tile the matrix, so the result ends holding `adj` itself. -/

variable (V : (c : Dev nD) → (b : Ref sig .tc) → Buf (Elt Ideal) ((c : Thread nD τ).loc b))

/-- The window of the bf16 copy and the window `adj` is read through sit at the same block, (row tile, K tile),
    at every grid point: point `t` is row tile `t / 8`, K tile `t % 8`. -/
theorem adj_blocks_at : ∀ t : Fin cfg0.N, win0_0.index t (0 : Fin 2) = win0_4.index t (0 : Fin 2)
    ∧ win0_0.index t (1 : Fin 2) = win0_4.index t (1 : Fin 2)
    ∧ win0_4.index t (0 : Fin 2) = t.val / 8 ∧ win0_4.index t (1 : Fin 2) = t.val % 8 :=
  (by decide +kernel : ∀ t : Fin grid0.N, _)

/-- What a point writes back to the copy is that point's block of `adj`: the cast changes nothing, and the block
    is read at the same place it is written to. -/
theorem copy_flushed_eq (c : Dev nD) (t : Fin cfg0.N) :
    (dat0 (F := Ideal) V c).flushed 4 t
      = ((cfg0.win 4).blk t).view.read (Elt Ideal) (V c main_arg1 : S16384x16384.Idx → EReal) := by
  show (cfg0.win 4).cut (grid0.coords t) ((dat0 (F := Ideal) V c).after 4 t) = _
  dsimp only [dat0]
  unfold k0_pay2
  obtain ⟨e0, e1, -, -⟩ := adj_blocks_at t
  funext j
  show (V c main_arg1 (((cfg0.win 0).blk t).view.emb j) : EReal) = V c main_arg1 (((cfg0.win 4).blk t).view.emb j)
  have h0 : ((cfg0.win 0).blk t).view.emb j = ((cfg0.win 4).blk t).view.emb j := by
    funext a; apply Fin.ext
    match a with
    | ⟨0, _⟩ => show win0_0.index t (0 : Fin 2) * 1024 + 1 * (j 0).val = win0_4.index t (0 : Fin 2) * 1024 + 1 * (j 0).val; omega
    | ⟨1, _⟩ => show win0_0.index t (1 : Fin 2) * 2048 + 1 * (j 1).val = win0_4.index t (1 : Fin 2) * 2048 + 1 * (j 1).val; omega
  rw [h0]

/-- An entry of the matrix lies in point `t`'s block of the copy iff each coordinate is in the block's range. -/
theorem mem_copy_block (t : Fin cfg0.N) (i : S16384x16384.Idx) :
    i ∈ ((cfg0.win 4).blk t).view.set ↔ ∀ a : Fin 2, win0_4.index t a * S1024x2048.size a ≤ (i a).val
      ∧ (i a).val < win0_4.index t a * S1024x2048.size a + S1024x2048.size a := by
  show i ∈ ((View.whole main_v1_1).slice (win0_4.rect t)).set ↔ _
  rw [View.set_slice_whole, Rect.mem_set_unit]
  exact Iff.rfl

/-- Entry (r, m) is written at the point of row tile `r / 1024` and K tile `m / 2048`. -/
theorem copy_cover (i : S16384x16384.Idx) :
    ∃ t : Fin cfg0.N, (cfg0.win 4).flush t = true ∧ i ∈ ((cfg0.win 4).blk t).view.set := by
  have hi0 : (i 0).val < 16384 := (i 0).isLt
  have hi1 : (i 1).val < 16384 := (i 1).isLt
  have hN : grid0.N = 128 := N_0
  let t : Fin cfg0.N := ⟨8 * ((i 0).val / 1024) + (i 1).val / 2048, by show _ < grid0.N; omega⟩
  have ht : t.val = 8 * ((i 0).val / 1024) + (i 1).val / 2048 := rfl
  obtain ⟨-, -, q0, q1⟩ := adj_blocks_at t
  refine ⟨t, flush0_4 t, ?_⟩
  rw [mem_copy_block]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 2048 ≤ (i 1).val ∧ (i 1).val < win0_4.index t (1 : Fin 2) * 2048 + 2048
    omega

/-- After the call the bf16 copy holds `adj`, entry by entry, as extended reals. -/
theorem final0_adj (c : Dev nD) :
    (dat0 (F := Ideal) V c).arrAt 4 cfg0.N = (V c main_arg1 : S16384x16384.Idx → EReal) :=
  (dat0 (F := Ideal) V c).arrAt_eq_of_cover 4 (V c main_arg1 : S16384x16384.Idx → EReal)
    (fun t _ => copy_flushed_eq V c t) copy_cover

end Cert.KernelIdeal.Hand

end
-- ==== Proof.IdealSide.Value1Pay.lean ====
import proofs.«131155_j73212012528270_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-! # The second call's arithmetic, entry by entry

One grid point of the second call multiplies a 1024 × 4096 block of the adjacency matrix by a 4096 × 32 block of the
features and adds the product to the running sum; the epilogue clamps the finished sum at zero from below and multiplies
it by the 32 × 1 weight column. On the extended reals the casts are identities and a product into a zero accumulator
is the plain sum over the contracted index. -/

/-! ## The two contractions' operand indices -/

theorem mm1_lhs0 (i : S1024x32.Idx) (q : dot_S1024x4096_S4096x32_S1024x32_1_0_0_1_n_n.contr.Idx) :
    (dot_S1024x4096_S4096x32_S1024x32_1_0_0_1_n_n.lhsIdx i q 0).val = (i 0).val := by
  unfold DotDims.lhsIdx
  rw [dif_neg (show ¬(0 : Fin S1024x4096.rank) ∈ dot_S1024x4096_S4096x32_S1024x32_1_0_0_1_n_n.lhsBatch by decide), dif_pos (show (0 : Fin S1024x4096.rank) ∈ dot_S1024x4096_S4096x32_S1024x32_1_0_0_1_n_n.lhsNonContracting by decide)]
  rfl
theorem mm1_lhs1 (i : S1024x32.Idx) (q : dot_S1024x4096_S4096x32_S1024x32_1_0_0_1_n_n.contr.Idx) :
    (dot_S1024x4096_S4096x32_S1024x32_1_0_0_1_n_n.lhsIdx i q 1).val = (q ⟨0, by decide⟩).val :=
  dot_S1024x4096_S4096x32_S1024x32_1_0_0_1_n_n.lhsIdx_val_of_single rfl i q
theorem mm1_rhs0 (i : S1024x32.Idx) (q : dot_S1024x4096_S4096x32_S1024x32_1_0_0_1_n_n.contr.Idx) :
    (dot_S1024x4096_S4096x32_S1024x32_1_0_0_1_n_n.rhsIdx i q 0).val = (q ⟨0, by decide⟩).val :=
  dot_S1024x4096_S4096x32_S1024x32_1_0_0_1_n_n.rhsIdx_val_of_single rfl i q
theorem mm1_rhs1 (i : S1024x32.Idx) (q : dot_S1024x4096_S4096x32_S1024x32_1_0_0_1_n_n.contr.Idx) :
    (dot_S1024x4096_S4096x32_S1024x32_1_0_0_1_n_n.rhsIdx i q 1).val = (i 1).val := by
  unfold DotDims.rhsIdx
  rw [dif_neg (show ¬(1 : Fin S4096x32.rank) ∈ dot_S1024x4096_S4096x32_S1024x32_1_0_0_1_n_n.rhsBatch by decide), dif_pos (show (1 : Fin S4096x32.rank) ∈ dot_S1024x4096_S4096x32_S1024x32_1_0_0_1_n_n.rhsNonContracting by decide)]
  rfl

/-- Entry `(p, q)` of a 1024 × 4096 block times a 4096 × 32 block, accumulated from zero: the sum over the block's 4096 columns. -/
theorem mm1_apply (a : FVec Ideal S1024x4096 .bf16) (x : FVec Ideal S4096x32 .bf16) (p : Fin 1024) (q : Fin 32) :
    matmul dot_S1024x4096_S4096x32_S1024x32_1_0_0_1_n_n none a x (constant (F := Ideal) S1024x32 .f32 0x00000000#32) (ix2 p q)
      = ∑ j : Fin 4096, a (ix2 p j) * x (ix2 j q) := by
  refine (Ideal.matmul_constant_zero_apply dot_S1024x4096_S4096x32_S1024x32_1_0_0_1_n_n none a x (ix2 p q)).trans ?_
  rw [← Equiv.sum_comp (ValueIdx.contrEquiv1 dot_S1024x4096_S4096x32_S1024x32_1_0_0_1_n_n 4096 rfl rfl).symm]
  refine Finset.sum_congr rfl fun k _ => ?_
  have hk := ValueIdx.contrEquiv1_symm_val dot_S1024x4096_S4096x32_S1024x32_1_0_0_1_n_n 4096 rfl rfl k
  have el : dot_S1024x4096_S4096x32_S1024x32_1_0_0_1_n_n.lhsIdx (ix2 p q) ((ValueIdx.contrEquiv1 dot_S1024x4096_S4096x32_S1024x32_1_0_0_1_n_n 4096 rfl rfl).symm k) = ix2 p k := funext fun a => Fin.ext (by
    match a with
    | ⟨0, _⟩ => exact mm1_lhs0 _ _
    | ⟨1, _⟩ => exact (mm1_lhs1 _ _).trans hk)
  have er : dot_S1024x4096_S4096x32_S1024x32_1_0_0_1_n_n.rhsIdx (ix2 p q) ((ValueIdx.contrEquiv1 dot_S1024x4096_S4096x32_S1024x32_1_0_0_1_n_n 4096 rfl rfl).symm k) = ix2 k q := funext fun a => Fin.ext (by
    match a with
    | ⟨0, _⟩ => exact (mm1_rhs0 _ _).trans hk
    | ⟨1, _⟩ => exact mm1_rhs1 _ _)
  rw [el, er]

theorem mw1_lhs0 (i : S1024x1.Idx) (q : dot_S1024x32_S32x1_S1024x1_1_0_0_1_n_n.contr.Idx) :
    (dot_S1024x32_S32x1_S1024x1_1_0_0_1_n_n.lhsIdx i q 0).val = (i 0).val := by
  unfold DotDims.lhsIdx
  rw [dif_neg (show ¬(0 : Fin S1024x32.rank) ∈ dot_S1024x32_S32x1_S1024x1_1_0_0_1_n_n.lhsBatch by decide), dif_pos (show (0 : Fin S1024x32.rank) ∈ dot_S1024x32_S32x1_S1024x1_1_0_0_1_n_n.lhsNonContracting by decide)]
  rfl
theorem mw1_lhs1 (i : S1024x1.Idx) (q : dot_S1024x32_S32x1_S1024x1_1_0_0_1_n_n.contr.Idx) :
    (dot_S1024x32_S32x1_S1024x1_1_0_0_1_n_n.lhsIdx i q 1).val = (q ⟨0, by decide⟩).val :=
  dot_S1024x32_S32x1_S1024x1_1_0_0_1_n_n.lhsIdx_val_of_single rfl i q
theorem mw1_rhs0 (i : S1024x1.Idx) (q : dot_S1024x32_S32x1_S1024x1_1_0_0_1_n_n.contr.Idx) :
    (dot_S1024x32_S32x1_S1024x1_1_0_0_1_n_n.rhsIdx i q 0).val = (q ⟨0, by decide⟩).val :=
  dot_S1024x32_S32x1_S1024x1_1_0_0_1_n_n.rhsIdx_val_of_single rfl i q
theorem mw1_rhs1 (i : S1024x1.Idx) (q : dot_S1024x32_S32x1_S1024x1_1_0_0_1_n_n.contr.Idx) :
    (dot_S1024x32_S32x1_S1024x1_1_0_0_1_n_n.rhsIdx i q 1).val = (i 1).val := by
  unfold DotDims.rhsIdx
  rw [dif_neg (show ¬(1 : Fin S32x1.rank) ∈ dot_S1024x32_S32x1_S1024x1_1_0_0_1_n_n.rhsBatch by decide), dif_pos (show (1 : Fin S32x1.rank) ∈ dot_S1024x32_S32x1_S1024x1_1_0_0_1_n_n.rhsNonContracting by decide)]
  rfl

/-- Entry `(p, q)` of a 1024 × 32 block times the 32 × 1 weight column, accumulated from zero: the sum over the 32 features. -/
theorem mw1_apply (a : FVec Ideal S1024x32 .bf16) (x : FVec Ideal S32x1 .bf16) (p : Fin 1024) (q : Fin 1) :
    matmul dot_S1024x32_S32x1_S1024x1_1_0_0_1_n_n none a x (constant (F := Ideal) S1024x1 .f32 0x00000000#32) (ix2 p q)
      = ∑ j : Fin 32, a (ix2 p j) * x (ix2 j q) := by
  refine (Ideal.matmul_constant_zero_apply dot_S1024x32_S32x1_S1024x1_1_0_0_1_n_n none a x (ix2 p q)).trans ?_
  rw [← Equiv.sum_comp (ValueIdx.contrEquiv1 dot_S1024x32_S32x1_S1024x1_1_0_0_1_n_n 32 rfl rfl).symm]
  refine Finset.sum_congr rfl fun k _ => ?_
  have hk := ValueIdx.contrEquiv1_symm_val dot_S1024x32_S32x1_S1024x1_1_0_0_1_n_n 32 rfl rfl k
  have el : dot_S1024x32_S32x1_S1024x1_1_0_0_1_n_n.lhsIdx (ix2 p q) ((ValueIdx.contrEquiv1 dot_S1024x32_S32x1_S1024x1_1_0_0_1_n_n 32 rfl rfl).symm k) = ix2 p k := funext fun a => Fin.ext (by
    match a with
    | ⟨0, _⟩ => exact mw1_lhs0 _ _
    | ⟨1, _⟩ => exact (mw1_lhs1 _ _).trans hk)
  have er : dot_S1024x32_S32x1_S1024x1_1_0_0_1_n_n.rhsIdx (ix2 p q) ((ValueIdx.contrEquiv1 dot_S1024x32_S32x1_S1024x1_1_0_0_1_n_n 32 rfl rfl).symm k) = ix2 k q := funext fun a => Fin.ext (by
    match a with
    | ⟨0, _⟩ => exact (mw1_rhs0 _ _).trans hk
    | ⟨1, _⟩ => exact mw1_rhs1 _ _)
  rw [el, er]

/-! ## The three payloads at an entry -/

/-- The accumulator's restart value is zero everywhere. -/
theorem pay1_zero_apply (i : S1024x32.Idx) : k1_pay1 (F := Ideal) i = 0 := by
  unfold k1_pay1
  simp only [shapeCast_self]
  exact Ideal.ofBits_zero_f32

/-- One accumulation step at entry `(p, q)`: the sum so far plus this block's partial product. -/
theorem pay1_step_apply (a : Vec Ideal S1024x4096 .bf16) (x : Vec Ideal S4096x32 .f32) (s : Vec Ideal S1024x32 .f32)
    (p : Fin 1024) (q : Fin 32) :
    k1_pay2 (F := Ideal) a x s (ix2 p q) = s (ix2 p q) + ∑ j : Fin 4096, a (ix2 p j) * x (ix2 j q) := by
  unfold k1_pay2
  simp only [shapeCast_self]
  refine congrArg (s (ix2 p q) + ·) ?_
  exact mm1_apply a (truncf .bf16 x bitsLt_bf16_f32) p q

/-- The epilogue at entry `(p, q)`: the finished sums of row `p`, clamped at zero from below, against the weight column. -/
theorem pay1_out_apply (s : Vec Ideal S1024x32 .f32) (w : Vec Ideal S32x1 .f32) (p : Fin 1024) (q : Fin 1) :
    k1_pay3 (F := Ideal) s w (ix2 p q) = ∑ h : Fin 32, max (s (ix2 p h)) 0 * w (ix2 h q) := by
  unfold k1_pay3
  refine (mw1_apply _ _ p q).trans ?_
  refine Finset.sum_congr rfl fun h _ => ?_
  show max (s (ix2 p h)) (Ideal.ofBits .f32 0x00000000#32) * w (ix2 h q) = _
  rw [Ideal.ofBits_zero_f32]

end Cert.KernelIdeal.Hand

end
-- ==== Proof.IdealSide.Value1Sum.lean ====
import proofs.«131155_j73212012528270_2_alg».proof.Proof.IdealSide.Dats
import proofs.«131155_j73212012528270_2_alg».proof.Proof.Spec
import proofs.«131155_j73212012528270_2_alg».proof.Proof.IdealSide.BlockSum
import proofs.«131155_j73212012528270_2_alg».proof.Proof.IdealSide.Value1Pay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # The second call's running sum is the adjacency row times the feature matrix

Grid point `t = 4·i + k` of the second call holds rows `1024·i … 1024·i + 1023` and columns `4096·k … 4096·k + 4095` of
the adjacency matrix and rows `4096·k … 4096·k + 4095` of the 16384 × 32 feature matrix. The accumulator restarts at
`k = 0` and adds one partial product per point, so after the last K tile of row tile `i` its entry `(p, h)` is the whole
sum over the 16384 columns of row `1024·i + p` against feature `h`: four consecutive tiles of 4096 regrouped into one range. -/

section AnyValues

variable {F : FTy → Type} [FloatOps F]
variable (V : (c : Dev nD) → (b : Ref sig .tc) → Buf (Elt F) ((c : Thread nD τ).loc b))

/-- The four index maps over the grid: the adjacency block sits at (row tile, K tile), the feature block at
    (K tile, 0), the weight column is one block, the output block sits at (row tile, 0). -/
theorem idx1_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0 :=
  (by decide +kernel : ∀ t : Fin grid1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0)

/-- The adjacency block of point `t`, entry `y`, is the matrix at row `1024·(t / 4) + y₀`, column `4096·(t % 4) + y₁`. -/
theorem adj_blk1 (c : Dev nD) (t : Fin cfg1.N) (y : S1024x4096.Idx) (k : S16384x16384.Idx)
    (hk0 : (k 0).val = 1024 * (t.val / 4) + (y 0).val) (hk1 : (k 1).val = 4096 * (t.val % 4) + (y 1).val) :
    (iblk1 V c 0 t : Vec F S1024x4096 .bf16) y = (V c main_v1_1 : S16384x16384.Idx → Elt F .bf16) k := by
  obtain ⟨e0, e1, -⟩ := idx1_facts t
  unfold iblk1
  rw [View.read_apply]
  show V c main_v1_1 _ = V c main_v1_1 _
  refine congrArg _ (funext fun a => Fin.ext ?_)
  match a with
  | ⟨0, _⟩ => show win1_0.index t (0 : Fin 2) * 1024 + 1 * (y 0).val = (k 0).val; omega
  | ⟨1, _⟩ => show win1_0.index t (1 : Fin 2) * 4096 + 1 * (y 1).val = (k 1).val; omega

/-- The feature block of point `t`, entry `y`, is the feature matrix at row `4096·(t % 4) + y₀`, column `y₁`. -/
theorem feat_blk1 (c : Dev nD) (t : Fin cfg1.N) (y : S4096x32.Idx) (k : S16384x32.Idx)
    (hk0 : (k 0).val = 4096 * (t.val % 4) + (y 0).val) (hk1 : (k 1).val = (y 1).val) :
    (iblk1 V c 1 t : Vec F S4096x32 .f32) y = (V c main_v1_0 : S16384x32.Idx → Elt F .f32) k := by
  obtain ⟨-, -, e0, e1, -⟩ := idx1_facts t
  unfold iblk1
  rw [View.read_apply]
  show V c main_v1_0 _ = V c main_v1_0 _
  refine congrArg _ (funext fun a => Fin.ext ?_)
  match a with
  | ⟨0, _⟩ => show win1_1.index t (0 : Fin 2) * 4096 + 1 * (y 0).val = (k 0).val; omega
  | ⟨1, _⟩ => show win1_1.index t (1 : Fin 2) * 32 + 1 * (y 1).val = (k 1).val; omega

/-- The weight block of every point is the whole weight column. -/
theorem wgt_blk1 (c : Dev nD) (t : Fin cfg1.N) (y : S32x1.Idx) :
    (iblk1 V c 2 t : Vec F S32x1 .f32) y = (V c main_arg4 : S32x1.Idx → Elt F .f32) y := by
  obtain ⟨-, -, -, -, e0, e1, -⟩ := idx1_facts t
  unfold iblk1
  rw [View.read_apply]
  show V c main_arg4 _ = V c main_arg4 _
  refine congrArg _ (funext fun a => Fin.ext ?_)
  match a with
  | ⟨0, _⟩ => show win1_2.index t (0 : Fin 2) * 32 + 1 * (y 0).val = (y 0).val; omega
  | ⟨1, _⟩ => show win1_2.index t (1 : Fin 2) * 1 + 1 * (y 1).val = (y 1).val; omega

/-- At the first K tile of a row tile the accumulator is this point's partial product added to zero. -/
theorem acc1_reset (c : Dev nD) (n : ℕ) (h : n < cfg1.N) (hn : n % 4 = 0) :
    acc1 V c n h = k1_pay2 (iblk1 V c 0 ⟨n, h⟩) (iblk1 V c 1 ⟨n, h⟩) k1_pay1 := by
  cases n with
  | zero => rfl
  | succ m => rw [acc1, if_pos hn]

/-- At every other K tile it is this point's partial product added to what the point before left. -/
theorem acc1_step (c : Dev nD) (n : ℕ) (h : n + 1 < cfg1.N) (hn : ¬(n + 1) % 4 = 0) :
    acc1 V c (n + 1) h
      = k1_pay2 (iblk1 V c 0 ⟨n + 1, h⟩) (iblk1 V c 1 ⟨n + 1, h⟩) (acc1 V c n (Nat.lt_of_succ_lt h)) := by
  rw [acc1, if_neg hn]

end AnyValues

section AtIdeal

/-- Row `p` of a 1024 × 4096 block against column `q` of a 4096 × 32 block. -/
def tileDot1 (a : Vec Ideal S1024x4096 .bf16) (x : Vec Ideal S4096x32 .f32) (p : Fin 1024) (q : Fin 32) : EReal :=
  ∑ j : Fin 4096, a (ix2 p j) * x (ix2 j q)

/-- Row `r` of the matrix against feature `q`, over the columns of K tile `k` only. -/
def rowTile32 (A : Cert.Spec.Mat 16384 16384) (X : Cert.Spec.Mat 16384 32) (r : Fin 16384) (k : Fin 4) (q : Fin 32) : EReal :=
  ∑ j : Fin 4096, A (ix2 r ⟨k.val * 4096 + j.val, Cert.BlockSum.tile_lt k j⟩)
    * X (ix2 ⟨k.val * 4096 + j.val, Cert.BlockSum.tile_lt k j⟩ q)

/-- The four K tiles of a row make up the row. -/
theorem agg32_tiles (A : Cert.Spec.Mat 16384 16384) (X : Cert.Spec.Mat 16384 32) (r : Fin 16384) (q : Fin 32)
    (g : ℕ → EReal) (hg : ∀ kb : Fin 4, g kb.val = rowTile32 A X r kb q) :
    ∑ s ∈ Finset.range 4, g s = Cert.Spec.agg32 A X r q := by
  unfold Cert.Spec.agg32
  exact Cert.BlockSum.sum_tiles_range 4 4096 (by norm_num) (fun j => A (ix2 r j) * X (ix2 j q)) g hg

variable (V : (c : Dev nD) → (b : Ref sig .tc) → Buf (Elt Ideal) ((c : Thread nD τ).loc b))

/-- Point `n`'s partial product at entry `(p, q)`: its adjacency block's row `p` times its feature block's column `q`
    (zero past the grid, where it is never read). -/
def part1 (c : Dev nD) (n : ℕ) (p : Fin 1024) (q : Fin 32) : EReal :=
  if h : n < cfg1.N then tileDot1 (iblk1 V c 0 ⟨n, h⟩) (iblk1 V c 1 ⟨n, h⟩) p q else 0

/-- The running sum after point `t`: the partial products of the points of `t`'s row tile up to `t`. -/
theorem acc1_eq_sum (c : Dev nD) (t : ℕ) (ht : t < cfg1.N) (p : Fin 1024) (q : Fin 32) :
    acc1 V c t ht (ix2 p q) = ∑ s ∈ Finset.range (t % 4 + 1), part1 V c (4 * (t / 4) + s) p q := by
  have h' : 4 * (t / 4) + t % 4 < cfg1.N := by rw [Nat.div_add_mod]; exact ht
  refine (congrFun (Pipeline.eq_accAt_of_mod (acc1 V c) 4
    (fun n h => k1_pay2 (iblk1 V c 0 ⟨n, h⟩) (iblk1 V c 1 ⟨n, h⟩) (k1_pay1 (F := Ideal)))
    (fun n h s => k1_pay2 (iblk1 V c 0 ⟨n, h⟩) (iblk1 V c 1 ⟨n, h⟩) s)
    (acc1_reset V c) (acc1_step V c) (by norm_num) t ht h') (ix2 p q)).trans ?_
  refine (Pipeline.accAt_add_apply
    (fun n h => k1_pay2 (iblk1 V c 0 ⟨n, h⟩) (iblk1 V c 1 ⟨n, h⟩) (k1_pay1 (F := Ideal)))
    (fun n h s => k1_pay2 (iblk1 V c 0 ⟨n, h⟩) (iblk1 V c 1 ⟨n, h⟩) s)
    (fun _ => (0 : EReal)) (fun n i => part1 V c n (i 0) (i 1)) (4 * (t / 4)) 3 ?_ ?_ (t % 4) (by omega) h' (ix2 p q)).trans ?_
  · intro h i
    obtain ⟨p', q', rfl⟩ : ∃ (p' : Fin 1024) (q' : Fin 32), i = ix2 p' q' := ⟨i 0, i 1, eq_ix2 i⟩
    refine (pay1_step_apply (iblk1 V c 0 ⟨_, h⟩) (iblk1 V c 1 ⟨_, h⟩) (k1_pay1 (F := Ideal)) p' q').trans ?_
    rw [pay1_zero_apply]
    show (0 : EReal) + _ = 0 + part1 V c (4 * (t / 4)) p' q'
    rw [part1, dif_pos h]
    rfl
  · intro n h acc i _ _
    obtain ⟨p', q', rfl⟩ : ∃ (p' : Fin 1024) (q' : Fin 32), i = ix2 p' q' := ⟨i 0, i 1, eq_ix2 i⟩
    refine (pay1_step_apply (iblk1 V c 0 ⟨_, h⟩) (iblk1 V c 1 ⟨_, h⟩) acc p' q').trans ?_
    show acc (ix2 p' q') + _ = acc (ix2 p' q') + part1 V c n p' q'
    rw [part1, dif_pos h]
    rfl
  · exact zero_add _

/-- One tile's partial product, read off the arrays: point `4·i + k` at entry `(p, q)` is the sum over the columns
    `4096·k … 4096·k + 4095` of row `r = 1024·i + p` of the adjacency matrix against feature `q`. -/
theorem part1_eq (c : Dev nD) (i : ℕ) (hi : i < 16) (k : Fin 4) (p : Fin 1024) (q : Fin 32) (r : Fin 16384)
    (hr : r.val = 1024 * i + p.val) :
    part1 V c (4 * i + k.val) p q = rowTile32 (V c main_v1_1) (V c main_v1_0) r k q := by
  have hN : cfg1.N = 64 := N_1
  have hk := k.isLt
  have h : 4 * i + k.val < cfg1.N := by rw [hN]; omega
  rw [part1, dif_pos h]
  unfold tileDot1 rowTile32
  refine Finset.sum_congr rfl fun j _ => ?_
  have hj := j.isLt
  have hp := p.isLt
  rw [adj_blk1 V c ⟨4 * i + k.val, h⟩ (ix2 p j) (ix2 r ⟨k.val * 4096 + j.val, Cert.BlockSum.tile_lt k j⟩)
      (by show r.val = 1024 * ((4 * i + k.val) / 4) + p.val; omega)
      (by show k.val * 4096 + j.val = 4096 * ((4 * i + k.val) % 4) + j.val; omega),
    feat_blk1 V c ⟨4 * i + k.val, h⟩ (ix2 j q) (ix2 ⟨k.val * 4096 + j.val, Cert.BlockSum.tile_lt k j⟩ q)
      (by show k.val * 4096 + j.val = 4096 * ((4 * i + k.val) % 4) + j.val; omega)
      (by rfl)]

/-- After the last K tile of a row tile the accumulator's entry `(p, q)` is the whole row `r = 1024·(t / 4) + p` of the
    adjacency matrix against feature `q`: the four tiles of 4096 columns make up the 16384. -/
theorem acc1_last (c : Dev nD) (t : Fin cfg1.N) (ht : t.val % 4 = 3) (p : Fin 1024) (q : Fin 32) (r : Fin 16384)
    (hr : r.val = 1024 * (t.val / 4) + p.val) :
    acc1 V c t.val t.isLt (ix2 p q) = Cert.Spec.agg32 (V c main_v1_1) (V c main_v1_0) r q := by
  have hN : cfg1.N = 64 := N_1
  have htl : t.val < 64 := hN ▸ t.isLt
  have h4 : t.val % 4 + 1 = 4 := by omega
  rw [acc1_eq_sum, h4]
  exact agg32_tiles (V c main_v1_1) (V c main_v1_0) r q (fun s => part1 V c (4 * (t.val / 4) + s) p q)
    (fun kb => part1_eq V c (t.val / 4) (by omega) kb p q r hr)

end AtIdeal

end Cert.KernelIdeal.Hand

end
-- ==== Proof.IdealSide.Value1Arr.lean ====
import proofs.«131155_j73212012528270_2_alg».proof.Proof.IdealSide.Dats
import proofs.«131155_j73212012528270_2_alg».proof.Proof.Spec
import proofs.«131155_j73212012528270_2_alg».proof.Proof.IdealSide.Value1Sum
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # The second call's output array is `relu (adj · x₁) · W₂`

The output block of row tile `i` is written back once, after the last K tile: the finished running sums of its 1024
rows, clamped at zero from below, against the weight column; the sixteen blocks of 1024 rows tile the 16384 × 1 array. -/

section AtIdeal

variable (V : (c : Dev nD) → (b : Ref sig .tc) → Buf (Elt Ideal) ((c : Thread nD τ).loc b))

/-- The entry `y` of the block written back at point `t` (a last K tile) is the specification's entry at row
    `1024·(t / 4) + y₀`. -/
theorem out1_apply (c : Dev nD) (t : Fin cfg1.N) (ht : t.val % 4 = 3) (y : S1024x1.Idx) (i : S16384x1.Idx)
    (hi0 : (i 0).val = 1024 * (t.val / 4) + (y 0).val) (hi1 : (i 1).val = (y 1).val) :
    k1_pay3 (acc1 V c t.val t.isLt) (iblk1 V c 2 t) y
      = Cert.Spec.layer2 (V c main_v1_1) (V c main_v1_0) (V c main_arg4) i := by
  obtain ⟨p, q, rfl⟩ : ∃ (p : Fin 1024) (q : Fin 1), y = ix2 p q := ⟨y 0, y 1, eq_ix2 y⟩
  refine (pay1_out_apply (acc1 V c t.val t.isLt) (iblk1 V c 2 t) p q).trans ?_
  simp only [Cert.Spec.layer2]
  refine Finset.sum_congr rfl fun h _ => ?_
  rw [acc1_last V c t ht p h (i 0) hi0, wgt_blk1 V c t (ix2 h q), Subsingleton.elim q (i 1)]

/-- What a flushing point writes back is its block of the specification's array. -/
theorem flushed1_eq (c : Dev nD) (t : Fin cfg1.N) (hf : (cfg1.win 3).flush t = true) :
    (dat1 V c).flushed 3 t
      = ((cfg1.win 3).blk t).view.read (Elt Ideal)
          (Cert.Spec.layer2 (V c main_v1_1) (V c main_v1_0) (V c main_arg4)) := by
  have ht : t.val % 4 = 3 := (flush1_3 t).mp hf
  obtain ⟨-, -, -, -, -, -, e0, e1⟩ := idx1_facts t
  have hG := out1_apply V c t ht
  generalize Cert.Spec.layer2 (V c main_v1_1) (V c main_v1_0) (V c main_arg4) = G at hG ⊢
  show (cfg1.win 3).cut (grid1.coords t) ((dat1 V c).after 3 t) = _
  dsimp only [dat1]
  funext y
  show k1_pay3 (acc1 V c t.val t.isLt) (iblk1 V c 2 t) ((cfg1.win 3).xinj (grid1.coords t) y)
    = G (((cfg1.win 3).blk t).view.emb y)
  refine hG ((cfg1.win 3).xinj (grid1.coords t) y) (((cfg1.win 3).blk t).view.emb y) ?_ ?_
  · show win1_3.index t (0 : Fin 2) * 1024 + 1 * (y 0).val = 1024 * (t.val / 4) + (y 0).val
    omega
  · show win1_3.index t (1 : Fin 2) * 1 + 1 * (y 1).val = (y 1).val
    omega

/-- An index of the output array lies in point `t`'s block iff each coordinate lies in the block's range. -/
theorem mem_blk1 (t : Fin cfg1.N) (i : S16384x1.Idx) :
    i ∈ ((cfg1.win 3).blk t).view.set
      ↔ ∀ a : Fin 2, win1_3.index t a * S1024x1.size a ≤ (i a).val
          ∧ (i a).val < win1_3.index t a * S1024x1.size a + S1024x1.size a := by
  show i ∈ ((View.whole main_v2).slice (win1_3.rect t)).set ↔ _
  rw [View.set_slice_whole, Rect.mem_set_unit]
  exact Iff.rfl

/-- Row `r` is written back by the last K tile of row tile `r / 1024`. -/
theorem cover1 (i : S16384x1.Idx) :
    ∃ t : Fin cfg1.N, (cfg1.win 3).flush t = true ∧ i ∈ ((cfg1.win 3).blk t).view.set := by
  have hN : cfg1.N = 64 := N_1
  have h0 : (i 0).val < 16384 := (i 0).isLt
  have h1 : (i 1).val < 1 := (i 1).isLt
  let t : Fin cfg1.N := ⟨4 * ((i 0).val / 1024) + 3, by rw [hN]; omega⟩
  have htv : t.val = 4 * ((i 0).val / 1024) + 3 := rfl
  obtain ⟨-, -, -, -, -, -, e0, e1⟩ := idx1_facts t
  refine ⟨t, (flush1_3 t).mpr (by rw [htv]; omega), ?_⟩
  rw [mem_blk1]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 1 ≤ (i 1).val ∧ (i 1).val < win1_3.index t (1 : Fin 2) * 1 + 1
    omega

/-- The output array after the second call is `relu (adj · x₁) · W₂` of the arrays the call finds. -/
theorem final1 (c : Dev nD) :
    (dat1 (F := Ideal) V c).arrAt 3 cfg1.N
      = Cert.Spec.layer2 (V c main_v1_1) (V c main_v1_0) (V c main_arg4) :=
  (dat1 V c).arrAt_eq_of_cover 3 (Cert.Spec.layer2 (V c main_v1_1) (V c main_v1_0) (V c main_arg4))
    (fun t hf => flushed1_eq V c t hf) (cover1)

end AtIdeal

end Cert.KernelIdeal.Hand

end
-- ==== Proof.IdealSide.Value2Pay.lean ====
import proofs.«131155_j73212012528270_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-! # The third call's arithmetic, entry by entry

One grid point of the third call multiplies a 1024 × 4096 block of the adjacency matrix by a 4096 × 1 block of the
feature column and adds the product to the running sum; the epilogue applies the logistic function. On the extended
reals the casts are identities and the product into a zero accumulator is the plain sum over the 4096 columns. -/

/-! ## The contraction's operand indices -/

theorem mm2_lhs0 (i : S1024x1.Idx) (q : dot_S1024x4096_S4096x1_S1024x1_1_0_0_1_n_n.contr.Idx) :
    (dot_S1024x4096_S4096x1_S1024x1_1_0_0_1_n_n.lhsIdx i q 0).val = (i 0).val := by
  unfold DotDims.lhsIdx
  rw [dif_neg (show ¬(0 : Fin S1024x4096.rank) ∈ dot_S1024x4096_S4096x1_S1024x1_1_0_0_1_n_n.lhsBatch by decide), dif_pos (show (0 : Fin S1024x4096.rank) ∈ dot_S1024x4096_S4096x1_S1024x1_1_0_0_1_n_n.lhsNonContracting by decide)]
  rfl
theorem mm2_lhs1 (i : S1024x1.Idx) (q : dot_S1024x4096_S4096x1_S1024x1_1_0_0_1_n_n.contr.Idx) :
    (dot_S1024x4096_S4096x1_S1024x1_1_0_0_1_n_n.lhsIdx i q 1).val = (q ⟨0, by decide⟩).val :=
  dot_S1024x4096_S4096x1_S1024x1_1_0_0_1_n_n.lhsIdx_val_of_single rfl i q
theorem mm2_rhs0 (i : S1024x1.Idx) (q : dot_S1024x4096_S4096x1_S1024x1_1_0_0_1_n_n.contr.Idx) :
    (dot_S1024x4096_S4096x1_S1024x1_1_0_0_1_n_n.rhsIdx i q 0).val = (q ⟨0, by decide⟩).val :=
  dot_S1024x4096_S4096x1_S1024x1_1_0_0_1_n_n.rhsIdx_val_of_single rfl i q
theorem mm2_rhs1 (i : S1024x1.Idx) (q : dot_S1024x4096_S4096x1_S1024x1_1_0_0_1_n_n.contr.Idx) :
    (dot_S1024x4096_S4096x1_S1024x1_1_0_0_1_n_n.rhsIdx i q 1).val = (i 1).val := by
  unfold DotDims.rhsIdx
  rw [dif_neg (show ¬(1 : Fin S4096x1.rank) ∈ dot_S1024x4096_S4096x1_S1024x1_1_0_0_1_n_n.rhsBatch by decide), dif_pos (show (1 : Fin S4096x1.rank) ∈ dot_S1024x4096_S4096x1_S1024x1_1_0_0_1_n_n.rhsNonContracting by decide)]
  rfl

/-- Entry `(p, q)` of a 1024 × 4096 block times a 4096 × 1 block, accumulated from zero: the sum over the block's 4096 columns. -/
theorem mm2_apply (a : FVec Ideal S1024x4096 .bf16) (x : FVec Ideal S4096x1 .bf16) (p : Fin 1024) (q : Fin 1) :
    matmul dot_S1024x4096_S4096x1_S1024x1_1_0_0_1_n_n none a x (constant (F := Ideal) S1024x1 .f32 0x00000000#32) (ix2 p q)
      = ∑ j : Fin 4096, a (ix2 p j) * x (ix2 j q) := by
  refine (Ideal.matmul_constant_zero_apply dot_S1024x4096_S4096x1_S1024x1_1_0_0_1_n_n none a x (ix2 p q)).trans ?_
  rw [← Equiv.sum_comp (ValueIdx.contrEquiv1 dot_S1024x4096_S4096x1_S1024x1_1_0_0_1_n_n 4096 rfl rfl).symm]
  refine Finset.sum_congr rfl fun k _ => ?_
  have hk := ValueIdx.contrEquiv1_symm_val dot_S1024x4096_S4096x1_S1024x1_1_0_0_1_n_n 4096 rfl rfl k
  have el : dot_S1024x4096_S4096x1_S1024x1_1_0_0_1_n_n.lhsIdx (ix2 p q) ((ValueIdx.contrEquiv1 dot_S1024x4096_S4096x1_S1024x1_1_0_0_1_n_n 4096 rfl rfl).symm k) = ix2 p k := funext fun a => Fin.ext (by
    match a with
    | ⟨0, _⟩ => exact mm2_lhs0 _ _
    | ⟨1, _⟩ => exact (mm2_lhs1 _ _).trans hk)
  have er : dot_S1024x4096_S4096x1_S1024x1_1_0_0_1_n_n.rhsIdx (ix2 p q) ((ValueIdx.contrEquiv1 dot_S1024x4096_S4096x1_S1024x1_1_0_0_1_n_n 4096 rfl rfl).symm k) = ix2 k q := funext fun a => Fin.ext (by
    match a with
    | ⟨0, _⟩ => exact (mm2_rhs0 _ _).trans hk
    | ⟨1, _⟩ => exact mm2_rhs1 _ _)
  rw [el, er]

/-! ## The three payloads at an entry -/

/-- The accumulator's restart value is zero everywhere. -/
theorem pay2_zero_apply (i : S1024x1.Idx) : k2_pay1 (F := Ideal) i = 0 := by
  unfold k2_pay1
  simp only [shapeCast_self]
  exact Ideal.ofBits_zero_f32

/-- One accumulation step at entry `(p, q)`: the sum so far plus this block's partial product. -/
theorem pay2_step_apply (a : Vec Ideal S1024x4096 .bf16) (x : Vec Ideal S4096x1 .f32) (s : Vec Ideal S1024x1 .f32)
    (p : Fin 1024) (q : Fin 1) :
    k2_pay2 (F := Ideal) a x s (ix2 p q) = s (ix2 p q) + ∑ j : Fin 4096, a (ix2 p j) * x (ix2 j q) := by
  unfold k2_pay2
  simp only [shapeCast_self]
  refine congrArg (s (ix2 p q) + ·) ?_
  exact mm2_apply a (truncf .bf16 x bitsLt_bf16_f32) p q

/-- The epilogue applies the logistic function entry by entry. -/
theorem pay2_out_apply (s : Vec Ideal S1024x1 .f32) (i : S1024x1.Idx) :
    k2_pay3 (F := Ideal) s i = Ideal.logistic (s i) := rfl

end Cert.KernelIdeal.Hand

end
-- ==== Proof.IdealSide.Value2Sum.lean ====
import proofs.«131155_j73212012528270_2_alg».proof.Proof.IdealSide.Dats
import proofs.«131155_j73212012528270_2_alg».proof.Proof.Spec
import proofs.«131155_j73212012528270_2_alg».proof.Proof.IdealSide.BlockSum
import proofs.«131155_j73212012528270_2_alg».proof.Proof.IdealSide.Value2Pay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # The third call's running sum is the adjacency row times the feature column

Grid point `t = 4·i + k` of the third call holds rows `1024·i … 1024·i + 1023` and columns `4096·k … 4096·k + 4095` of
the adjacency matrix and rows `4096·k … 4096·k + 4095` of the feature column. The accumulator restarts at `k = 0` and
adds one partial product per point, so after the last K tile of row tile `i` its entry `p` is the whole sum over the
16384 columns of row `1024·i + p`: four consecutive tiles of 4096 regrouped into one range. -/

section AnyValues

variable {F : FTy → Type} [FloatOps F]
variable (V : (c : Dev nD) → (b : Ref sig .tc) → Buf (Elt F) ((c : Thread nD τ).loc b))

/-- The three index maps over the grid: the adjacency block sits at (row tile, K tile), the feature block at
    (K tile, 0), the output block at (row tile, 0). -/
theorem idx2_facts : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0 :=
  (by decide +kernel : ∀ t : Fin grid2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0)

/-- The adjacency block of point `t`, entry `y`, is the matrix at row `1024·(t / 4) + y₀`, column `4096·(t % 4) + y₁`. -/
theorem adj_blk2 (c : Dev nD) (t : Fin cfg2.N) (y : S1024x4096.Idx) (k : S16384x16384.Idx)
    (hk0 : (k 0).val = 1024 * (t.val / 4) + (y 0).val) (hk1 : (k 1).val = 4096 * (t.val % 4) + (y 1).val) :
    (iblk2 V c 0 t : Vec F S1024x4096 .bf16) y = (V c main_v1_1 : S16384x16384.Idx → Elt F .bf16) k := by
  obtain ⟨e0, e1, -⟩ := idx2_facts t
  unfold iblk2
  rw [View.read_apply]
  show V c main_v1_1 _ = V c main_v1_1 _
  refine congrArg _ (funext fun a => Fin.ext ?_)
  match a with
  | ⟨0, _⟩ => show win2_0.index t (0 : Fin 2) * 1024 + 1 * (y 0).val = (k 0).val; omega
  | ⟨1, _⟩ => show win2_0.index t (1 : Fin 2) * 4096 + 1 * (y 1).val = (k 1).val; omega

/-- The feature block of point `t`, entry `y`, is the column at row `4096·(t % 4) + y₀`. -/
theorem feat_blk2 (c : Dev nD) (t : Fin cfg2.N) (y : S4096x1.Idx) (k : S16384x1.Idx)
    (hk0 : (k 0).val = 4096 * (t.val % 4) + (y 0).val) (hk1 : (k 1).val = (y 1).val) :
    (iblk2 V c 1 t : Vec F S4096x1 .f32) y = (V c main_v2 : S16384x1.Idx → Elt F .f32) k := by
  obtain ⟨-, -, e0, e1, -⟩ := idx2_facts t
  unfold iblk2
  rw [View.read_apply]
  show V c main_v2 _ = V c main_v2 _
  refine congrArg _ (funext fun a => Fin.ext ?_)
  match a with
  | ⟨0, _⟩ => show win2_1.index t (0 : Fin 2) * 4096 + 1 * (y 0).val = (k 0).val; omega
  | ⟨1, _⟩ => show win2_1.index t (1 : Fin 2) * 1 + 1 * (y 1).val = (k 1).val; omega

/-- At the first K tile of a row tile the accumulator is this point's partial product added to zero. -/
theorem acc2_reset (c : Dev nD) (n : ℕ) (h : n < cfg2.N) (hn : n % 4 = 0) :
    acc2 V c n h = k2_pay2 (iblk2 V c 0 ⟨n, h⟩) (iblk2 V c 1 ⟨n, h⟩) k2_pay1 := by
  cases n with
  | zero => rfl
  | succ m => rw [acc2, if_pos hn]

/-- At every other K tile it is this point's partial product added to what the point before left. -/
theorem acc2_step (c : Dev nD) (n : ℕ) (h : n + 1 < cfg2.N) (hn : ¬(n + 1) % 4 = 0) :
    acc2 V c (n + 1) h
      = k2_pay2 (iblk2 V c 0 ⟨n + 1, h⟩) (iblk2 V c 1 ⟨n + 1, h⟩) (acc2 V c n (Nat.lt_of_succ_lt h)) := by
  rw [acc2, if_neg hn]

end AnyValues

section AtIdeal

/-- Row `p` of a 1024 × 4096 block against column `q` of a 4096 × 1 block. -/
def tileDot2 (a : Vec Ideal S1024x4096 .bf16) (x : Vec Ideal S4096x1 .f32) (p : Fin 1024) (q : Fin 1) : EReal :=
  ∑ j : Fin 4096, a (ix2 p j) * x (ix2 j q)

/-- Row `r` of the matrix against column `q` of the feature column, over the columns of K tile `k` only. -/
def rowTile1 (A : Cert.Spec.Mat 16384 16384) (X : Cert.Spec.Mat 16384 1) (r : Fin 16384) (k : Fin 4) (q : Fin 1) : EReal :=
  ∑ j : Fin 4096, A (ix2 r ⟨k.val * 4096 + j.val, Cert.BlockSum.tile_lt k j⟩)
    * X (ix2 ⟨k.val * 4096 + j.val, Cert.BlockSum.tile_lt k j⟩ q)

/-- The four K tiles of a row make up the row. -/
theorem agg1_tiles (A : Cert.Spec.Mat 16384 16384) (X : Cert.Spec.Mat 16384 1) (r : Fin 16384) (q : Fin 1)
    (g : ℕ → EReal) (hg : ∀ kb : Fin 4, g kb.val = rowTile1 A X r kb q) :
    ∑ s ∈ Finset.range 4, g s = Cert.Spec.agg1 A X r q := by
  unfold Cert.Spec.agg1
  exact Cert.BlockSum.sum_tiles_range 4 4096 (by norm_num) (fun j => A (ix2 r j) * X (ix2 j q)) g hg

variable (V : (c : Dev nD) → (b : Ref sig .tc) → Buf (Elt Ideal) ((c : Thread nD τ).loc b))

/-- Point `n`'s partial product at entry `(p, q)`: its adjacency block's row `p` times its feature block's column `q`
    (zero past the grid, where it is never read). -/
def part2 (c : Dev nD) (n : ℕ) (p : Fin 1024) (q : Fin 1) : EReal :=
  if h : n < cfg2.N then tileDot2 (iblk2 V c 0 ⟨n, h⟩) (iblk2 V c 1 ⟨n, h⟩) p q else 0

/-- The running sum after point `t`: the partial products of the points of `t`'s row tile up to `t`. -/
theorem acc2_eq_sum (c : Dev nD) (t : ℕ) (ht : t < cfg2.N) (p : Fin 1024) (q : Fin 1) :
    acc2 V c t ht (ix2 p q) = ∑ s ∈ Finset.range (t % 4 + 1), part2 V c (4 * (t / 4) + s) p q := by
  have h' : 4 * (t / 4) + t % 4 < cfg2.N := by rw [Nat.div_add_mod]; exact ht
  refine (congrFun (Pipeline.eq_accAt_of_mod (acc2 V c) 4
    (fun n h => k2_pay2 (iblk2 V c 0 ⟨n, h⟩) (iblk2 V c 1 ⟨n, h⟩) (k2_pay1 (F := Ideal)))
    (fun n h s => k2_pay2 (iblk2 V c 0 ⟨n, h⟩) (iblk2 V c 1 ⟨n, h⟩) s)
    (acc2_reset V c) (acc2_step V c) (by norm_num) t ht h') (ix2 p q)).trans ?_
  refine (Pipeline.accAt_add_apply
    (fun n h => k2_pay2 (iblk2 V c 0 ⟨n, h⟩) (iblk2 V c 1 ⟨n, h⟩) (k2_pay1 (F := Ideal)))
    (fun n h s => k2_pay2 (iblk2 V c 0 ⟨n, h⟩) (iblk2 V c 1 ⟨n, h⟩) s)
    (fun _ => (0 : EReal)) (fun n i => part2 V c n (i 0) (i 1)) (4 * (t / 4)) 3 ?_ ?_ (t % 4) (by omega) h' (ix2 p q)).trans ?_
  · intro h i
    obtain ⟨p', q', rfl⟩ : ∃ (p' : Fin 1024) (q' : Fin 1), i = ix2 p' q' := ⟨i 0, i 1, eq_ix2 i⟩
    refine (pay2_step_apply (iblk2 V c 0 ⟨_, h⟩) (iblk2 V c 1 ⟨_, h⟩) (k2_pay1 (F := Ideal)) p' q').trans ?_
    rw [pay2_zero_apply]
    show (0 : EReal) + _ = 0 + part2 V c (4 * (t / 4)) p' q'
    rw [part2, dif_pos h]
    rfl
  · intro n h acc i _ _
    obtain ⟨p', q', rfl⟩ : ∃ (p' : Fin 1024) (q' : Fin 1), i = ix2 p' q' := ⟨i 0, i 1, eq_ix2 i⟩
    refine (pay2_step_apply (iblk2 V c 0 ⟨_, h⟩) (iblk2 V c 1 ⟨_, h⟩) acc p' q').trans ?_
    show acc (ix2 p' q') + _ = acc (ix2 p' q') + part2 V c n p' q'
    rw [part2, dif_pos h]
    rfl
  · exact zero_add _

/-- One tile's partial product, read off the arrays: point `4·i + k` at entry `(p, q)` is the sum over the columns
    `4096·k … 4096·k + 4095` of row `r = 1024·i + p` of the adjacency matrix against the feature column. -/
theorem part2_eq (c : Dev nD) (i : ℕ) (hi : i < 16) (k : Fin 4) (p : Fin 1024) (q : Fin 1) (r : Fin 16384)
    (hr : r.val = 1024 * i + p.val) :
    part2 V c (4 * i + k.val) p q = rowTile1 (V c main_v1_1) (V c main_v2) r k q := by
  have hN : cfg2.N = 64 := N_2
  have hk := k.isLt
  have h : 4 * i + k.val < cfg2.N := by rw [hN]; omega
  rw [part2, dif_pos h]
  unfold tileDot2 rowTile1
  refine Finset.sum_congr rfl fun j _ => ?_
  have hj := j.isLt
  have hp := p.isLt
  rw [adj_blk2 V c ⟨4 * i + k.val, h⟩ (ix2 p j) (ix2 r ⟨k.val * 4096 + j.val, Cert.BlockSum.tile_lt k j⟩)
      (by show r.val = 1024 * ((4 * i + k.val) / 4) + p.val; omega)
      (by show k.val * 4096 + j.val = 4096 * ((4 * i + k.val) % 4) + j.val; omega),
    feat_blk2 V c ⟨4 * i + k.val, h⟩ (ix2 j q) (ix2 ⟨k.val * 4096 + j.val, Cert.BlockSum.tile_lt k j⟩ q)
      (by show k.val * 4096 + j.val = 4096 * ((4 * i + k.val) % 4) + j.val; omega)
      (by rfl)]

/-- After the last K tile of a row tile the accumulator's entry `(p, q)` is the whole row `r = 1024·(t / 4) + p` of the
    adjacency matrix against the feature column: the four tiles of 4096 columns make up the 16384. -/
theorem acc2_last (c : Dev nD) (t : Fin cfg2.N) (ht : t.val % 4 = 3) (p : Fin 1024) (q : Fin 1) (r : Fin 16384)
    (hr : r.val = 1024 * (t.val / 4) + p.val) :
    acc2 V c t.val t.isLt (ix2 p q) = Cert.Spec.agg1 (V c main_v1_1) (V c main_v2) r q := by
  have hN : cfg2.N = 64 := N_2
  have htl : t.val < 64 := hN ▸ t.isLt
  have h4 : t.val % 4 + 1 = 4 := by omega
  rw [acc2_eq_sum, h4]
  exact agg1_tiles (V c main_v1_1) (V c main_v2) r q (fun s => part2 V c (4 * (t.val / 4) + s) p q)
    (fun kb => part2_eq V c (t.val / 4) (by omega) kb p q r hr)

end AtIdeal

end Cert.KernelIdeal.Hand

end
-- ==== Proof.IdealSide.Value2Arr.lean ====
import proofs.«131155_j73212012528270_2_alg».proof.Proof.IdealSide.Dats
import proofs.«131155_j73212012528270_2_alg».proof.Proof.Spec
import proofs.«131155_j73212012528270_2_alg».proof.Proof.IdealSide.Value2Sum
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # The third call's output array is `logistic (adj · x₂)`

The output block of row tile `i` is written back once, after the last K tile, and holds the logistic function of the
finished running sum; the sixteen blocks of 1024 rows tile the 16384 × 1 array. -/

section AtIdeal

variable (V : (c : Dev nD) → (b : Ref sig .tc) → Buf (Elt Ideal) ((c : Thread nD τ).loc b))

/-- The entry `y` of the block written back at point `t` (a last K tile) is the specification's entry at row
    `1024·(t / 4) + y₀`. -/
theorem out2_apply (c : Dev nD) (t : Fin cfg2.N) (ht : t.val % 4 = 3) (y : S1024x1.Idx) (i : S16384x1.Idx)
    (hi0 : (i 0).val = 1024 * (t.val / 4) + (y 0).val) (hi1 : (i 1).val = (y 1).val) :
    k2_pay3 (acc2 V c t.val t.isLt) y = Cert.Spec.layer3 (V c main_v1_1) (V c main_v2) i := by
  obtain ⟨p, q, rfl⟩ : ∃ (p : Fin 1024) (q : Fin 1), y = ix2 p q := ⟨y 0, y 1, eq_ix2 y⟩
  refine (pay2_out_apply (acc2 V c t.val t.isLt) (ix2 p q)).trans ?_
  show Ideal.logistic _ = Ideal.logistic (Cert.Spec.agg1 (V c main_v1_1) (V c main_v2) (i 0) (i 1))
  refine congrArg Ideal.logistic ?_
  exact (acc2_last V c t ht p q (i 0) hi0).trans
    (congrArg (Cert.Spec.agg1 (V c main_v1_1) (V c main_v2) (i 0)) (Subsingleton.elim q (i 1)))

/-- What a flushing point writes back is its block of the specification's array. -/
theorem flushed2_eq (c : Dev nD) (t : Fin cfg2.N) (hf : (cfg2.win 2).flush t = true) :
    (dat2 V c).flushed 2 t
      = ((cfg2.win 2).blk t).view.read (Elt Ideal) (Cert.Spec.layer3 (V c main_v1_1) (V c main_v2)) := by
  have ht : t.val % 4 = 3 := (flush2_2 t).mp hf
  obtain ⟨-, -, -, -, e0, e1⟩ := idx2_facts t
  have hG := out2_apply V c t ht
  generalize Cert.Spec.layer3 (V c main_v1_1) (V c main_v2) = G at hG ⊢
  show (cfg2.win 2).cut (grid2.coords t) ((dat2 V c).after 2 t) = _
  dsimp only [dat2]
  funext y
  show k2_pay3 (acc2 V c t.val t.isLt) ((cfg2.win 2).xinj (grid2.coords t) y) = G (((cfg2.win 2).blk t).view.emb y)
  refine hG ((cfg2.win 2).xinj (grid2.coords t) y) (((cfg2.win 2).blk t).view.emb y) ?_ ?_
  · show win2_2.index t (0 : Fin 2) * 1024 + 1 * (y 0).val = 1024 * (t.val / 4) + (y 0).val
    omega
  · show win2_2.index t (1 : Fin 2) * 1 + 1 * (y 1).val = (y 1).val
    omega

/-- An index of the output array lies in point `t`'s block iff each coordinate lies in the block's range. -/
theorem mem_blk2 (t : Fin cfg2.N) (i : S16384x1.Idx) :
    i ∈ ((cfg2.win 2).blk t).view.set
      ↔ ∀ a : Fin 2, win2_2.index t a * S1024x1.size a ≤ (i a).val
          ∧ (i a).val < win2_2.index t a * S1024x1.size a + S1024x1.size a := by
  show i ∈ ((View.whole main_v3).slice (win2_2.rect t)).set ↔ _
  rw [View.set_slice_whole, Rect.mem_set_unit]
  exact Iff.rfl

/-- Row `r` is written back by the last K tile of row tile `r / 1024`. -/
theorem cover2 (i : S16384x1.Idx) :
    ∃ t : Fin cfg2.N, (cfg2.win 2).flush t = true ∧ i ∈ ((cfg2.win 2).blk t).view.set := by
  have hN : cfg2.N = 64 := N_2
  have h0 : (i 0).val < 16384 := (i 0).isLt
  have h1 : (i 1).val < 1 := (i 1).isLt
  let t : Fin cfg2.N := ⟨4 * ((i 0).val / 1024) + 3, by rw [hN]; omega⟩
  have htv : t.val = 4 * ((i 0).val / 1024) + 3 := rfl
  obtain ⟨-, -, -, -, e0, e1⟩ := idx2_facts t
  refine ⟨t, (flush2_2 t).mpr (by rw [htv]; omega), ?_⟩
  rw [mem_blk2]
  intro a
  match a with
  | ⟨0, _⟩ =>
    show win2_2.index t (0 : Fin 2) * 1024 ≤ (i 0).val ∧ (i 0).val < win2_2.index t (0 : Fin 2) * 1024 + 1024
    omega
  | ⟨1, _⟩ =>
    show win2_2.index t (1 : Fin 2) * 1 ≤ (i 1).val ∧ (i 1).val < win2_2.index t (1 : Fin 2) * 1 + 1
    omega

/-- The output array after the third call is `logistic (adj · x₂)` of the arrays the call finds. -/
theorem final2 (c : Dev nD) :
    (dat2 (F := Ideal) V c).arrAt 2 cfg2.N = Cert.Spec.layer3 (V c main_v1_1) (V c main_v2) :=
  (dat2 V c).arrAt_eq_of_cover 2 (Cert.Spec.layer3 (V c main_v1_1) (V c main_v2))
    (fun t hf => flushed2_eq V c t hf) (cover2)

end AtIdeal

end Cert.KernelIdeal.Hand

end
-- ==== Proof.IdealSide.KernelValue.lean ====
import proofs.«131155_j73212012528270_2_alg».proof.Proof.IdealSide.Bounds
import proofs.«131155_j73212012528270_2_alg».proof.Proof.IdealSide.Value0
import proofs.«131155_j73212012528270_2_alg».proof.Proof.IdealSide.Value0Adj
import proofs.«131155_j73212012528270_2_alg».proof.Proof.Spec
import Idealize.ShloMosaic.Lib.ValueIdx
import Idealize.ShloMosaic.PureOps.Ideal.Laws
import proofs.«131155_j73212012528270_2_alg».proof.Proof.IdealSide.Value1Arr
import proofs.«131155_j73212012528270_2_alg».proof.Proof.IdealSide.Value2Arr

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window)

/-! # The kernel's result is the network `G` of the launched arguments

The host computes `x0 = inputs · W0`; the first call leaves `x1 = relu (adj · x0) · W1` and a copy of `adj`; the second
`x2 = relu (adj · x1) · W2`; the third `logistic (adj · x2)`. No item writes an argument, and each call finds what the
one before left, so the result is the composition of the specification's layers at the launched arguments. Only
equations between the named arrays are composed here; no array is opened. -/

/-! ## The host product `inputs · W0`: the contracted axis has one entry -/

theorem hostdot_lhs_0 (i : S16384x32.Idx) (q : dot_S16384x1_S1x32_S16384x32_1_0_0_1_n_n.contr.Idx) :
    (dot_S16384x1_S1x32_S16384x32_1_0_0_1_n_n.lhsIdx i q 0).val = (i 0).val := by
  unfold DotDims.lhsIdx
  rw [dif_neg (show ¬(0 : Fin S16384x1.rank) ∈ dot_S16384x1_S1x32_S16384x32_1_0_0_1_n_n.lhsBatch by decide), dif_pos (show (0 : Fin S16384x1.rank) ∈ dot_S16384x1_S1x32_S16384x32_1_0_0_1_n_n.lhsNonContracting by decide)]
  rfl
theorem hostdot_lhs_1 (i : S16384x32.Idx) (q : dot_S16384x1_S1x32_S16384x32_1_0_0_1_n_n.contr.Idx) :
    (dot_S16384x1_S1x32_S16384x32_1_0_0_1_n_n.lhsIdx i q 1).val = (q ⟨0, by decide⟩).val :=
  dot_S16384x1_S1x32_S16384x32_1_0_0_1_n_n.lhsIdx_val_of_single rfl i q
theorem hostdot_rhs_0 (i : S16384x32.Idx) (q : dot_S16384x1_S1x32_S16384x32_1_0_0_1_n_n.contr.Idx) :
    (dot_S16384x1_S1x32_S16384x32_1_0_0_1_n_n.rhsIdx i q 0).val = (q ⟨0, by decide⟩).val :=
  dot_S16384x1_S1x32_S16384x32_1_0_0_1_n_n.rhsIdx_val_of_single rfl i q
theorem hostdot_rhs_1 (i : S16384x32.Idx) (q : dot_S16384x1_S1x32_S16384x32_1_0_0_1_n_n.contr.Idx) :
    (dot_S16384x1_S1x32_S16384x32_1_0_0_1_n_n.rhsIdx i q 1).val = (i 1).val := by
  unfold DotDims.rhsIdx
  rw [dif_neg (show ¬(1 : Fin S1x32.rank) ∈ dot_S16384x1_S1x32_S16384x32_1_0_0_1_n_n.rhsBatch by decide), dif_pos (show (1 : Fin S1x32.rank) ∈ dot_S16384x1_S1x32_S16384x32_1_0_0_1_n_n.rhsNonContracting by decide)]
  rfl

/-- The host's product of the inputs with the first weights is the specification's `feat`. -/
theorem host_product_eq (x0 : FVec Ideal S16384x1 .f32) (x2 : FVec Ideal S1x32 .f32) :
    Host.dotGeneral (F := Ideal) dot_S16384x1_S1x32_S16384x32_1_0_0_1_n_n none x0 x2 = Cert.Spec.feat x0 x2 := by
  funext i
  obtain ⟨a, b, rfl⟩ : ∃ (a : Fin 16384) (b : Fin 32), i = ix2 a b := ⟨i 0, i 1, eq_ix2 i⟩
  simp only [Host.dotGeneral]
  rw [Ideal.dotGeneral_apply, ← Equiv.sum_comp (ValueIdx.contrEquiv1 dot_S16384x1_S1x32_S16384x32_1_0_0_1_n_n 1 rfl rfl).symm]
  show _ = ∑ k : Fin 1, x0 (ix2 a k) * x2 (ix2 k b)
  refine Finset.sum_congr rfl fun k _ => ?_
  have hk := ValueIdx.contrEquiv1_symm_val dot_S16384x1_S1x32_S16384x32_1_0_0_1_n_n 1 rfl rfl k
  have el : dot_S16384x1_S1x32_S16384x32_1_0_0_1_n_n.lhsIdx (ix2 a b) ((ValueIdx.contrEquiv1 dot_S16384x1_S1x32_S16384x32_1_0_0_1_n_n 1 rfl rfl).symm k) = ix2 a k := funext fun d => Fin.ext (by
    match d with
    | ⟨0, _⟩ => exact hostdot_lhs_0 _ _
    | ⟨1, _⟩ => exact (hostdot_lhs_1 _ _).trans hk)
  have er : dot_S16384x1_S1x32_S16384x32_1_0_0_1_n_n.rhsIdx (ix2 a b) ((ValueIdx.contrEquiv1 dot_S16384x1_S1x32_S16384x32_1_0_0_1_n_n 1 rfl rfl).symm k) = ix2 k b := funext fun d => Fin.ext (by
    match d with
    | ⟨0, _⟩ => exact (hostdot_rhs_0 _ _).trans hk
    | ⟨1, _⟩ => exact hostdot_rhs_1 _ _)
  rw [el, er]

/-! ## A layer of equal arrays is the same layer -/

theorem layer1_congr {A A' : Cert.Spec.Mat 16384 16384} {X X' : Cert.Spec.Mat 16384 32} {W W' : Cert.Spec.Mat 32 32}
    (hA : A = A') (hX : X = X') (hW : W = W') : Cert.Spec.layer1 A X W = Cert.Spec.layer1 A' X' W' := by
  subst hA hX hW; rfl
theorem layer2_congr {A A' : Cert.Spec.Mat 16384 16384} {X X' : Cert.Spec.Mat 16384 32} {W W' : Cert.Spec.Mat 32 1}
    (hA : A = A') (hX : X = X') (hW : W = W') : Cert.Spec.layer2 A X W = Cert.Spec.layer2 A' X' W' := by
  subst hA hX hW; rfl
theorem layer3_congr {A A' : Cert.Spec.Mat 16384 16384} {X X' : Cert.Spec.Mat 16384 1}
    (hA : A = A') (hX : X = X') : Cert.Spec.layer3 A X = Cert.Spec.layer3 A' X' := by
  subst hA hX; rfl

/-! ## The composition -/

/-- The result of the three calls, given what the second and the third call leave at any entry contents:
    each call's arrays are walked back to the launched arguments, layer by layer. -/
theorem result_is_G_of (m : (ℓ : Loc nD τ sig) → Buf (Elt Ideal) ℓ) (ρ : Dev nD → PrngReg) (c : Dev nD)
    (second : ∀ (V : (c : Dev nD) → (b : Ref sig .tc) → Buf (Elt Ideal) ((c : Thread nD τ).loc b)) (c : Dev nD),
      (dat1 (F := Ideal) V c).arrAt 3 cfg1.N = Cert.Spec.layer2 (V c main_v1_1) (V c main_v1_0) (V c main_arg4))
    (third : ∀ (V : (c : Dev nD) → (b : Ref sig .tc) → Buf (Elt Ideal) ((c : Thread nD τ).loc b)) (c : Dev nD),
      (dat2 (F := Ideal) V c).arrAt 2 cfg2.N = Cert.Spec.layer3 (V c main_v1_1) (V c main_v2)) :
    (V4 m ρ c main_v3 : S16384x1.Idx → EReal)
      = Cert.Spec.G (m ((c : Thread nD τ).loc main_arg0)) (m ((c : Thread nD τ).loc main_arg1))
          (m ((c : Thread nD τ).loc main_arg2)) (m ((c : Thread nD τ).loc main_arg3)) (m ((c : Thread nD τ).loc main_arg4)) := by
  -- what the first call finds
  have eA1 : (V1 m ρ c main_arg1 : Cert.Spec.Mat 16384 16384) = m ((c : Thread nD τ).loc main_arg1) := V1_main_arg1 m ρ c
  have eW1 : (V1 m ρ c main_arg3 : Cert.Spec.Mat 32 32) = m ((c : Thread nD τ).loc main_arg3) := V1_main_arg3 m ρ c
  have eX0 : (V1 m ρ c main_v0 : Cert.Spec.Mat 16384 32)
      = Cert.Spec.feat (m ((c : Thread nD τ).loc main_arg0)) (m ((c : Thread nD τ).loc main_arg2)) :=
    (V1_main_v0 m ρ c).trans (host_product_eq _ _)
  -- what it leaves, which the second call finds
  have eX1 : (V2 m ρ c main_v1_0 : Cert.Spec.Mat 16384 32)
      = Cert.Spec.layer1 (m ((c : Thread nD τ).loc main_arg1))
          (Cert.Spec.feat (m ((c : Thread nD τ).loc main_arg0)) (m ((c : Thread nD τ).loc main_arg2)))
          (m ((c : Thread nD τ).loc main_arg3)) :=
    ((V2_main_v1_0 m ρ c).trans (final0_x (V1 m ρ) c)).trans (layer1_congr eA1 eX0 eW1)
  have eA2 : (V2 m ρ c main_v1_1 : Cert.Spec.Mat 16384 16384) = m ((c : Thread nD τ).loc main_arg1) :=
    ((V2_main_v1_1 m ρ c).trans (final0_adj (V1 m ρ) c)).trans eA1
  have eW2 : (V2 m ρ c main_arg4 : Cert.Spec.Mat 32 1) = m ((c : Thread nD τ).loc main_arg4) := V2_main_arg4 m ρ c
  -- what the second call leaves, which the third finds
  have eX2 : (V3 m ρ c main_v2 : Cert.Spec.Mat 16384 1)
      = Cert.Spec.layer2 (m ((c : Thread nD τ).loc main_arg1))
          (Cert.Spec.layer1 (m ((c : Thread nD τ).loc main_arg1))
            (Cert.Spec.feat (m ((c : Thread nD τ).loc main_arg0)) (m ((c : Thread nD τ).loc main_arg2)))
            (m ((c : Thread nD τ).loc main_arg3)))
          (m ((c : Thread nD τ).loc main_arg4)) :=
    ((V3_main_v2 m ρ c).trans (second (V2 m ρ) c)).trans (layer2_congr eA2 eX1 eW2)
  have eA3 : (V3 m ρ c main_v1_1 : Cert.Spec.Mat 16384 16384) = m ((c : Thread nD τ).loc main_arg1) :=
    (V3_main_v1_1 m ρ c).trans eA2
  -- the result
  exact ((V4_main_v3 m ρ c).trans (third (V3 m ρ) c)).trans (layer3_congr eA3 eX2)

/-- The kernel's result array is the network `G` of the launched arguments. -/
theorem result_is_G (m : (ℓ : Loc nD τ sig) → Buf (Elt Ideal) ℓ) (ρ : Dev nD → PrngReg) (c : Dev nD) :
    (V4 m ρ c main_v3 : S16384x1.Idx → EReal)
      = Cert.Spec.G (m ((c : Thread nD τ).loc main_arg0)) (m ((c : Thread nD τ).loc main_arg1))
          (m ((c : Thread nD τ).loc main_arg2)) (m ((c : Thread nD τ).loc main_arg3)) (m ((c : Thread nD τ).loc main_arg4)) :=
  result_is_G_of m ρ c final1 final2

end Cert.KernelIdeal.Hand

end
-- ==== Proof.IdealSide.RefValue.lean ====
import proofs.«131155_j73212012528270_2_alg».proof.Proof.Spec
import proofs.«131155_j73212012528270_2_alg».proof.Proof.Gen.ReferenceIdeal.Read
import Idealize.ShloMosaic.Lib.IdealHost

/-! # The reference program computes the network `G`

The reference is a chain of matrix products, two rectifiers and a logistic function. Each product, read at an index,
is the sum over the contracted coordinate; each rectifier is the maximum with the constant zero; the tail
`1 / (1 + e^(-v))` with both constants equal to one is the logistic function by its definition. The stages are
identified with the specification's `feat`, `agg32`, `layer1`, `layer2`, `agg1`, `layer3` one after the other:
no algebraic law is used, only the reading of each operation at an index. -/

noncomputable section

namespace Cert.ReferenceIdeal.RefValue

open Cert.ReferenceIdeal Cert.ReferenceIdeal.Gen Cert.ReferenceIdeal.Read Idealize.ShloMosaic Idealize.ShloMosaic.ValueIdx Cert.Spec

/-! ## The operand indices of each product, by coordinates

At the result index `(a, b)` and the contracted coordinate `k` the left operand is read at `(a, k)` and the right
operand at `(k, b)`. -/

theorem lidx0 (a : Fin 16384) (b : Fin 32) (k : Fin 1) : lidx_main_v0 (ix2 a b) k = ix2 a k :=
  funext fun d => Fin.ext (by match d with | ⟨0, _⟩ => rfl | ⟨1, _⟩ => rfl)
theorem ridx0 (a : Fin 16384) (b : Fin 32) (k : Fin 1) : ridx_main_v0 (ix2 a b) k = ix2 k b :=
  funext fun d => Fin.ext (by match d with | ⟨0, _⟩ => rfl | ⟨1, _⟩ => rfl)
theorem lidx1 (a : Fin 16384) (b : Fin 32) (k : Fin 16384) : lidx_main_v1 (ix2 a b) k = ix2 a k :=
  funext fun d => Fin.ext (by match d with | ⟨0, _⟩ => rfl | ⟨1, _⟩ => rfl)
theorem ridx1 (a : Fin 16384) (b : Fin 32) (k : Fin 16384) : ridx_main_v1 (ix2 a b) k = ix2 k b :=
  funext fun d => Fin.ext (by match d with | ⟨0, _⟩ => rfl | ⟨1, _⟩ => rfl)
theorem lidx3 (a : Fin 16384) (b : Fin 32) (k : Fin 32) : lidx_main_v3 (ix2 a b) k = ix2 a k :=
  funext fun d => Fin.ext (by match d with | ⟨0, _⟩ => rfl | ⟨1, _⟩ => rfl)
theorem ridx3 (a : Fin 16384) (b : Fin 32) (k : Fin 32) : ridx_main_v3 (ix2 a b) k = ix2 k b :=
  funext fun d => Fin.ext (by match d with | ⟨0, _⟩ => rfl | ⟨1, _⟩ => rfl)
theorem lidx4 (a : Fin 16384) (b : Fin 32) (k : Fin 16384) : lidx_main_v4 (ix2 a b) k = ix2 a k :=
  funext fun d => Fin.ext (by match d with | ⟨0, _⟩ => rfl | ⟨1, _⟩ => rfl)
theorem ridx4 (a : Fin 16384) (b : Fin 32) (k : Fin 16384) : ridx_main_v4 (ix2 a b) k = ix2 k b :=
  funext fun d => Fin.ext (by match d with | ⟨0, _⟩ => rfl | ⟨1, _⟩ => rfl)
theorem lidx6 (a : Fin 16384) (b : Fin 1) (k : Fin 32) : lidx_main_v6 (ix2 a b) k = ix2 a k :=
  funext fun d => Fin.ext (by match d with | ⟨0, _⟩ => rfl | ⟨1, _⟩ => rfl)
theorem ridx6 (a : Fin 16384) (b : Fin 1) (k : Fin 32) : ridx_main_v6 (ix2 a b) k = ix2 k b :=
  funext fun d => Fin.ext (by match d with | ⟨0, _⟩ => rfl | ⟨1, _⟩ => rfl)
theorem lidx7 (a : Fin 16384) (b : Fin 1) (k : Fin 16384) : lidx_main_v7 (ix2 a b) k = ix2 a k :=
  funext fun d => Fin.ext (by match d with | ⟨0, _⟩ => rfl | ⟨1, _⟩ => rfl)
theorem ridx7 (a : Fin 16384) (b : Fin 1) (k : Fin 16384) : ridx_main_v7 (ix2 a b) k = ix2 k b :=
  funext fun d => Fin.ext (by match d with | ⟨0, _⟩ => rfl | ⟨1, _⟩ => rfl)

/-! ## The first layer -/

/-- `inputs · W0` is `feat`. -/
theorem v0_eq (x0 : (⟨S16384x1, .f32⟩ : BufTy).Contents (Elt Ideal)) (x2 : (⟨S1x32, .f32⟩ : BufTy).Contents (Elt Ideal)) :
    val_main_v0 (F := Ideal) x0 x2 = feat x0 x2 := by
  funext i
  obtain ⟨a, b, rfl⟩ : ∃ (a : Fin 16384) (b : Fin 32), i = ix2 a b := ⟨i 0, i 1, eq_ix2 i⟩
  rw [val_main_v0_apply]
  show _ = ∑ k : Fin 1, x0 (ix2 a k) * x2 (ix2 k b)
  exact Finset.sum_congr rfl fun k _ => by rw [lidx0, ridx0]

/-- `adj · (inputs · W0)` at `(a, b)` is the aggregate of `feat`. -/
theorem v1_at (x0 : (⟨S16384x1, .f32⟩ : BufTy).Contents (Elt Ideal)) (x1 : (⟨S16384x16384, .f32⟩ : BufTy).Contents (Elt Ideal)) (x2 : (⟨S1x32, .f32⟩ : BufTy).Contents (Elt Ideal)) (a : Fin 16384) (b : Fin 32) :
    val_main_v1 (F := Ideal) x0 x1 x2 (ix2 a b) = agg32 x1 (feat x0 x2) a b := by
  rw [val_main_v1_apply, v0_eq]
  show _ = ∑ k : Fin 16384, x1 (ix2 a k) * feat x0 x2 (ix2 k b)
  exact Finset.sum_congr rfl fun k _ => by rw [lidx1, ridx1]

/-- The first rectifier's constant is zero everywhere. -/
theorem zero0_at (j : S16384x32.Idx) : val_main_call0_v0 (F := Ideal) j = 0 := by
  rw [val_main_call0_v0_apply, val_main_call0_cst_apply]
  exact Ideal.ofBits_zero_f32

/-- The rectified aggregate at `(a, b)`. -/
theorem v2_at (x0 : (⟨S16384x1, .f32⟩ : BufTy).Contents (Elt Ideal)) (x1 : (⟨S16384x16384, .f32⟩ : BufTy).Contents (Elt Ideal)) (x2 : (⟨S1x32, .f32⟩ : BufTy).Contents (Elt Ideal)) (a : Fin 16384) (b : Fin 32) :
    val_main_v2 (F := Ideal) x0 x1 x2 (ix2 a b) = max (agg32 x1 (feat x0 x2) a b) 0 := by
  rw [val_main_v2_apply, v1_at, zero0_at]
  rfl

/-- `relu (adj · feat) · W1` is `layer1`. -/
theorem v3_eq (x0 : (⟨S16384x1, .f32⟩ : BufTy).Contents (Elt Ideal)) (x1 : (⟨S16384x16384, .f32⟩ : BufTy).Contents (Elt Ideal)) (x2 : (⟨S1x32, .f32⟩ : BufTy).Contents (Elt Ideal)) (x3 : (⟨S32x32, .f32⟩ : BufTy).Contents (Elt Ideal)) :
    val_main_v3 (F := Ideal) x0 x1 x2 x3 = layer1 x1 (feat x0 x2) x3 := by
  funext i
  obtain ⟨a, b, rfl⟩ : ∃ (a : Fin 16384) (b : Fin 32), i = ix2 a b := ⟨i 0, i 1, eq_ix2 i⟩
  rw [val_main_v3_apply]
  show _ = ∑ h : Fin 32, max (agg32 x1 (feat x0 x2) a h) 0 * x3 (ix2 h b)
  exact Finset.sum_congr rfl fun k _ => by rw [lidx3, ridx3, v2_at]

/-! ## The second layer -/

/-- `adj · layer1` at `(a, b)`. -/
theorem v4_at (x0 : (⟨S16384x1, .f32⟩ : BufTy).Contents (Elt Ideal)) (x1 : (⟨S16384x16384, .f32⟩ : BufTy).Contents (Elt Ideal)) (x2 : (⟨S1x32, .f32⟩ : BufTy).Contents (Elt Ideal)) (x3 : (⟨S32x32, .f32⟩ : BufTy).Contents (Elt Ideal)) (a : Fin 16384) (b : Fin 32) :
    val_main_v4 (F := Ideal) x0 x1 x2 x3 (ix2 a b) = agg32 x1 (layer1 x1 (feat x0 x2) x3) a b := by
  rw [val_main_v4_apply, v3_eq]
  show _ = ∑ k : Fin 16384, x1 (ix2 a k) * layer1 x1 (feat x0 x2) x3 (ix2 k b)
  exact Finset.sum_congr rfl fun k _ => by rw [lidx4, ridx4]

/-- The second rectifier's constant is zero everywhere. -/
theorem zero1_at (j : S16384x32.Idx) : val_main_call1_v0 (F := Ideal) j = 0 := by
  rw [val_main_call1_v0_apply, val_main_call1_cst_apply]
  exact Ideal.ofBits_zero_f32

/-- The rectified second aggregate at `(a, b)`. -/
theorem v5_at (x0 : (⟨S16384x1, .f32⟩ : BufTy).Contents (Elt Ideal)) (x1 : (⟨S16384x16384, .f32⟩ : BufTy).Contents (Elt Ideal)) (x2 : (⟨S1x32, .f32⟩ : BufTy).Contents (Elt Ideal)) (x3 : (⟨S32x32, .f32⟩ : BufTy).Contents (Elt Ideal)) (a : Fin 16384) (b : Fin 32) :
    val_main_v5 (F := Ideal) x0 x1 x2 x3 (ix2 a b) = max (agg32 x1 (layer1 x1 (feat x0 x2) x3) a b) 0 := by
  rw [val_main_v5_apply, v4_at, zero1_at]
  rfl

/-- `relu (adj · layer1) · W2` is `layer2`. -/
theorem v6_eq (x0 : (⟨S16384x1, .f32⟩ : BufTy).Contents (Elt Ideal)) (x1 : (⟨S16384x16384, .f32⟩ : BufTy).Contents (Elt Ideal)) (x2 : (⟨S1x32, .f32⟩ : BufTy).Contents (Elt Ideal)) (x3 : (⟨S32x32, .f32⟩ : BufTy).Contents (Elt Ideal)) (x4 : (⟨S32x1, .f32⟩ : BufTy).Contents (Elt Ideal)) :
    val_main_v6 (F := Ideal) x0 x1 x2 x3 x4 = layer2 x1 (layer1 x1 (feat x0 x2) x3) x4 := by
  funext i
  obtain ⟨a, b, rfl⟩ : ∃ (a : Fin 16384) (b : Fin 1), i = ix2 a b := ⟨i 0, i 1, eq_ix2 i⟩
  rw [val_main_v6_apply]
  show _ = ∑ h : Fin 32, max (agg32 x1 (layer1 x1 (feat x0 x2) x3) a h) 0 * x4 (ix2 h b)
  exact Finset.sum_congr rfl fun k _ => by rw [lidx6, ridx6, v5_at]

/-! ## The third layer -/

/-- `adj · layer2` at `(a, b)`. -/
theorem v7_at (x0 : (⟨S16384x1, .f32⟩ : BufTy).Contents (Elt Ideal)) (x1 : (⟨S16384x16384, .f32⟩ : BufTy).Contents (Elt Ideal)) (x2 : (⟨S1x32, .f32⟩ : BufTy).Contents (Elt Ideal)) (x3 : (⟨S32x32, .f32⟩ : BufTy).Contents (Elt Ideal)) (x4 : (⟨S32x1, .f32⟩ : BufTy).Contents (Elt Ideal)) (a : Fin 16384) (b : Fin 1) :
    val_main_v7 (F := Ideal) x0 x1 x2 x3 x4 (ix2 a b) = agg1 x1 (layer2 x1 (layer1 x1 (feat x0 x2) x3) x4) a b := by
  rw [val_main_v7_apply, v6_eq]
  show _ = ∑ k : Fin 16384, x1 (ix2 a k) * layer2 x1 (layer1 x1 (feat x0 x2) x3) x4 (ix2 k b)
  exact Finset.sum_congr rfl fun k _ => by rw [lidx7, ridx7]

/-- Both constants of the tail are one. -/
theorem one10_at (j : S16384x1.Idx) : val_main_v10 (F := Ideal) j = (1 : Ideal .f32) := by
  rw [val_main_v10_apply, val_main_cst_apply]
  exact Ideal.ofBits_one_f32

theorem one12_at (j : S16384x1.Idx) : val_main_v12 (F := Ideal) j = (1 : Ideal .f32) := by
  rw [val_main_v12_apply, val_main_cst_0_apply]
  exact Ideal.ofBits_one_f32

/-- The quotient `1 / (1 + e^(-v))` spelt in the host's operations is the logistic function of `v`, by definition. -/
theorem logistic_tail (v : Ideal .f32) :
    FloatOps.hostDivf (1 : Ideal .f32) (FloatOps.addf 1 (FloatOps.hostUnary .exp (FloatOps.hostNegf v))) = Ideal.logistic v := rfl

/-- The network at `(a, b)`: the logistic function of the third aggregate. -/
theorem G_at (x0 : (⟨S16384x1, .f32⟩ : BufTy).Contents (Elt Ideal)) (x1 : (⟨S16384x16384, .f32⟩ : BufTy).Contents (Elt Ideal)) (x2 : (⟨S1x32, .f32⟩ : BufTy).Contents (Elt Ideal)) (x3 : (⟨S32x32, .f32⟩ : BufTy).Contents (Elt Ideal)) (x4 : (⟨S32x1, .f32⟩ : BufTy).Contents (Elt Ideal)) (a : Fin 16384) (b : Fin 1) :
    G x0 x1 x2 x3 x4 (ix2 a b) = Ideal.logistic (agg1 x1 (layer2 x1 (layer1 x1 (feat x0 x2) x3) x4) a b) := rfl

/-- The reference's result is the network `G` of its five arguments: the tail `1 / (1 + e^(-v))` is the logistic
function of the third aggregate by definition. -/
theorem val_eq_G (x0 : (⟨S16384x1, .f32⟩ : BufTy).Contents (Elt Ideal)) (x1 : (⟨S16384x16384, .f32⟩ : BufTy).Contents (Elt Ideal)) (x2 : (⟨S1x32, .f32⟩ : BufTy).Contents (Elt Ideal)) (x3 : (⟨S32x32, .f32⟩ : BufTy).Contents (Elt Ideal)) (x4 : (⟨S32x1, .f32⟩ : BufTy).Contents (Elt Ideal)) :
    Cert.ReferenceIdeal.Read.val_main_v13 (F := Ideal) x0 x1 x2 x3 x4 = Cert.Spec.G x0 x1 x2 x3 x4 := by
  funext i
  obtain ⟨a, b, rfl⟩ : ∃ (a : Fin 16384) (b : Fin 1), i = ix2 a b := ⟨i 0, i 1, eq_ix2 i⟩
  rw [val_main_v13_apply, one12_at, val_main_v11_apply, one10_at, val_main_v9_apply, val_main_v8_apply, v7_at, G_at]
  exact logistic_tail _

/-! ## The reference's run, its result stated as `G` -/

open Idealize.ShloMosaic.TcCoe Idealize.SL.Sem in
/-- On every device every weakly fair execution of the reference terminates with its result array equal to the
network `G` of the five argument arrays as the run finds them, and the arguments unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c).1.trans ((val_main_v13_eq (F := Ideal) _ _ _ _ _).trans (val_eq_G _ _ _ _ _)), (h c).2⟩)
    (Cert.ReferenceIdeal.Value.run (F := Ideal) m ρ)

end Cert.ReferenceIdeal.RefValue

end
-- ==== Proof.Claims.lean ====
import proofs.«131155_j73212012528270_2_alg».proof.Defs
import proofs.«131155_j73212012528270_2_alg».proof.Proof.Spec
import proofs.«131155_j73212012528270_2_alg».proof.Proof.BitsSide.Run
import proofs.«131155_j73212012528270_2_alg».proof.Proof.IdealSide.Run
import proofs.«131155_j73212012528270_2_alg».proof.Proof.IdealSide.KernelValue
import proofs.«131155_j73212012528270_2_alg».proof.Proof.IdealSide.RefValue
import proofs.«131155_j73212012528270_2_alg».proof.Proof.Gen.Kernel
import proofs.«131155_j73212012528270_2_alg».proof.Proof.Gen.KernelIdeal
import proofs.«131155_j73212012528270_2_alg».proof.Proof.Gen.ReferenceIdeal
import proofs.«131155_j73212012528270_2_alg».proof.Proof.Gen.ReferenceIdeal.Run
import proofs.«131155_j73212012528270_2_alg».proof.Proof.Gen.Pre_finite_inputs

/-! # The five claims

The kernel computes a three-layer graph convolution in three pallas_calls, each a matrix product with the adjacency
matrix accumulated over K tiles in a scratch buffer, the second and third reading a bf16 copy of the adjacency matrix
the first one writes; the reference computes the same network with whole matrix products. On the extended reals a
cast is the identity and a sum may be regrouped freely, so both compute `Cert.Spec.G` of the argument arrays: the
kernel by its run through the three calls (each output array is the specification's layer of the call's input
arrays), the reference by its operations read one at a time. No finiteness of the inputs is used. The frames are the
same runs with the values dropped. -/

noncomputable section

namespace Cert.Proof.Claims

open Idealize.ShloMosaic Idealize.ShloMosaic.TcCoe Idealize.SL.Sem

/-- The word-level kernel runs and leaves its arguments: every unscoped buffer ends at the last boundary valuation, and
    no item writes an argument. -/
theorem frame_kernel : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W4_main_arg0 m ρ c),
      (h c _ (Cert.Kernel.Hand.mem_uc Cert.Kernel.main_arg1 (by decide))).trans (Cert.Kernel.Hand.W4_main_arg1 m ρ c),
      (h c _ (Cert.Kernel.Hand.mem_uc Cert.Kernel.main_arg2 (by decide))).trans (Cert.Kernel.Hand.W4_main_arg2 m ρ c),
      (h c _ (Cert.Kernel.Hand.mem_uc Cert.Kernel.main_arg3 (by decide))).trans (Cert.Kernel.Hand.W4_main_arg3 m ρ c),
      (h c _ (Cert.Kernel.Hand.mem_uc Cert.Kernel.main_arg4 (by decide))).trans (Cert.Kernel.Hand.W4_main_arg4 m ρ c)⟩)
    (Cert.Kernel.Hand.run_all (F := Bits) m ρ)

/-- The same for the idealized kernel. -/
theorem frame_kernelIdeal : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c)⟩)
    (Cert.KernelIdeal.Hand.run_all (F := Ideal) m ρ)

/-- The reference is a straight line of host operations: its run, the result dropped. -/
theorem frame_reference : Cert.frame_ReferenceIdeal := fun m ρ _ =>
  (θ_run (Cert.ReferenceIdeal.defs (F := Ideal)) _ _).mono (fun _ h c => (h c).2) (Cert.ReferenceIdeal.Value.run (F := Ideal) m ρ)

/-- The idealization rewrote nothing: the idealized kernel is the kernel's own text read on the extended reals. -/
theorem preserves : Cert.preserves_Kernel_KernelIdeal := trivial

/-- Both programs end with `G` of the argument arrays in their result. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run (Cert.KernelIdeal.defs (F := Ideal)) _ _).mono (fun r h c =>
      ⟨(h c _ (Cert.KernelIdeal.Hand.mem_uc Cert.KernelIdeal.main_v3 (by decide))).trans (Cert.KernelIdeal.Hand.result_is_G m ρ c),
        (h c _ (Cert.KernelIdeal.Hand.mem_uc Cert.KernelIdeal.main_arg0 (by decide))).trans (Cert.KernelIdeal.Hand.W4_main_arg0 m ρ c),
        (h c _ (Cert.KernelIdeal.Hand.mem_uc Cert.KernelIdeal.main_arg1 (by decide))).trans (Cert.KernelIdeal.Hand.W4_main_arg1 m ρ c),
        (h c _ (Cert.KernelIdeal.Hand.mem_uc Cert.KernelIdeal.main_arg2 (by decide))).trans (Cert.KernelIdeal.Hand.W4_main_arg2 m ρ c),
        (h c _ (Cert.KernelIdeal.Hand.mem_uc Cert.KernelIdeal.main_arg3 (by decide))).trans (Cert.KernelIdeal.Hand.W4_main_arg3 m ρ c),
        (h c _ (Cert.KernelIdeal.Hand.mem_uc Cert.KernelIdeal.main_arg4 (by decide))).trans (Cert.KernelIdeal.Hand.W4_main_arg4 m ρ c)⟩)
      (Cert.KernelIdeal.Hand.run_all (F := Ideal) m ρ)
  · refine (θ_run (Cert.ReferenceIdeal.defs (F := Ideal)) _ _).mono (fun r h c => ⟨(h c).1.trans ?_, (h c).2⟩)
      (Cert.ReferenceIdeal.RefValue.run_G m' ρ')
    rw [(hagree c).1, (hagree c).2.1, (hagree c).2.2.1, (hagree c).2.2.2.1, (hagree c).2.2.2.2]

end Cert.Proof.Claims

end
-- ==== Proof.lean ====
/- The proof of `Cert.Claim`: a three-layer graph convolution on a dense adjacency matrix, as three pallas_calls against
   the plain jnp network. Each call multiplies the adjacency matrix into a feature matrix tile by tile, keeping the running
   sum of the K tiles in a scratch accumulator that is zeroed at the first K tile of a row tile and read out, through
   `relu` and a projection (or the logistic), at the last. The frame of each program is its run (`Proof/*Side/Run.lean`:
   the host product and the three calls as segments, each call's accumulator carried in its invariant); the value of the
   idealized kernel's result is read off the same run (`Proof/IdealSide/Value*.lean`, `KernelValue.lean`) and equals the
   specification `Cert.Spec.G` (`Proof/Spec.lean`), which the reference computes too (`Proof/IdealSide/RefValue.lean`);
   `Proof/Claims.lean` states the five claims. -/
import proofs.«131155_j73212012528270_2_alg».proof.Defs
import proofs.«131155_j73212012528270_2_alg».proof.Proof.Claims
import proofs.«131155_j73212012528270_2_alg».proof.Proof.Gen.Kernel
import proofs.«131155_j73212012528270_2_alg».proof.Proof.Gen.Kernel.Skeleton
import proofs.«131155_j73212012528270_2_alg».proof.Proof.Gen.Kernel.Launch
import proofs.«131155_j73212012528270_2_alg».proof.Proof.Gen.Kernel.Regions
import proofs.«131155_j73212012528270_2_alg».proof.Proof.Gen.Kernel.Points
import proofs.«131155_j73212012528270_2_alg».proof.Proof.Gen.KernelIdeal
import proofs.«131155_j73212012528270_2_alg».proof.Proof.Gen.KernelIdeal.Skeleton
import proofs.«131155_j73212012528270_2_alg».proof.Proof.Gen.KernelIdeal.Launch
import proofs.«131155_j73212012528270_2_alg».proof.Proof.Gen.KernelIdeal.Regions
import proofs.«131155_j73212012528270_2_alg».proof.Proof.Gen.KernelIdeal.Points
import proofs.«131155_j73212012528270_2_alg».proof.Proof.Gen.ReferenceIdeal
import proofs.«131155_j73212012528270_2_alg».proof.Proof.Gen.ReferenceIdeal.Run
import proofs.«131155_j73212012528270_2_alg».proof.Proof.Gen.ReferenceIdeal.Read
import proofs.«131155_j73212012528270_2_alg».proof.Proof.Gen.Pre_finite_inputs
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_reference, Claims.preserves, Claims.algebraic⟩

end Cert.Proof

end
